-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S32x128 : Shape := ⟨2, ![32, 128]⟩
abbrev S128 : Shape := ⟨1, ![128]⟩
abbrev S257x128 : Shape := ⟨2, ![257, 128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S128x3 : Shape := ⟨2, ![128, 3]⟩
abbrev S3 : Shape := ⟨1, ![3]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S257x128 : S_.BroadcastsInDim S257x128 (![] : Fin 0 → Fin S257x128.rank)
  reducesTo_S257x128_S_d0_1 : S257x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S128 .f32) (main_arg16 : FVec F S128x3 .f32) (main_arg17 : FVec F S3 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x3 .f32 := Host.absf main_arg16
  let main_cst_28 : FVec F S_ .f32 := constant S_ .f32 0x7F800000#32
  let main_v75 : FVec F S128x3 .f32 := broadcastInDim S128x3 ![] bcast_S_S128x3 main_cst_28
  let main_v76 : IVec S128x3 1 := cmpf .olt main_v74 main_v75
  let main_c_29 : IVec S_ 1 := constantI S_ 1 1#1
  let main_v77 : IVec S_ 1 := (fun x v => Host.reduce IntOp.andi x v reducesTo_S128x3_S_d0_1 h_S_) main_v76 main_c_29
  let main_v78 : IVec S_ 1 := andi main_v73 main_v77
  let main_v79 : FVec F S3 .f32 := Host.absf main_arg17
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128x3 .f32) (main_arg17 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x1 .f32) (main_arg9 : FVec F S1 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S128x3 .f32) (main_arg17 : FVec F S3 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x1 .f32) (main_arg9 : FVec F S1 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S128x3 .f32) (main_arg17 : FVec F S3 .f32) (main_v13 : IVec S_ 1) (main_v16 : IVec S257x128 1) : IVec S_ 1 :=
  let main_c_5 : IVec S_ 1 := constantI S_ 1 1#1
  let main_v17 : IVec S_ 1 := (fun x v => Host.reduce IntOp.andi x v reducesTo_S257x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x32 .f32) (main_arg1 : IVec S2x800000 32) (main_arg2 : FVec F S32x128 .f32) (main_arg3 : FVec F S128 .f32) (main_arg4 : FVec F S257x128 .f32) (main_arg5 : FVec F S128 .f32) (main_arg6 : FVec F S128x128 .f32) (main_arg7 : FVec F S128 .f32) (main_arg8 : FVec F S128x1 .f32) (main_arg9 : FVec F S1 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S128x3 .f32) (main_arg17 : FVec F S3 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S257x128 .f32 := Host.absf main_arg4
  let main_cst_4 : FVec F S_ .f32 := constant S_ .f32 0x7F800000#32
  let main_v15 : FVec F S257x128 .f32 := broadcastInDim S257x128 ![] bcast_S_S257x128 main_cst_4
  let main_v16 : IVec S257x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x32 : Shape := ⟨2, ![50000, 32]⟩
abbrev S2x800000 : Shape := ⟨2, ![2, 800000]⟩
abbrev S32x128 : Shape := ⟨2, ![32, 128]⟩
abbrev S128 : Shape := ⟨1, ![128]⟩
abbrev S257x128 : Shape := ⟨2, ![257, 128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S128x3 : Shape := ⟨2, ![128, 3]⟩
abbrev S3 : Shape := ⟨1, ![3]⟩
abbrev S50000x2 : Shape := ⟨2, ![50000, 2]⟩
abbrev S1x128 : Shape := ⟨2, ![1, 128]⟩
abbrev S50000x128 : Shape := ⟨2, ![50000, 128]⟩
abbrev S5000x32 : Shape := ⟨2, ![5000, 32]⟩
abbrev S5000x128 : Shape := ⟨2, ![5000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S800000x128 : Shape := ⟨2, ![800000, 128]⟩
abbrev S1x1 : Shape := ⟨2, ![1, 1]⟩
abbrev S8000x128 : Shape := ⟨2, ![8000, 128]⟩
abbrev S8000x1 : Shape := ⟨2, ![8000, 1]⟩
abbrev S8000x256 : Shape := ⟨2, ![8000, 256]⟩
abbrev S1x3 : Shape := ⟨2, ![1, 3]⟩
abbrev S50000x3 : Shape := ⟨2, ![50000, 3]⟩
abbrev S5000x3 : Shape := ⟨2, ![5000, 3]⟩
abbrev S5000x256 : Shape := ⟨2, ![5000, 256]⟩

abbrev nBuf : Space → Nat
  | .hbm => 85
  | .vmem => 35
  | .smem => 0
  | _ => 0

abbrev bufTy : (tb : Table) → Fin (tcTables nBuf tb) → BufTy
  | .hbm, ⟨0, _⟩ => ⟨S50000x32, .f32⟩
  | .hbm, ⟨1, _⟩ => ⟨S2x800000, .i32⟩
  | .hbm, ⟨2, _⟩ => ⟨S32x128, .f32⟩
  | .hbm, ⟨3, _⟩ => ⟨S128, .f32⟩
  | .hbm, ⟨4, _⟩ => ⟨S257x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x3, .f32⟩
  | .hbm, ⟨17, _⟩ => ⟨S3, .f32⟩
  | .hbm, ⟨18, _⟩ => ⟨S50000x2, .f32⟩
  | .hbm, ⟨19, _⟩ => ⟨S1x128, .f32⟩
  | .hbm, ⟨20, _⟩ => ⟨S50000x128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x2, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x2, .f32⟩
  | .hbm, ⟨43, _⟩ => ⟨S800000x2, .f32⟩
  | .hbm, ⟨44, _⟩ => ⟨S800000x2, .f32⟩
  | .hbm, ⟨45, _⟩ => ⟨S_, .f32⟩
  | .hbm, ⟨46, _⟩ => ⟨S800000, .f32⟩
  | .hbm, ⟨47, _⟩ => ⟨S800000x1, .f32⟩
  | .hbm, ⟨48, _⟩ => ⟨S800000x1, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S256x128, .f32⟩
  | .hbm, ⟨68, _⟩ => ⟨S256x128, .bf16⟩
  | .hbm, ⟨69, _⟩ => ⟨S1x128, .f32⟩
  | .hbm, ⟨70, _⟩ => ⟨S1x128, .f32⟩
  | .hbm, ⟨71, _⟩ => ⟨S128x128, .bf16⟩
  | .hbm, ⟨72, _⟩ => ⟨S1x128, .f32⟩
  | .hbm, ⟨73, _⟩ => ⟨S1x1, .f32⟩
  | .hbm, ⟨74, _⟩ => ⟨S800000x128, .bf16⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x3, .f32⟩
  | .hbm, ⟨84, _⟩ => ⟨S50000x3, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S8000x1, .f32⟩
  | .local _ .vmem, ⟨11, _⟩ => ⟨S8000x1, .f32⟩
  | .local _ .vmem, ⟨12, _⟩ => ⟨S256x128, .bf16⟩
  | .local _ .vmem, ⟨13, _⟩ => ⟨S1x128, .f32⟩
  | .local _ .vmem, ⟨14, _⟩ => ⟨S1x128, .f32⟩
  | .local _ .vmem, ⟨15, _⟩ => ⟨S128x128, .bf16⟩
  | .local _ .vmem, ⟨16, _⟩ => ⟨S1x128, .f32⟩
  | .local _ .vmem, ⟨17, _⟩ => ⟨S128x1, .f32⟩
  | .local _ .vmem, ⟨18, _⟩ => ⟨S1x1, .f32⟩
  | .local _ .vmem, ⟨19, _⟩ => ⟨S8000x128, .bf16⟩
  | .local _ .vmem, ⟨20, _⟩ => ⟨S8000x128, .bf16⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S256x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S128x3, .f32⟩
  | .local _ .vmem, ⟨32, _⟩ => ⟨S1x3, .f32⟩
  | .local _ .vmem, ⟨33, _⟩ => ⟨S5000x3, .f32⟩
  | .local _ .vmem, ⟨34, _⟩ => ⟨S5000x3, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg10_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem10_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S8000x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x3 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x3 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x3 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S50000x32_S50000x2_0_0 : S50000x32.Slices ![0, 0] S50000x2
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x2_S800000_d1 : S800000x2.ReducesTo [1] S800000
  h_S_ : 0 < S_.numel
  slices_S257x128_S256x128_0_0 : S257x128.Slices ![0, 0] S256x128
  bitsLt_bf16_f32 : FTy.bits .bf16 < FTy.bits .f32
  slices_S257x128_S1x128_256_0 : S257x128.Slices ![256, 0] S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  concatenates_S8000x128_S8000x128_S8000x256_d1 : Shape.Concatenates [S8000x128, S8000x128] S8000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S8000x1_S8000x128 : S8000x1.Broadcasts S8000x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  packedbf16_S8000x128_S8000x128_0_0 : (Rect.unit (s := S8000x128) ![0, 0] S8000x128.size inb_S8000x128_S8000x128_0_0).PackedRows (EltTy.packing .bf16)
  bcast_S_S50000x128 : S_.BroadcastsInDim S50000x128 (![] : Fin 0 → Fin S50000x128.rank)
  shapeCasts_S3_S1x3 : S3.ShapeCasts S1x3
  shapeCasts_S5000x128_S5000x128 : S5000x128.ShapeCasts S5000x128
  concatenates_S5000x128_S5000x128_S5000x256_d1 : Shape.Concatenates [S5000x128, S5000x128] S5000x256 1
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  dot_S5000x32_S32x128_S5000x128_1_0_0_1_n_n_wf : DotDims.WF S5000x32 S32x128 S5000x128 [1] [0] [0] [1] [] []
  gather_S50000x2_S800000x1_S800000x2_1_0_n_n_0_1_12_wf : GatherDims.WF S50000x2 S800000x1 S800000x2 [1] [0] [] [0] [] 1 ![1, 2]
  gather_S50000x128_S800000x1_S800000x128_1_0_n_n_0_1_1128_wf : GatherDims.WF S50000x128 S800000x1 S800000x128 [1] [0] [] [0] [] 1 ![1, 128]
  dot_S8000x256_S256x128_S8000x128_1_0_0_1_n_n_wf : DotDims.WF S8000x256 S256x128 S8000x128 [1] [0] [0] [1] [] []
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .f32 = 32 ∨ (Rect.block (s := S800000x128) S8000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S800000x1.size a
  hwx1_2 : ∀ i : grid1.Coords, EltTy.bits .f32 = 32 ∨ (Rect.block (s := S800000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S128x1.size a
  hwx1_8 : ∀ i : grid1.Coords, EltTy.bits .f32 = 32 ∨ (Rect.block (s := S128x1) S128x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8000x128.size a ≤ S800000x128.size a
  hwx1_10 : ∀ i : grid1.Coords, EltTy.bits .bf16 = 32 ∨ (Rect.block (s := S800000x128) S8000x128.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x3.size a ≤ S128x3.size a
  hwx2_8 : ∀ i : grid2.Coords, EltTy.bits .f32 = 32 ∨ (Rect.block (s := S128x3) S128x3.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x3.size a ≤ S1x3.size a
  hwx2_9 : ∀ i : grid2.Coords, EltTy.bits .f32 = 32 ∨ (Rect.block (s := S1x3) S1x3.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x3.size a ≤ S50000x3.size a
  hwx2_10 : ∀ i : grid2.Coords, EltTy.bits .f32 = 32 ∨ (Rect.block (s := S50000x3) S5000x3.size (cc2_transform_10 i) (hinb2_10 i)).WholeWords (EltTy.packing .f32)

variable [Facts₀]

def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S128x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v46) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v47) S8000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v2) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S128x3.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v55) S1x3.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v56) S5000x3.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x32 : Shape := ⟨2, ![50000, 32]⟩
abbrev S2x800000 : Shape := ⟨2, ![2, 800000]⟩
abbrev S32x128 : Shape := ⟨2, ![32, 128]⟩
abbrev S128 : Shape := ⟨1, ![128]⟩
abbrev S257x128 : Shape := ⟨2, ![257, 128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S128x3 : Shape := ⟨2, ![128, 3]⟩
abbrev S3 : Shape := ⟨1, ![3]⟩
abbrev S50000x2 : Shape := ⟨2, ![50000, 2]⟩
abbrev S50000x128 : Shape := ⟨2, ![50000, 128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S800000x128 : Shape := ⟨2, ![800000, 128]⟩
abbrev S800000x257 : Shape := ⟨2, ![800000, 257]⟩
abbrev S1x1 : Shape := ⟨2, ![1, 1]⟩
abbrev S50000x256 : Shape := ⟨2, ![50000, 256]⟩
abbrev S50000x3 : Shape := ⟨2, ![50000, 3]⟩
abbrev S1x3 : Shape := ⟨2, ![1, 3]⟩

abbrev nBuf : Space → Nat
  | .hbm => 142
  | .vmem => 0
  | .smem => 0
  | _ => 0

abbrev hbmTy0_0 (i : Nat) : BufTy := match i % 128 with
  | 0 => ⟨S50000x32, .f32⟩
  | 1 => ⟨S2x800000, .i32⟩
  | 2 => ⟨S32x128, .f32⟩
  | 3 => ⟨S128, .f32⟩
  | 4 => ⟨S257x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S256x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x3, .f32⟩
  | 17 => ⟨S3, .f32⟩
  | 18 => ⟨S50000x2, .f32⟩
  | 19 => ⟨S50000x128, .f32⟩
  | 20 => ⟨S1x128, .f32⟩
  | 21 => ⟨S50000x128, .f32⟩
  | 22 => ⟨S50000x128, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x2, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x2, .f32⟩
  | 45 => ⟨S800000x2, .f32⟩
  | 46 => ⟨S800000x2, .f32⟩
  | 47 => ⟨S_, .f32⟩
  | 48 => ⟨S800000, .f32⟩
  | 49 => ⟨S800000, .f32⟩
  | 50 => ⟨S800000x1, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x257, .f32⟩
  | 70 => ⟨S800000x128, .f32⟩
  | 71 => ⟨S1x128, .f32⟩
  | 72 => ⟨S800000x128, .f32⟩
  | 73 => ⟨S800000x128, .f32⟩
  | 74 => ⟨S800000x128, .f32⟩
  | 75 => ⟨S800000x128, .f32⟩
  | 76 => ⟨S_, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S800000x128, .f32⟩
  | 83 => ⟨S800000x128, .f32⟩
  | 84 => ⟨S1x128, .f32⟩
  | 85 => ⟨S800000x128, .f32⟩
  | 86 => ⟨S800000x128, .f32⟩
  | 87 => ⟨S800000x128, .f32⟩
  | 88 => ⟨S800000x128, .f32⟩
  | 89 => ⟨S_, .f32⟩
  | 90 => ⟨S800000x128, .f32⟩
  | 91 => ⟨S800000x128, .f32⟩
  | 92 => ⟨S_, .f32⟩
  | 93 => ⟨S800000x128, .f32⟩
  | 94 => ⟨S800000x128, .f32⟩
  | 95 => ⟨S800000x128, .f32⟩
  | 96 => ⟨S800000x1, .f32⟩
  | 97 => ⟨S1x1, .f32⟩
  | 98 => ⟨S800000x1, .f32⟩
  | 99 => ⟨S800000x1, .f32⟩
  | 100 => ⟨S800000x1, .f32⟩
  | 101 => ⟨S800000x1, .f32⟩
  | 102 => ⟨S_, .f32⟩
  | 103 => ⟨S800000x1, .f32⟩
  | 104 => ⟨S800000x1, .f32⟩
  | 105 => ⟨S_, .f32⟩
  | 106 => ⟨S800000x1, .f32⟩
  | 107 => ⟨S800000x1, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S50000x256, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x32, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S50000x128, .f32⟩
  | 10 => ⟨S50000x3, .f32⟩
  | 11 => ⟨S1x3, .f32⟩
  | 12 => ⟨S50000x3, .f32⟩
  | 13 => ⟨S50000x3, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst : Ref sig .tc := ⟨.hbm, 102, rfl⟩
abbrev main_v57 : Ref sig .tc := ⟨.hbm, 103, rfl⟩
abbrev main_v58 : Ref sig .tc := ⟨.hbm, 104, rfl⟩
abbrev main_cst_7 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_8 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩

abbrev nD : Nat := 1
abbrev τ : Topo := Topo.v7x

variable {F : FTy → Type} [FloatOps F]

class Facts₀ : Prop where
  slices_S50000x32_S50000x2_0_0 : S50000x32.Slices ![0, 0] S50000x2
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x2_S800000_d1 : S800000x2.ReducesTo [1] S800000
  h_S_ : 0 < S_.numel
  concatenates_S800000x128_S800000x128_S800000x1_S800000x257_d1 : Shape.Concatenates [S800000x128, S800000x128, S800000x1] S800000x257 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  dot_S50000x32_S32x128_S50000x128_1_0_0_1_n_n_wf : DotDims.WF S50000x32 S32x128 S50000x128 [1] [0] [0] [1] [] []
  gather_S50000x2_S800000x1_S800000x2_1_0_n_n_0_1_12_wf : GatherDims.WF S50000x2 S800000x1 S800000x2 [1] [0] [] [0] [] 1 ![1, 2]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S50000x128_S128x3_S50000x3_1_0_0_1_n_n_wf : DotDims.WF S50000x128 S128x3 S50000x3 [1] [0] [0] [1] [] []

variable [Facts₀]

def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.KernelRun.lean ====
/-
  The idealized kernel program's run with its RESULT named: every weakly fair execution of @main terminates without
  a fault, the eighteen argument arrays end as launched, and the result array `main_v56` ends at the contents the last
  segment boundary holds for it (`W6`: region 2's output array after its write-backs). It is the frame's own argument
  — @main as six segments, a host stretch before each of the three regions — with the result buffer read off the last
  thread state beside the arguments: the result is an unscoped buffer, and the last thread state holds every unscoped
  buffer at `W6`.
-/
import proofs.«125594_j55594056679488_2_alg».proof.Proof.KernelIdealFrameP

set_option maxRecDepth 16384

noncomputable section

namespace Cert.KernelIdeal.KernelRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, the result named: beside the arguments' conjuncts, `main_v56` ends at `W6 m ρ c` of its buffer. -/
theorem run_named : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c)⟩)

end Cert.KernelIdeal.KernelRun

end
-- ==== Proof.Stages.lean ====
/-
  The stages of the message-passing computation, each as ONE function of whole arrays, written with the host
  operations of the reference program and its dimension records: the node embedding, the per-edge index and
  distance chain, the edge network with its gate, the scatter-add of the gated messages onto the start nodes, and
  the node update with the output head. Composed (`whole`) they are, after unfolding, literally the term the
  reference's @main computes from its eighteen arguments; the kernel's three tiled regions and the host operations
  between them are shown, region by region, to compute the same stages.
-/
import proofs.«125594_j55594056679488_2_alg».proof.ReferenceIdeal
import proofs.«125594_j55594056679488_2_alg».proof.Proof.Gen.ReferenceIdeal

noncomputable section

namespace Cert.Stages

open Cert.ReferenceIdeal Cert.ReferenceIdeal.Gen Idealize.ShloMosaic Idealize.ShloMosaic.TcCoe

variable {F : FTy → Type} [FloatOps F]

/-- The node embedding `x · W_emb + b_emb`: the product over the 32 input channels, the bias laid along every row. -/
def embed (x : (⟨S50000x32, .f32⟩ : BufTy).Contents (Elt F)) (w : (⟨S32x128, .f32⟩ : BufTy).Contents (Elt F)) (b : (⟨S128, .f32⟩ : BufTy).Contents (Elt F)) :
    (⟨S50000x128, .f32⟩ : BufTy).Contents (Elt F) :=
  addf (Host.dotGeneral dot_S50000x32_S32x128_S50000x128_1_0_0_1_n_n none x w) (broadcastInDim S50000x128 ![0, 1] bcast_S1x128_S50000x128_0_1 (broadcastInDim S1x128 ![1] bcast_S128_S1x128_1 b))

/-- Row 0 of the edge list: each edge's start node. -/
def estOf (ei : (⟨S2x800000, .i32⟩ : BufTy).Contents (Elt F)) :
    (⟨S800000, .i32⟩ : BufTy).Contents (Elt F) :=
  shapeCast _ (extractStridedSlice S1x800000 ![0, 0] ei slices_S2x800000_S1x800000_0_0) shapeCasts_S1x800000_S800000

/-- Row 1 of the edge list: each edge's end node. -/
def eendOf (ei : (⟨S2x800000, .i32⟩ : BufTy).Contents (Elt F)) :
    (⟨S800000, .i32⟩ : BufTy).Contents (Elt F) :=
  shapeCast _ (extractStridedSlice S1x800000 ![1, 0] ei slices_S2x800000_S1x800000_1_0) shapeCasts_S1x800000_S800000

/-- A node index with a negative value counted from the end (`e + 50000` where `e < 0`), as an index column. -/
def wrapIdx (e : (⟨S800000, .i32⟩ : BufTy).Contents (Elt F)) :
    (⟨S800000x1, .i32⟩ : BufTy).Contents (Elt F) :=
  broadcastInDim S800000x1 ![0] bcast_S800000_S800000x1_0 (select (cmpi .slt e (broadcastInDim S800000 ![] bcast_S_S800000 (constantI S_ 32 0#32))) (addi e (broadcastInDim S800000 ![] bcast_S_S800000 (constantI S_ 32 50000#32))) e)

/-- The first two input channels: each node's position. -/
def posOf (x : (⟨S50000x32, .f32⟩ : BufTy).Contents (Elt F)) :
    (⟨S50000x2, .f32⟩ : BufTy).Contents (Elt F) :=
  extractStridedSlice S50000x2 ![0, 0] x slices_S50000x32_S50000x2_0_0

/-- Per edge, the start node's position minus the end node's. -/
def diff (pos : (⟨S50000x2, .f32⟩ : BufTy).Contents (Elt F)) (wst : (⟨S800000x1, .i32⟩ : BufTy).Contents (Elt F)) (wend : (⟨S800000x1, .i32⟩ : BufTy).Contents (Elt F)) :
    (⟨S800000x2, .f32⟩ : BufTy).Contents (Elt F) :=
  subf (Host.gather gather_S50000x2_S800000x1_S800000x2_1_0_n_n_0_1_12 pos wst) (Host.gather gather_S50000x2_S800000x1_S800000x2_1_0_n_n_0_1_12 pos wend)

/-- Per edge, the length of that difference, as a column: the square root of the sum of the two squares. -/
def dist (pos : (⟨S50000x2, .f32⟩ : BufTy).Contents (Elt F)) (wst : (⟨S800000x1, .i32⟩ : BufTy).Contents (Elt F)) (wend : (⟨S800000x1, .i32⟩ : BufTy).Contents (Elt F)) :
    (⟨S800000x1, .f32⟩ : BufTy).Contents (Elt F) :=
  broadcastInDim S800000x1 ![0] bcast_S800000_S800000x1_0 (Host.sqrt (Host.reduceAdd (mulf (diff pos wst wend) (diff pos wst wend)) (constant S_ .f32 0x00000000#32) reducesTo_S800000x2_S800000_d1 h_S_))

/-- Per edge, the embedding row of the indexed node. -/
def gatherH (h : (⟨S50000x128, .f32⟩ : BufTy).Contents (Elt F)) (wi : (⟨S800000x1, .i32⟩ : BufTy).Contents (Elt F)) :
    (⟨S800000x128, .f32⟩ : BufTy).Contents (Elt F) :=
  Host.gather gather_S50000x128_S800000x1_S800000x128_1_0_n_n_0_1_1128 h wi

/-- Per edge, the 257 inputs of the edge network: the two embedding rows and the distance, side by side. -/
def cat3 (hst : (⟨S800000x128, .f32⟩ : BufTy).Contents (Elt F)) (hend : (⟨S800000x128, .f32⟩ : BufTy).Contents (Elt F)) (d : (⟨S800000x1, .f32⟩ : BufTy).Contents (Elt F)) :
    (⟨S800000x257, .f32⟩ : BufTy).Contents (Elt F) :=
  concatenate S800000x257 1 [⟨S800000x128, hst⟩, ⟨S800000x128, hend⟩, ⟨S800000x1, d⟩] concatenates_S800000x128_S800000x128_S800000x1_S800000x257_d1

/-- The edge network's first linear layer, over all 257 inputs. -/
def lin1 (ct : (⟨S800000x257, .f32⟩ : BufTy).Contents (Elt F)) (we1 : (⟨S257x128, .f32⟩ : BufTy).Contents (Elt F)) (be1 : (⟨S128, .f32⟩ : BufTy).Contents (Elt F)) :
    (⟨S800000x128, .f32⟩ : BufTy).Contents (Elt F) :=
  addf (Host.dotGeneral dot_S800000x257_S257x128_S800000x128_1_0_0_1_n_n none ct we1) (broadcastInDim S800000x128 ![0, 1] bcast_S1x128_S800000x128_0_1 (broadcastInDim S1x128 ![1] bcast_S128_S1x128_1 be1))

/-- `x · 1 / (1 + e^(-x))`, entry by entry, on per-edge rows. -/
def siluE (x : (⟨S800000x128, .f32⟩ : BufTy).Contents (Elt F)) :
    (⟨S800000x128, .f32⟩ : BufTy).Contents (Elt F) :=
  mulf x (Host.divf (broadcastInDim S800000x128 ![] bcast_S_S800000x128 (constant S_ .f32 0x3F800000#32)) (addf (broadcastInDim S800000x128 ![] bcast_S_S800000x128 (constant S_ .f32 0x3F800000#32)) (Host.exp (Host.negf x))))

/-- The edge network's second linear layer. -/
def lin2 (s : (⟨S800000x128, .f32⟩ : BufTy).Contents (Elt F)) (we2 : (⟨S128x128, .f32⟩ : BufTy).Contents (Elt F)) (be2 : (⟨S128, .f32⟩ : BufTy).Contents (Elt F)) :
    (⟨S800000x128, .f32⟩ : BufTy).Contents (Elt F) :=
  addf (Host.dotGeneral dot_S800000x128_S128x128_S800000x128_1_0_0_1_n_n none s we2) (broadcastInDim S800000x128 ![0, 1] bcast_S1x128_S800000x128_0_1 (broadcastInDim S1x128 ![1] bcast_S128_S1x128_1 be2))

/-- The per-edge message `m_ij`: two linear layers, each followed by `siluE`. -/
def edgeM (hst : (⟨S800000x128, .f32⟩ : BufTy).Contents (Elt F)) (hend : (⟨S800000x128, .f32⟩ : BufTy).Contents (Elt F)) (d : (⟨S800000x1, .f32⟩ : BufTy).Contents (Elt F)) (we1 : (⟨S257x128, .f32⟩ : BufTy).Contents (Elt F)) (be1 : (⟨S128, .f32⟩ : BufTy).Contents (Elt F)) (we2 : (⟨S128x128, .f32⟩ : BufTy).Contents (Elt F)) (be2 : (⟨S128, .f32⟩ : BufTy).Contents (Elt F)) :
    (⟨S800000x128, .f32⟩ : BufTy).Contents (Elt F) :=
  siluE (lin2 (siluE (lin1 (cat3 hst hend d) we1 be1)) we2 be2)

/-- The gated message: `m_ij` scaled, row by row, by `1 / (1 + e^(-(m_ij · W_inf + b_inf)))`. -/
def edgeOut (mm : (⟨S800000x128, .f32⟩ : BufTy).Contents (Elt F)) (winf : (⟨S128x1, .f32⟩ : BufTy).Contents (Elt F)) (binf : (⟨S1, .f32⟩ : BufTy).Contents (Elt F)) :
    (⟨S800000x128, .f32⟩ : BufTy).Contents (Elt F) :=
  mulf (broadcastInDim S800000x128 ![0, 1] bcast_S800000x1_S800000x128_0_1 (Host.divf (broadcastInDim S800000x1 ![] bcast_S_S800000x1 (constant S_ .f32 0x3F800000#32)) (addf (broadcastInDim S800000x1 ![] bcast_S_S800000x1 (constant S_ .f32 0x3F800000#32)) (Host.exp (Host.negf (addf (Host.dotGeneral dot_S800000x128_S128x1_S800000x1_1_0_0_1_n_n none mm winf) (broadcastInDim S800000x1 ![0, 1] bcast_S1x1_S800000x1_0_1 (broadcastInDim S1x1 ![1] bcast_S1_S1x1_1 binf)))))))) mm

/-- Per node, the sum of the gated messages of the edges that start there (from zero). -/
def scatterMi (est : (⟨S800000, .i32⟩ : BufTy).Contents (Elt F)) (g : (⟨S800000x128, .f32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 est) g

/-- The node network's first linear layer, over the embedding row and the summed messages side by side. -/
def lin3 (h : (⟨S50000x128, .f32⟩ : BufTy).Contents (Elt F)) (mi : (⟨S50000x128, .f32⟩ : BufTy).Contents (Elt F)) (wh1 : (⟨S256x128, .f32⟩ : BufTy).Contents (Elt F)) (bh1 : (⟨S128, .f32⟩ : BufTy).Contents (Elt F)) :
    (⟨S50000x128, .f32⟩ : BufTy).Contents (Elt F) :=
  addf (Host.dotGeneral dot_S50000x256_S256x128_S50000x128_1_0_0_1_n_n none (concatenate S50000x256 1 [⟨S50000x128, h⟩, ⟨S50000x128, mi⟩] concatenates_S50000x128_S50000x128_S50000x256_d1) wh1) (broadcastInDim S50000x128 ![0, 1] bcast_S1x128_S50000x128_0_1 (broadcastInDim S1x128 ![1] bcast_S128_S1x128_1 bh1))

/-- `x · 1 / (1 + e^(-x))`, entry by entry, on per-node rows. -/
def siluN (x : (⟨S50000x128, .f32⟩ : BufTy).Contents (Elt F)) :
    (⟨S50000x128, .f32⟩ : BufTy).Contents (Elt F) :=
  mulf x (Host.divf (broadcastInDim S50000x128 ![] bcast_S_S50000x128 (constant S_ .f32 0x3F800000#32)) (addf (broadcastInDim S50000x128 ![] bcast_S_S50000x128 (constant S_ .f32 0x3F800000#32)) (Host.exp (Host.negf x))))

/-- The node update and the output head: `h' = h + (siluN(lin3) · W_h2 + b_h2)`, then `tanh(h' · W_l1 + b_l1) · W_l2 + b_l2`. -/
def node (h : (⟨S50000x128, .f32⟩ : BufTy).Contents (Elt F)) (mi : (⟨S50000x128, .f32⟩ : BufTy).Contents (Elt F)) (wh1 : (⟨S256x128, .f32⟩ : BufTy).Contents (Elt F)) (bh1 : (⟨S128, .f32⟩ : BufTy).Contents (Elt F)) (wh2 : (⟨S128x128, .f32⟩ : BufTy).Contents (Elt F)) (bh2 : (⟨S128, .f32⟩ : BufTy).Contents (Elt F)) (wl1 : (⟨S128x128, .f32⟩ : BufTy).Contents (Elt F)) (bl1 : (⟨S128, .f32⟩ : BufTy).Contents (Elt F)) (wl2 : (⟨S128x3, .f32⟩ : BufTy).Contents (Elt F)) (bl2 : (⟨S3, .f32⟩ : BufTy).Contents (Elt F)) :
    (⟨S50000x3, .f32⟩ : BufTy).Contents (Elt F) :=
  addf (Host.dotGeneral dot_S50000x128_S128x3_S50000x3_1_0_0_1_n_n none (Host.tanh (addf (Host.dotGeneral dot_S50000x128_S128x128_S50000x128_1_0_0_1_n_n none (addf h (addf (Host.dotGeneral dot_S50000x128_S128x128_S50000x128_1_0_0_1_n_n none (siluN (lin3 h mi wh1 bh1)) wh2) (broadcastInDim S50000x128 ![0, 1] bcast_S1x128_S50000x128_0_1 (broadcastInDim S1x128 ![1] bcast_S128_S1x128_1 bh2)))) wl1) (broadcastInDim S50000x128 ![0, 1] bcast_S1x128_S50000x128_0_1 (broadcastInDim S1x128 ![1] bcast_S128_S1x128_1 bl1)))) wl2) (broadcastInDim S50000x3 ![0, 1] bcast_S1x3_S50000x3_0_1 (broadcastInDim S1x3 ![1] bcast_S3_S1x3_1 bl2))

/-- The whole computation, of the eighteen argument arrays in @main's order. -/
def whole (a0 : (⟨S50000x32, .f32⟩ : BufTy).Contents (Elt F)) (a1 : (⟨S2x800000, .i32⟩ : BufTy).Contents (Elt F)) (a2 : (⟨S32x128, .f32⟩ : BufTy).Contents (Elt F)) (a3 : (⟨S128, .f32⟩ : BufTy).Contents (Elt F)) (a4 : (⟨S257x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S128x1, .f32⟩ : BufTy).Contents (Elt F)) (a9 : (⟨S1, .f32⟩ : BufTy).Contents (Elt F)) (a10 : (⟨S256x128, .f32⟩ : BufTy).Contents (Elt F)) (a11 : (⟨S128, .f32⟩ : BufTy).Contents (Elt F)) (a12 : (⟨S128x128, .f32⟩ : BufTy).Contents (Elt F)) (a13 : (⟨S128, .f32⟩ : BufTy).Contents (Elt F)) (a14 : (⟨S128x128, .f32⟩ : BufTy).Contents (Elt F)) (a15 : (⟨S128, .f32⟩ : BufTy).Contents (Elt F)) (a16 : (⟨S128x3, .f32⟩ : BufTy).Contents (Elt F)) (a17 : (⟨S3, .f32⟩ : BufTy).Contents (Elt F)) :
    (⟨S50000x3, .f32⟩ : BufTy).Contents (Elt F) :=
  node (embed a0 a2 a3) (scatterMi (estOf a1) (edgeOut (edgeM (gatherH (embed a0 a2 a3) (wrapIdx (estOf a1))) (gatherH (embed a0 a2 a3) (wrapIdx (eendOf a1))) (dist (posOf a0) (wrapIdx (estOf a1)) (wrapIdx (eendOf a1))) a4 a5 a6 a7) a8 a9)) a10 a11 a12 a13 a14 a15 a16 a17

end Cert.Stages

end
-- ==== Proof.HostWalk.lean ====
/-
  The kernel program's host operations, read one result buffer at a time over an arbitrary valuation of the
  TensorCore's buffers: each stretch of host operations between the tiled regions leaves, at every buffer it
  writes, a whole-array function of the buffers it found, and that function is one of the stages of the
  message-passing computation (the position columns, the per-edge index chain, the gathered embedding rows,
  the per-edge distance, the weight slices and row layouts the regions read, the scatter-add of the gated
  messages); every buffer a stretch does not write keeps its contents.
-/
import proofs.«125594_j55594056679488_2_alg».proof.Proof.KernelIdealLaunchP
import proofs.«125594_j55594056679488_2_alg».proof.Proof.Stages
import Idealize.ShloMosaic.Lib.StableHlo.Run
import Idealize.ShloMosaic.Lib.ValueIdx
import Idealize.ShloMosaic.Lib.Pipeline.Value

noncomputable section

namespace Cert.KernelIdeal.HostWalk

open Cert.KernelIdeal Cert.KernelIdeal.Gen Cert.KernelIdeal.GenP Idealize.ShloMosaic Idealize.ShloMosaic.TcCoe Idealize.ShloMosaic.StableHlo

variable (W : Valuation τ sig (Elt Ideal))

/-! ## The stretch before region 0 -/

/-- The first two input channels of every node: its position. -/
theorem ops0_v0 : StableHlo.after hostOps0 W (Proc.devRef .tc main_v0) = Cert.Stages.posOf (F := Ideal) (W (Proc.devRef .tc main_arg0)) := by
  simp only [hostOps0]
  after_results_simp <;> rfl

/-- The embedding bias laid as one row. -/
theorem ops0_v1 : StableHlo.after hostOps0 W (Proc.devRef .tc main_v1) = shapeCast S1x128 (W (Proc.devRef .tc main_arg3)) shapeCasts_S128_S1x128 := by
  simp only [hostOps0]
  after_results_simp <;> rfl

/-- Every reference the stretch writes is one of the two listed. -/
theorem ops0_writes : (hostOps0 : List (HloOp τ sig (Elt Ideal))).Forall fun op => op.writes ⊆ (([main_v0, main_v1] : List (Ref sig .tc)).map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents. -/
theorem ops0_keep (b : Ref sig .tc) (hb : b ∉ [main_v0, main_v1]) : StableHlo.after hostOps0 W (Proc.devRef .tc b) = W (Proc.devRef .tc b) :=
  StableHlo.after_of_writes_sub hostOps0 W ops0_writes hb

/-! ## The stretch between regions 0 and 1 -/

/-- Each edge's start node: row 0 of the edge list. -/
theorem ops1_v4 : StableHlo.after hostOps1 W (Proc.devRef .tc main_v4) = Cert.Stages.estOf (F := Ideal) (W (Proc.devRef .tc main_arg1)) := by
  simp only [hostOps1]
  after_results_simp <;> rfl

/-- Per edge, the embedding row of its start node (a negative index counted from the end). -/
theorem ops1_v32 : StableHlo.after hostOps1 W (Proc.devRef .tc main_v32) = Cert.Stages.gatherH (F := Ideal) (W (Proc.devRef .tc main_v2)) (Cert.Stages.wrapIdx (Cert.Stages.estOf (W (Proc.devRef .tc main_arg1)))) := by
  simp only [hostOps1]
  after_results_simp <;> rfl

/-- Per edge, the embedding row of its end node. -/
theorem ops1_v39 : StableHlo.after hostOps1 W (Proc.devRef .tc main_v39) = Cert.Stages.gatherH (F := Ideal) (W (Proc.devRef .tc main_v2)) (Cert.Stages.wrapIdx (Cert.Stages.eendOf (W (Proc.devRef .tc main_arg1)))) := by
  simp only [hostOps1]
  after_results_simp <;> rfl

/-- A square root taken entry by entry commutes with laying a vector out as a column: either way entry
    `(i, 0)` is the root of entry `i`. -/
theorem sqrt_column (x : FVec Ideal S800000 .f32) :
    Host.sqrt (F := Ideal) (broadcastInDim S800000x1 ![0] bcast_S800000_S800000x1_0 x) = broadcastInDim S800000x1 ![0] bcast_S800000_S800000x1_0 (Host.sqrt (F := Ideal) x) := rfl

/-- Per edge, the distance between its two nodes' positions, as a column: the kernel lays the sum of squares
    out as a column and then takes the root, the stage takes the root and then lays it out. -/
theorem ops1_v25 : StableHlo.after hostOps1 W (Proc.devRef .tc main_v25) = Cert.Stages.dist (F := Ideal) (W (Proc.devRef .tc main_v0)) (Cert.Stages.wrapIdx (Cert.Stages.estOf (W (Proc.devRef .tc main_arg1)))) (Cert.Stages.wrapIdx (Cert.Stages.eendOf (W (Proc.devRef .tc main_arg1)))) := by
  simp only [hostOps1]
  after_results_simp
  exact (sqrt_column _).trans rfl

/-- The first 256 rows of the edge network's first weight matrix, rounded to half precision. -/
theorem ops1_v41 : StableHlo.after hostOps1 W (Proc.devRef .tc main_v41) = truncf (F := Ideal) .bf16 (extractStridedSlice S256x128 ![0, 0] (W (Proc.devRef .tc main_arg4)) slices_S257x128_S256x128_0_0) bitsLt_bf16_f32 := by
  simp only [hostOps1]
  after_results_simp <;> rfl

/-- Its last row: the weights of the distance input. -/
theorem ops1_v42 : StableHlo.after hostOps1 W (Proc.devRef .tc main_v42) = extractStridedSlice S1x128 ![256, 0] (W (Proc.devRef .tc main_arg4)) slices_S257x128_S1x128_256_0 := by
  simp only [hostOps1]
  after_results_simp <;> rfl

theorem ops1_v43 : StableHlo.after hostOps1 W (Proc.devRef .tc main_v43) = shapeCast S1x128 (W (Proc.devRef .tc main_arg5)) shapeCasts_S128_S1x128 := by
  simp only [hostOps1]
  after_results_simp <;> rfl

theorem ops1_v44 : StableHlo.after hostOps1 W (Proc.devRef .tc main_v44) = truncf (F := Ideal) .bf16 (W (Proc.devRef .tc main_arg6)) bitsLt_bf16_f32 := by
  simp only [hostOps1]
  after_results_simp <;> rfl

theorem ops1_v45 : StableHlo.after hostOps1 W (Proc.devRef .tc main_v45) = shapeCast S1x128 (W (Proc.devRef .tc main_arg7)) shapeCasts_S128_S1x128 := by
  simp only [hostOps1]
  after_results_simp <;> rfl

theorem ops1_v46 : StableHlo.after hostOps1 W (Proc.devRef .tc main_v46) = shapeCast S1x1 (W (Proc.devRef .tc main_arg9)) shapeCasts_S1_S1x1 := by
  simp only [hostOps1]
  after_results_simp <;> rfl

/-- Every reference the stretch writes is one of the fifty-three listed. -/
theorem ops1_writes : (hostOps1 : List (HloOp τ sig (Elt Ideal))).Forall fun op => op.writes ⊆ (([main_v3, main_v4, main_v5, main_v6, main_c, main_v7, main_v8, main_c_0, main_v9, main_v10, main_v11, main_v12, main_v13, main_c_1, main_v14, main_v15, main_c_2, main_v16, main_v17, main_v18, main_v19, main_v20, main_v21, main_v22, main_cst, main_v23, main_v24, main_v25, main_c_3, main_v26, main_v27, main_c_4, main_v28, main_v29, main_v30, main_v31, main_v32, main_c_5, main_v33, main_v34, main_c_6, main_v35, main_v36, main_v37, main_v38, main_v39, main_v40, main_v41, main_v42, main_v43, main_v44, main_v45, main_v46] : List (Ref sig .tc)).map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents. -/
theorem ops1_keep (b : Ref sig .tc) (hb : b ∉ [main_v3, main_v4, main_v5, main_v6, main_c, main_v7, main_v8, main_c_0, main_v9, main_v10, main_v11, main_v12, main_v13, main_c_1, main_v14, main_v15, main_c_2, main_v16, main_v17, main_v18, main_v19, main_v20, main_v21, main_v22, main_cst, main_v23, main_v24, main_v25, main_c_3, main_v26, main_v27, main_c_4, main_v28, main_v29, main_v30, main_v31, main_v32, main_c_5, main_v33, main_v34, main_c_6, main_v35, main_v36, main_v37, main_v38, main_v39, main_v40, main_v41, main_v42, main_v43, main_v44, main_v45, main_v46]) : StableHlo.after hostOps1 W (Proc.devRef .tc b) = W (Proc.devRef .tc b) :=
  StableHlo.after_of_writes_sub hostOps1 W ops1_writes hb

/-! ## The stretch between regions 1 and 2 -/

/-- Per node, the sum of the gated messages of the edges that start there: at the ideal values widening the
    region's result to single precision changes nothing, and the zero array and the index column are the stage's. -/
theorem ops2_v51 : StableHlo.after hostOps2 W (Proc.devRef .tc main_v51) = Cert.Stages.scatterMi (F := Ideal) (W (Proc.devRef .tc main_v4)) (W (Proc.devRef .tc main_v47)) := by
  simp only [hostOps2]
  after_results_simp <;> rfl

theorem ops2_v52 : StableHlo.after hostOps2 W (Proc.devRef .tc main_v52) = shapeCast S1x128 (W (Proc.devRef .tc main_arg11)) shapeCasts_S128_S1x128 := by
  simp only [hostOps2]
  after_results_simp <;> rfl

theorem ops2_v53 : StableHlo.after hostOps2 W (Proc.devRef .tc main_v53) = shapeCast S1x128 (W (Proc.devRef .tc main_arg13)) shapeCasts_S128_S1x128 := by
  simp only [hostOps2]
  after_results_simp <;> rfl

theorem ops2_v54 : StableHlo.after hostOps2 W (Proc.devRef .tc main_v54) = shapeCast S1x128 (W (Proc.devRef .tc main_arg15)) shapeCasts_S128_S1x128 := by
  simp only [hostOps2]
  after_results_simp <;> rfl

theorem ops2_v55 : StableHlo.after hostOps2 W (Proc.devRef .tc main_v55) = shapeCast S1x3 (W (Proc.devRef .tc main_arg17)) shapeCasts_S3_S1x3 := by
  simp only [hostOps2]
  after_results_simp <;> rfl

/-- Every reference the stretch writes is one of the nine listed. -/
theorem ops2_writes : (hostOps2 : List (HloOp τ sig (Elt Ideal))).Forall fun op => op.writes ⊆ (([main_v48, main_cst_7, main_v49, main_v50, main_v51, main_v52, main_v53, main_v54, main_v55] : List (Ref sig .tc)).map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents. -/
theorem ops2_keep (b : Ref sig .tc) (hb : b ∉ [main_v48, main_cst_7, main_v49, main_v50, main_v51, main_v52, main_v53, main_v54, main_v55]) : StableHlo.after hostOps2 W (Proc.devRef .tc b) = W (Proc.devRef .tc b) :=
  StableHlo.after_of_writes_sub hostOps2 W ops2_writes hb

end Cert.KernelIdeal.HostWalk

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Region0.lean ====
/-
  Region 0 of the idealized kernel program: the node embedding, one tile of 5000 rows per grid point.

  A grid point t loads rows [5000 t, 5000 t + 5000) of the input table x, the whole weight table W_emb and the bias laid
  as a one-row table, and stores  tile · W_emb + bias  (the product accumulated from zero, the bias row repeated down the
  tile) into rows [5000 t, 5000 t + 5000) of the output. At the extended reals row p of the tile's product is row
  5000 t + p of the whole product x · W_emb — both are the same finite sum over the 32 input channels — and the bias
  entry added at column q is the same on both sides; so what point t writes back is block t of the whole-array function
  `Cert.Stages.embed`, the ten blocks tile the output, and the output array ends holding that function.
-/
import proofs.«125594_j55594056679488_2_alg».proof.Proof.KernelIdealFrameP
import proofs.«125594_j55594056679488_2_alg».proof.Proof.Stages
import proofs.«125594_j55594056679488_2_alg».proof.Proof.LibTileMatmul
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.KernelIdeal.Region0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The bias row repeated down a tile, read at (p, q): the row's entry q. -/
theorem biasTile_apply (v : FVec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_apply v broadcasts_S1x128_S5000x128 (ix2 p q) (ix2 (0 : Fin 1) q) (fun a => by
    match a with
    | ⟨0, _⟩ => rfl
    | ⟨1, _⟩ => rfl)

/-- The bias vector laid as a one-row table and repeated down the whole array, read at (i, q): the vector's entry q. -/
theorem biasArr_apply (b : FVec Ideal Cert.ReferenceIdeal.S128 .f32) (i : Fin 50000) (q : Fin 128) :
    broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 b) (ix2 i q)
      = b (ix1 q) := by
  refine (broadcastInDim_oneRow_apply Cert.ReferenceIdeal.Gen.bcast_S1x128_S50000x128_0_1 _ i q).trans ?_
  exact broadcastInDim_apply ![1] Cert.ReferenceIdeal.Gen.bcast_S128_S1x128_1 b (ix2 (0 : Fin 1) q) (ix1 q) (fun a => by
    match a with
    | ⟨0, _⟩ => rfl)

/-- ONE ROW: if row p of the tile is row r of the table and the loaded bias row holds the bias vector, the body's
    stored value at (p, q) is the embedding at (r, q). -/
theorem pay_row (x0 : FVec Ideal S5000x32 .f32) (x1 : FVec Ideal S32x128 .f32) (x2 : FVec Ideal S1x128 .f32)
    (X : FVec Ideal Cert.ReferenceIdeal.S50000x32 .f32) (b : FVec Ideal Cert.ReferenceIdeal.S128 .f32)
    (p : Fin 5000) (q : Fin 128) (r : Fin 50000)
    (hx : ∀ k : Fin 32, x0 (ix2 p k) = X (ix2 r k)) (hb : ∀ q : Fin 128, x2 (ix2 (0 : Fin 1) q) = b (ix1 q)) :
    k0_pay1 (F := Ideal) x0 x1 x2 (ix2 p q) = Cert.Stages.embed (F := Ideal) X x1 b (ix2 r q) := by
  have e1 := TileMatmul.matmul_tile_eq_dotGeneral (wT := dot_S5000x32_S32x128_S5000x128_1_0_0_1_n_n_wf)
    (wX := Cert.ReferenceIdeal.Gen.dot_S50000x32_S32x128_S50000x128_1_0_0_1_n_n_wf) (some .fp32) none x0 x1 X x1 p q r hx (fun _ => rfl)
  have e2 := biasTile_apply x2 p q
  have e3 := biasArr_apply b r q
  unfold k0_pay1 Cert.Stages.embed
  exact congrArg₂ (· + ·) e1 (e2.trans ((hb q).trans e3.symm))

/-- The same at any index of the tile and of the array, the coordinates related by hypotheses. -/
theorem pay_at (x0 : FVec Ideal S5000x32 .f32) (x1 : FVec Ideal S32x128 .f32) (x2 : FVec Ideal S1x128 .f32)
    (X : FVec Ideal Cert.ReferenceIdeal.S50000x32 .f32) (b : FVec Ideal Cert.ReferenceIdeal.S128 .f32)
    (y : S5000x128.Idx) (i : S50000x128.Idx)
    (hx : ∀ (u : S5000x32.Idx) (v : S50000x32.Idx), (u 0).val = (y 0).val → (v 0).val = (i 0).val → (u 1).val = (v 1).val → x0 u = X v)
    (hb : ∀ (u : S1x128.Idx) (w : S128.Idx), (u 1).val = (w 0).val → x2 u = b w)
    (hq : (i 1).val = (y 1).val) :
    k0_pay1 (F := Ideal) x0 x1 x2 y = Cert.Stages.embed (F := Ideal) X x1 b i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hq
  exact pay_row x0 x1 x2 X b p q' r (fun k => hx (ix2 p k) (ix2 r k) rfl rfl rfl) (fun q => hb (ix2 (0 : Fin 1) q) (ix1 q) rfl)

/-- The printed index maps over the grid: the row-tiled windows sit at block (t, 0), the small ones at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b)) (c : Dev nD)

/-- WHAT POINT t WRITES BACK is block t of the embedding of the arrays the region finds. -/
theorem flushed_eq (bemb : (⟨S128, .f32⟩ : BufTy).Contents (Elt Ideal))
    (h1 : V c main_v1 = shapeCast S1x128 bemb shapeCasts_S128_S1x128) (t : Fin cfg0.N) :
    (dat0 (F := Ideal) V c).flushed 3 t
      = ((cfg0.win 3).blk t).view.read (Elt Ideal) (Cert.Stages.embed (F := Ideal) (V c main_arg0) (V c main_arg2) bemb) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x128) hz, View.ld_unit_zero (S := S1x128) hz]
  obtain ⟨e00, e01, e10, e11, e20, e21, e30, e31⟩ := idx_facts t
  funext j
  show k0_pay1 (F := Ideal) (iblk0 V c 0 t) (iblk0 V c 1 t) (iblk0 V c 2 t) j
    = Cert.Stages.embed (F := Ideal) (V c main_arg0) (V c main_arg2) bemb (((cfg0.win 3).blk t).view.emb j)
  have hw : iblk0 V c 1 t = V c main_arg2 := by
    funext u
    show V c main_arg2 (((cfg0.win 1).blk t).view.emb u) = V c main_arg2 u
    refine congrArg (V c main_arg2) (funext fun a => Fin.ext ?_)
    match a with
    | ⟨0, _⟩ => show win0_1.index t (0 : Fin 2) * 32 + 1 * (u 0).val = (u 0).val; omega
    | ⟨1, _⟩ => show win0_1.index t (1 : Fin 2) * 128 + 1 * (u 1).val = (u 1).val; omega
  rw [hw]
  refine pay_at (iblk0 V c 0 t) (V c main_arg2) (iblk0 V c 2 t) (V c main_arg0) bemb j _ ?_ ?_ ?_
  · intro u v h0 h1' h2
    show V c main_arg0 (((cfg0.win 0).blk t).view.emb u) = V c main_arg0 v
    refine congrArg (V c main_arg0) (funext fun a => Fin.ext ?_)
    match a with
    | ⟨0, _⟩ =>
      show win0_0.index t (0 : Fin 2) * 5000 + 1 * (u 0).val = (v 0).val
      have hv : (v 0).val = win0_3.index t (0 : Fin 2) * 5000 + 1 * (j 0).val := h1'
      omega
    | ⟨1, _⟩ =>
      show win0_0.index t (1 : Fin 2) * 32 + 1 * (u 1).val = (v 1).val
      omega
  · intro u w huw
    show V c main_v1 (((cfg0.win 2).blk t).view.emb u) = bemb w
    rw [h1]
    refine shapeCast_apply bemb shapeCasts_S128_S1x128 _ w ?_
    rw [Shape.rowMajor_val_two, Shape.rowMajor_val_one]
    show (w 0).val = (win0_2.index t (0 : Fin 2) * 1 + 1 * (u 0).val) * 128 + (win0_2.index t (1 : Fin 2) * 128 + 1 * (u 1).val)
    have hu0 : (u 0).val < 1 := (u 0).isLt
    omega
  · show win0_3.index t (1 : Fin 2) * 128 + 1 * (j 1).val = (j 1).val
    omega

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- The ten blocks tile the output: row r is in the block of point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have hlt : (i 0).val / 5000 < grid0.N := by omega
  refine ⟨⟨(i 0).val / 5000, hlt⟩, flush0_3 _, ?_⟩
  rw [mem_blk]
  obtain ⟨-, -, -, -, -, -, e30, e31⟩ := idx_facts ⟨(i 0).val / 5000, hlt⟩
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e31]; omega

/-- THE OUTPUT ARRAY after region 0: the embedding of the arrays the region finds. -/
theorem final (bemb : (⟨S128, .f32⟩ : BufTy).Contents (Elt Ideal))
    (h1 : V c main_v1 = shapeCast S1x128 bemb shapeCasts_S128_S1x128) :
    (dat0 (F := Ideal) V c).arrAt 3 cfg0.N = Cert.Stages.embed (F := Ideal) (V c main_arg0) (V c main_arg2) bemb :=
  (dat0 (F := Ideal) V c).arrAt_eq_of_cover 3 _ (fun t _ => flushed_eq V c bemb h1 t) cover

end Cert.KernelIdeal.Region0

end
-- ==== Proof.Region1.lean ====
/-
  Region 1 of the idealized kernel program: the edge network with its gate, one tile of 8000 edges per grid point.

  A grid point t loads rows [8000 t, 8000 t + 8000) of the two per-edge embedding tables and of the distance column,
  the whole of the small operands (the first 256 rows of W_e1 and its last row, the biases laid as one-row tables, W_e2,
  W_inf, b_inf), and stores, for every edge of the tile, the gated message
      logistic(m · W_inf + b_inf) · m,   m = silu(silu(t1) · W_e2 + b_e2),
      t1 = [h_st, h_end] · W_e1[0:256] + dist · W_e1[256] + b_e1,   silu(x) = x · logistic(x).
  The whole-array stage contracts all 257 inputs of an edge ([h_st, h_end, dist]) against the 257 rows of W_e1. At the
  extended reals a product read at an index is a finite sum over the contracted coordinate, and the sum over 257 terms is
  the sum of its first 256 terms plus its last: the first 256 are the terms of the tile's product (the concatenations
  read left and right of their seams, the weight slice read at its rows), the last is the distance times the last weight
  row. Every other layer is entry by entry, or a row of a tile's product against the same row of the whole product. So
  what point t writes back is block t of the whole-array function `Cert.Stages.edgeOut (Cert.Stages.edgeM …)`, the
  hundred blocks tile the output, and the output array ends holding that function.
-/
import proofs.«125594_j55594056679488_2_alg».proof.Proof.KernelIdealFrameP
import proofs.«125594_j55594056679488_2_alg».proof.Proof.Stages
import proofs.«125594_j55594056679488_2_alg».proof.Proof.LibTileMatmul
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

open scoped BigOperators

namespace Cert.KernelIdeal.Region1

open Cert.KernelIdeal Cert.KernelIdeal.Gen Cert.KernelIdeal.GenP
open Idealize.ShloMosaic Idealize.ShloMosaic.TcCoe Idealize.ShloMosaic.ValueIdx Idealize.ShloMosaic.TileMatmul
open Idealize.ShloMosaic.Pipeline (Dat Cfg Window)

/-! ## Layout operations read at an index -/

section Layout
variable {α : Type}

/-- A column `[a, 1]` broadcast to `[a, b]` reads, at `(p, c)`, the column's entry of row `p`. -/
theorem colBroadcastTo_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same of the host's `broadcast_in_dim` along both axes. -/
theorem colBroadcastInDim_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A one-row operand, cast to its own shape and broadcast down `a` rows, reads at `(p, c)` the row's entry `c`. -/
theorem rowBroadcastTo_apply {a b : ℕ} (v : (⟨2, ![1, b]⟩ : Shape).Idx → α) (hc : (⟨2, ![1, b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix2 (0 : Fin 1) c) := by
  rw [shapeCast_self]
  exact broadcastTo_1b_ab_apply v h p c

/-- A vector laid as one row and then down `m` rows by the host reads, at `(i, q)`, the vector's entry `q`. -/
theorem hostBias_apply {m n : ℕ} (h1 : (⟨2, ![1, n]⟩ : Shape).BroadcastsInDim ⟨2, ![m, n]⟩ ![0, 1])
    (h2 : (⟨1, ![n]⟩ : Shape).BroadcastsInDim ⟨2, ![1, n]⟩ ![1]) (b : (⟨1, ![n]⟩ : Shape).Idx → α) (i : Fin m) (q : Fin n) :
    broadcastInDim ⟨2, ![m, n]⟩ ![0, 1] h1 (broadcastInDim ⟨2, ![1, n]⟩ ![1] h2 b) (ix2 i q) = b (ix1 q) := by
  rw [broadcastInDim_oneRow_apply]
  refine broadcastInDim_apply ![1] h2 b (ix2 (0 : Fin 1) q) (ix1 q) fun ax => ?_
  match ax with
  | ⟨0, _⟩ =>
    show q.val = if n = 1 then 0 else q.val
    split
    · have := q.isLt; omega
    · rfl

/-- Two `[8000, 128]` tiles side by side, read left of the seam. -/
theorem cat2_left (x y : (⟨2, ![8000, 128]⟩ : Shape).Idx → α)
    (h : Shape.Concatenates [(⟨2, ![8000, 128]⟩ : Shape), ⟨2, ![8000, 128]⟩] ⟨2, ![8000, 256]⟩ 1)
    (p : Fin 8000) (c : Fin 256) (c' : Fin 128) (hc : c'.val = c.val) :
    concatenate ⟨2, ![8000, 256]⟩ 1 [⟨⟨2, ![8000, 128]⟩, x⟩, ⟨⟨2, ![8000, 128]⟩, y⟩] h (ix2 p c) = x (ix2 p c') :=
  concatenate_pair_apply_left 1 x y h (ix2 p c) rfl (ix2 p c') (fun bb => by
    match bb with
    | ⟨0, _⟩ => rfl
    | ⟨1, _⟩ => exact hc)

/-- The same, read right of the seam. -/
theorem cat2_right (x y : (⟨2, ![8000, 128]⟩ : Shape).Idx → α)
    (h : Shape.Concatenates [(⟨2, ![8000, 128]⟩ : Shape), ⟨2, ![8000, 128]⟩] ⟨2, ![8000, 256]⟩ 1)
    (p : Fin 8000) (c : Fin 256) (c' : Fin 128) (hc : c'.val + 128 = c.val) :
    concatenate ⟨2, ![8000, 256]⟩ 1 [⟨⟨2, ![8000, 128]⟩, x⟩, ⟨⟨2, ![8000, 128]⟩, y⟩] h (ix2 p c) = y (ix2 p c') :=
  concatenate_pair_apply_right 1 x y h (ix2 p c) rfl rfl (ix2 p c') (fun bb hne => by
    match bb with
    | ⟨0, _⟩ => rfl
    | ⟨1, _⟩ => exact absurd rfl hne) hc

/-- The three per-edge pieces side by side, read in the first piece. -/
theorem cat3_fst (x y : (⟨2, ![800000, 128]⟩ : Shape).Idx → α) (z : (⟨2, ![800000, 1]⟩ : Shape).Idx → α)
    (h : Shape.Concatenates [(⟨2, ![800000, 128]⟩ : Shape), ⟨2, ![800000, 128]⟩, ⟨2, ![800000, 1]⟩] ⟨2, ![800000, 257]⟩ 1)
    (i : Fin 800000) (c : Fin 257) (c' : Fin 128) (hc : c'.val = c.val) :
    concatenate ⟨2, ![800000, 257]⟩ 1 [⟨⟨2, ![800000, 128]⟩, x⟩, ⟨⟨2, ![800000, 128]⟩, y⟩, ⟨⟨2, ![800000, 1]⟩, z⟩] h (ix2 i c) = x (ix2 i c') :=
  concatenate_apply_piece 1 [⟨⟨2, ![800000, 128]⟩, x⟩, ⟨⟨2, ![800000, 128]⟩, y⟩, ⟨⟨2, ![800000, 1]⟩, z⟩] h (ix2 i c) 0 (by show (0 : ℕ) < 3; omega) ⟨2, ![800000, 128]⟩ x rfl rfl 0 rfl (ix2 i c')
    (fun bb hne => by
      match bb with
      | ⟨0, _⟩ => rfl
      | ⟨1, _⟩ => exact absurd rfl hne)
    (by show 0 + c'.val = c.val; omega)

/-- Read in the second piece. -/
theorem cat3_snd (x y : (⟨2, ![800000, 128]⟩ : Shape).Idx → α) (z : (⟨2, ![800000, 1]⟩ : Shape).Idx → α)
    (h : Shape.Concatenates [(⟨2, ![800000, 128]⟩ : Shape), ⟨2, ![800000, 128]⟩, ⟨2, ![800000, 1]⟩] ⟨2, ![800000, 257]⟩ 1)
    (i : Fin 800000) (c : Fin 257) (c' : Fin 128) (hc : 128 + c'.val = c.val) :
    concatenate ⟨2, ![800000, 257]⟩ 1 [⟨⟨2, ![800000, 128]⟩, x⟩, ⟨⟨2, ![800000, 128]⟩, y⟩, ⟨⟨2, ![800000, 1]⟩, z⟩] h (ix2 i c) = y (ix2 i c') :=
  concatenate_apply_piece 1 [⟨⟨2, ![800000, 128]⟩, x⟩, ⟨⟨2, ![800000, 128]⟩, y⟩, ⟨⟨2, ![800000, 1]⟩, z⟩] h (ix2 i c) 1 (by show (1 : ℕ) < 3; omega) ⟨2, ![800000, 128]⟩ y rfl rfl 128 rfl (ix2 i c')
    (fun bb hne => by
      match bb with
      | ⟨0, _⟩ => rfl
      | ⟨1, _⟩ => exact absurd rfl hne)
    hc

/-- Read in the last piece, the one column. -/
theorem cat3_thd (x y : (⟨2, ![800000, 128]⟩ : Shape).Idx → α) (z : (⟨2, ![800000, 1]⟩ : Shape).Idx → α)
    (h : Shape.Concatenates [(⟨2, ![800000, 128]⟩ : Shape), ⟨2, ![800000, 128]⟩, ⟨2, ![800000, 1]⟩] ⟨2, ![800000, 257]⟩ 1)
    (i : Fin 800000) (c : Fin 257) (hc : c.val = 256) :
    concatenate ⟨2, ![800000, 257]⟩ 1 [⟨⟨2, ![800000, 128]⟩, x⟩, ⟨⟨2, ![800000, 128]⟩, y⟩, ⟨⟨2, ![800000, 1]⟩, z⟩] h (ix2 i c) = z (ix2 i (0 : Fin 1)) :=
  concatenate_apply_piece 1 [⟨⟨2, ![800000, 128]⟩, x⟩, ⟨⟨2, ![800000, 128]⟩, y⟩, ⟨⟨2, ![800000, 1]⟩, z⟩] h (ix2 i c) 2 (by show (2 : ℕ) < 3; omega) ⟨2, ![800000, 1]⟩ z rfl rfl 256 rfl (ix2 i (0 : Fin 1))
    (fun bb hne => by
      match bb with
      | ⟨0, _⟩ => rfl
      | ⟨1, _⟩ => exact absurd rfl hne)
    (by show 256 + 0 = c.val; omega)

end Layout

/-! ## Scalars -/

/-- The word of `1.0` denotes the number one. -/
theorem one_f32 : Ideal.ofBits .f32 0x3F800000#32 = 1 := by
  simp [Ideal.ofBits, Ideal.ieee, -EReal.coe_mul]; norm_num

/-! ## The plain products of this region, read at an index -/

theorem mm1_apply (A : FVec Ideal S8000x256 .bf16) (B : FVec Ideal S256x128 .bf16) (p : Fin 8000) (q : Fin 128) :
    (matmul (F := Ideal) dot_S8000x256_S256x128_S8000x128_1_0_0_1_n_n none A B (constant (F := Ideal) S8000x128 .f32 0x00000000#32) (ix2 p q) : EReal)
      = ∑ c : Fin 256, (A (ix2 p c) : EReal) * B (ix2 c q) :=
  matmul_zero_apply dot_S8000x256_S256x128_S8000x128_1_0_0_1_n_n_wf none A B p q

theorem dg1_apply (A : FVec Ideal ⟨2, ![800000, 257]⟩ .f32) (B : FVec Ideal ⟨2, ![257, 128]⟩ .f32) (i : Fin 800000) (q : Fin 128) :
    (Host.dotGeneral (F := Ideal) Cert.ReferenceIdeal.dot_S800000x257_S257x128_S800000x128_1_0_0_1_n_n none A B (ix2 i q) : EReal)
      = ∑ c : Fin 257, (A (ix2 i c) : EReal) * B (ix2 c q) :=
  dotGeneral_apply Cert.ReferenceIdeal.Gen.dot_S800000x257_S257x128_S800000x128_1_0_0_1_n_n_wf none A B i q

/-! ## The body's arithmetic in named layers -/

/-- The two embedding tiles side by side, in the product's input format. -/
def kCat (x0 x1 : FVec Ideal S8000x128 .f32) : FVec Ideal S8000x256 .bf16 :=
  concatenate S8000x256 1 [⟨S8000x128, truncf .bf16 (shapeCast S8000x128 x0 shapeCasts_S8000x128_S8000x128) bitsLt_bf16_f32⟩, ⟨S8000x128, truncf .bf16 (shapeCast S8000x128 x1 shapeCasts_S8000x128_S8000x128) bitsLt_bf16_f32⟩] concatenates_S8000x128_S8000x128_S8000x256_d1

/-- The body's first linear layer: the product over the 256 embedding inputs, the distance column times the last
    weight row, the bias row. -/
def kLin1 (x0 x1 : FVec Ideal S8000x128 .f32) (x2 : FVec Ideal S8000x1 .f32) (x3 : FVec Ideal S256x128 .bf16) (x4 x5 : FVec Ideal S1x128 .f32) : FVec Ideal S8000x128 .f32 :=
  addf (addf (matmul dot_S8000x256_S256x128_S8000x128_1_0_0_1_n_n none (kCat x0 x1) (shapeCast S256x128 x3 shapeCasts_S256x128_S256x128) (constant S8000x128 .f32 0x00000000#32))
      (mulf (broadcastTo S8000x128 (shapeCast S8000x1 x2 shapeCasts_S8000x1_S8000x1) broadcasts_S8000x1_S8000x128) (broadcastTo S8000x128 (shapeCast S1x128 x4 shapeCasts_S1x128_S1x128) broadcasts_S1x128_S8000x128)))
    (broadcastTo S8000x128 (shapeCast S1x128 x5 shapeCasts_S1x128_S1x128) broadcasts_S1x128_S8000x128)

/-- `t · 1 / (1 + e^(-t))`, entry by entry, on a tile. -/
def kSilu (t : FVec Ideal S8000x128 .f32) : FVec Ideal S8000x128 .f32 := mulf t (logistic t)

/-- The body's second linear layer. -/
def kLin2 (s : FVec Ideal S8000x128 .f32) (x6 : FVec Ideal S128x128 .bf16) (x7 : FVec Ideal S1x128 .f32) : FVec Ideal S8000x128 .f32 :=
  addf (matmul dot_S8000x128_S128x128_S8000x128_1_0_0_1_n_n none (truncf .bf16 s bitsLt_bf16_f32) (shapeCast S128x128 x6 shapeCasts_S128x128_S128x128) (constant S8000x128 .f32 0x00000000#32))
    (broadcastTo S8000x128 (shapeCast S1x128 x7 shapeCasts_S1x128_S1x128) broadcasts_S1x128_S8000x128)

/-- The body's message tile is the two layers, each followed by `kSilu`. -/
theorem pay2_eq (x0 x1 : FVec Ideal S8000x128 .f32) (x2 : FVec Ideal S8000x1 .f32) (x3 : FVec Ideal S256x128 .bf16) (x4 x5 : FVec Ideal S1x128 .f32) (x6 : FVec Ideal S128x128 .bf16) (x7 : FVec Ideal S1x128 .f32) :
    k1_pay2 (F := Ideal) x0 x1 x2 x3 x4 x5 x6 x7 = kSilu (kLin2 (kSilu (kLin1 x0 x1 x2 x3 x4 x5)) x6 x7) := rfl

/-- The first layer at an index, as numbers. -/
theorem kLin1_apply (x0 x1 : FVec Ideal S8000x128 .f32) (x2 : FVec Ideal S8000x1 .f32) (x3 : FVec Ideal S256x128 .bf16) (x4 x5 : FVec Ideal S1x128 .f32) (p : Fin 8000) (q : Fin 128) :
    (kLin1 x0 x1 x2 x3 x4 x5 (ix2 p q) : EReal)
      = (∑ c : Fin 256, (kCat x0 x1 (ix2 p c) : EReal) * x3 (ix2 c q)) + (x2 (ix2 p (0 : Fin 1)) : EReal) * x4 (ix2 (0 : Fin 1) q) + x5 (ix2 (0 : Fin 1) q) := by
  unfold kLin1
  rw [addf_apply, addf_apply, mulf_apply, mm1_apply, colBroadcastTo_apply, rowBroadcastTo_apply, rowBroadcastTo_apply, shapeCast_self, shapeCast_self]

/-- The side-by-side tile read left of the seam. -/
theorem kCat_left (x0 x1 : FVec Ideal S8000x128 .f32) (p : Fin 8000) (c : Fin 256) (c' : Fin 128) (hc : c'.val = c.val) :
    (kCat x0 x1 (ix2 p c) : EReal) = x0 (ix2 p c') := by
  unfold kCat
  rw [cat2_left _ _ _ p c c' hc, truncf_apply, shapeCast_self]

/-- Read right of the seam. -/
theorem kCat_right (x0 x1 : FVec Ideal S8000x128 .f32) (p : Fin 8000) (c : Fin 256) (c' : Fin 128) (hc : c'.val + 128 = c.val) :
    (kCat x0 x1 (ix2 p c) : EReal) = x1 (ix2 p c') := by
  unfold kCat
  rw [cat2_right _ _ _ p c c' hc, truncf_apply, shapeCast_self]

/-! ## The stages read at an index -/

/-- The host's spelling of `1 / (1 + e^(-x))` with the word of `1.0` broadcast from a scalar, at an index. -/
theorem hostLogistic_apply {s : Shape} (h1 : S_.BroadcastsInDim s (![] : Fin 0 → Fin s.rank)) (x : FVec Ideal s .f32) (j : s.Idx) :
    (Host.divf (F := Ideal) (broadcastInDim s ![] h1 (constant (F := Ideal) S_ .f32 0x3F800000#32))
        (addf (broadcastInDim s ![] h1 (constant (F := Ideal) S_ .f32 0x3F800000#32)) (Host.exp (Host.negf x))) j : EReal)
      = Ideal.logistic (x j) := by
  show Ideal.div (Ideal.ofBits .f32 0x3F800000#32) (Ideal.ofBits .f32 0x3F800000#32 + Ideal.exp (-(x j))) = _
  rw [one_f32]; rfl

theorem siluE_apply (X : FVec Ideal ⟨2, ![800000, 128]⟩ .f32) (j : (⟨2, ![800000, 128]⟩ : Shape).Idx) :
    (Cert.Stages.siluE (F := Ideal) X j : EReal) = X j * Ideal.logistic (X j) := by
  unfold Cert.Stages.siluE
  rw [mulf_apply, hostLogistic_apply]

theorem kSilu_apply (t : FVec Ideal S8000x128 .f32) (j : S8000x128.Idx) :
    (kSilu t j : EReal) = t j * Ideal.logistic (t j) := rfl

theorem lin1_apply (ct : FVec Ideal ⟨2, ![800000, 257]⟩ .f32) (we1 : FVec Ideal ⟨2, ![257, 128]⟩ .f32) (be1 : FVec Ideal ⟨1, ![128]⟩ .f32)
    (i : Fin 800000) (q : Fin 128) :
    (Cert.Stages.lin1 (F := Ideal) ct we1 be1 (ix2 i q) : EReal) = (∑ c : Fin 257, (ct (ix2 i c) : EReal) * we1 (ix2 c q)) + be1 (ix1 q) := by
  unfold Cert.Stages.lin1
  rw [addf_apply, dg1_apply, hostBias_apply]

/-! ## Row by row: the body's layers are the stages -/

/-- THE ALGEBRAIC STEP. The stage contracts all 257 inputs of an edge (the two embedding rows and the distance) against
    the 257 weight rows; the body contracts the 256 embedding inputs against the first 256 weight rows and adds the
    distance times the last weight row. The sum over 257 terms splits into its first 256 terms and its last. -/
theorem lin1_row (x0 x1 : FVec Ideal S8000x128 .f32) (x2 : FVec Ideal S8000x1 .f32) (x3 : FVec Ideal S256x128 .bf16) (x4 x5 : FVec Ideal S1x128 .f32)
    (X0 X1 : FVec Ideal ⟨2, ![800000, 128]⟩ .f32) (X2 : FVec Ideal ⟨2, ![800000, 1]⟩ .f32)
    (we1 : FVec Ideal ⟨2, ![257, 128]⟩ .f32) (be1 : FVec Ideal ⟨1, ![128]⟩ .f32)
    (p : Fin 8000) (i : Fin 800000)
    (h0 : ∀ k : Fin 128, (x0 (ix2 p k) : EReal) = X0 (ix2 i k))
    (h1 : ∀ k : Fin 128, (x1 (ix2 p k) : EReal) = X1 (ix2 i k))
    (h2 : (x2 (ix2 p (0 : Fin 1)) : EReal) = X2 (ix2 i (0 : Fin 1)))
    (h3 : ∀ (k : Fin 256) (q : Fin 128), (x3 (ix2 k q) : EReal) = we1 (ix2 (Fin.castSucc k) q))
    (h4 : ∀ q : Fin 128, (x4 (ix2 (0 : Fin 1) q) : EReal) = we1 (ix2 (Fin.last 256) q))
    (h5 : ∀ q : Fin 128, (x5 (ix2 (0 : Fin 1) q) : EReal) = be1 (ix1 q))
    (q : Fin 128) :
    (kLin1 x0 x1 x2 x3 x4 x5 (ix2 p q) : EReal)
      = Cert.Stages.lin1 (F := Ideal) (Cert.Stages.cat3 (F := Ideal) X0 X1 X2) we1 be1 (ix2 i q) := by
  rw [kLin1_apply, lin1_apply, Fin.sum_univ_castSucc (n := 256), h2, h4 q, h5 q]
  refine congrArg (· + _) (congrArg₂ (· + ·) (Finset.sum_congr rfl fun c _ => ?_) ?_)
  · rw [h3 c q]
    refine congrArg (· * _) ?_
    by_cases hc : c.val < 128
    · rw [kCat_left x0 x1 p c ⟨c.val, hc⟩ rfl, h0]
      exact (cat3_fst X0 X1 X2 _ i (Fin.castSucc c) ⟨c.val, hc⟩ rfl).symm
    · have hc' : c.val - 128 < 128 := by have := c.isLt; omega
      rw [kCat_right x0 x1 p c ⟨c.val - 128, hc'⟩ (by show c.val - 128 + 128 = c.val; omega), h1]
      exact (cat3_snd X0 X1 X2 _ i (Fin.castSucc c) ⟨c.val - 128, hc'⟩ (by show 128 + (c.val - 128) = c.val; omega)).symm
  · refine congrArg (· * _) ?_
    exact (cat3_thd X0 X1 X2 _ i (Fin.last 256) rfl).symm

/-- The second layer: row `p` of the tile's product is row `i` of the whole product, and the bias entries agree. -/
theorem lin2_row (s : FVec Ideal S8000x128 .f32) (x6 : FVec Ideal S128x128 .bf16) (x7 : FVec Ideal S1x128 .f32)
    (S : FVec Ideal ⟨2, ![800000, 128]⟩ .f32) (we2 : FVec Ideal ⟨2, ![128, 128]⟩ .f32) (be2 : FVec Ideal ⟨1, ![128]⟩ .f32)
    (p : Fin 8000) (i : Fin 800000)
    (hs : ∀ k : Fin 128, (s (ix2 p k) : EReal) = S (ix2 i k))
    (h6 : ∀ k q : Fin 128, (x6 (ix2 k q) : EReal) = we2 (ix2 k q))
    (h7 : ∀ q : Fin 128, (x7 (ix2 (0 : Fin 1) q) : EReal) = be2 (ix1 q))
    (q : Fin 128) :
    (kLin2 s x6 x7 (ix2 p q) : EReal) = Cert.Stages.lin2 (F := Ideal) S we2 be2 (ix2 i q) := by
  have e1 := matmul_tile_eq_dotGeneral (wT := dot_S8000x128_S128x128_S8000x128_1_0_0_1_n_n_wf)
    (wX := Cert.ReferenceIdeal.Gen.dot_S800000x128_S128x128_S800000x128_1_0_0_1_n_n_wf) none none
    (truncf .bf16 s bitsLt_bf16_f32) (shapeCast S128x128 x6 shapeCasts_S128x128_S128x128) S we2 p q i
    (fun c => hs c) (fun c => by rw [shapeCast_self]; exact h6 c q)
  have e2 := rowBroadcastTo_apply (a := 8000) x7 shapeCasts_S1x128_S1x128 broadcasts_S1x128_S8000x128 p q
  have e3 := hostBias_apply Cert.ReferenceIdeal.Gen.bcast_S1x128_S800000x128_0_1 Cert.ReferenceIdeal.Gen.bcast_S128_S1x128_1 be2 i q
  unfold kLin2 Cert.Stages.lin2
  exact congrArg₂ (· + ·) e1 (e2.trans ((h7 q).trans e3.symm))

/-- The message tile's row `p` is the message array's row `i`. -/
theorem msg_row (x0 x1 : FVec Ideal S8000x128 .f32) (x2 : FVec Ideal S8000x1 .f32) (x3 : FVec Ideal S256x128 .bf16) (x4 x5 : FVec Ideal S1x128 .f32)
    (x6 : FVec Ideal S128x128 .bf16) (x7 : FVec Ideal S1x128 .f32)
    (X0 X1 : FVec Ideal ⟨2, ![800000, 128]⟩ .f32) (X2 : FVec Ideal ⟨2, ![800000, 1]⟩ .f32)
    (we1 : FVec Ideal ⟨2, ![257, 128]⟩ .f32) (be1 : FVec Ideal ⟨1, ![128]⟩ .f32)
    (we2 : FVec Ideal ⟨2, ![128, 128]⟩ .f32) (be2 : FVec Ideal ⟨1, ![128]⟩ .f32)
    (p : Fin 8000) (i : Fin 800000)
    (h0 : ∀ k : Fin 128, (x0 (ix2 p k) : EReal) = X0 (ix2 i k))
    (h1 : ∀ k : Fin 128, (x1 (ix2 p k) : EReal) = X1 (ix2 i k))
    (h2 : (x2 (ix2 p (0 : Fin 1)) : EReal) = X2 (ix2 i (0 : Fin 1)))
    (h3 : ∀ (k : Fin 256) (q : Fin 128), (x3 (ix2 k q) : EReal) = we1 (ix2 (Fin.castSucc k) q))
    (h4 : ∀ q : Fin 128, (x4 (ix2 (0 : Fin 1) q) : EReal) = we1 (ix2 (Fin.last 256) q))
    (h5 : ∀ q : Fin 128, (x5 (ix2 (0 : Fin 1) q) : EReal) = be1 (ix1 q))
    (h6 : ∀ k q : Fin 128, (x6 (ix2 k q) : EReal) = we2 (ix2 k q))
    (h7 : ∀ q : Fin 128, (x7 (ix2 (0 : Fin 1) q) : EReal) = be2 (ix1 q))
    (q : Fin 128) :
    (k1_pay2 (F := Ideal) x0 x1 x2 x3 x4 x5 x6 x7 (ix2 p q) : EReal)
      = Cert.Stages.edgeM (F := Ideal) X0 X1 X2 we1 be1 we2 be2 (ix2 i q) := by
  rw [pay2_eq]
  unfold Cert.Stages.edgeM
  rw [kSilu_apply, siluE_apply]
  have e := lin2_row (kSilu (kLin1 x0 x1 x2 x3 x4 x5)) x6 x7
    (Cert.Stages.siluE (F := Ideal) (Cert.Stages.lin1 (F := Ideal) (Cert.Stages.cat3 (F := Ideal) X0 X1 X2) we1 be1)) we2 be2 p i
    (fun k => by rw [kSilu_apply, siluE_apply, lin1_row x0 x1 x2 x3 x4 x5 X0 X1 X2 we1 be1 p i h0 h1 h2 h3 h4 h5 k]) h6 h7 q
  rw [e]

/-- The gated message of the stage at an index: the gate of the row times the message entry. -/
theorem edgeOut_apply (mm : FVec Ideal ⟨2, ![800000, 128]⟩ .f32) (winf : FVec Ideal ⟨2, ![128, 1]⟩ .f32) (binf : FVec Ideal ⟨1, ![1]⟩ .f32)
    (i : Fin 800000) (q : Fin 128) :
    (Cert.Stages.edgeOut (F := Ideal) mm winf binf (ix2 i q) : EReal)
      = Ideal.logistic ((Host.dotGeneral (F := Ideal) Cert.ReferenceIdeal.dot_S800000x128_S128x1_S800000x1_1_0_0_1_n_n none mm winf (ix2 i (0 : Fin 1)) : EReal)
          + binf (ix1 (0 : Fin 1))) * mm (ix2 i q) := by
  unfold Cert.Stages.edgeOut
  rw [mulf_apply, colBroadcastInDim_apply, hostLogistic_apply, addf_apply, hostBias_apply]

/-- The body's stored value at an index: the gate of the tile row times the message entry. -/
theorem pay1_apply (v33 : FVec Ideal S8000x128 .f32) (v35 : FVec Ideal S8000x1 .f32) (v36 : FVec Ideal S1x1 .f32) (p : Fin 8000) (q : Fin 128) :
    (k1_pay1 (F := Ideal) v33 v35 v36 (ix2 p q) : EReal)
      = Ideal.logistic ((v35 (ix2 p (0 : Fin 1)) : EReal) + v36 (ix2 (0 : Fin 1) (0 : Fin 1))) * v33 (ix2 p q) := by
  have e1 := colBroadcastTo_apply (b := 128) (logistic (addf v35 (broadcastTo S8000x1 (shapeCast S1x1 v36 shapeCasts_S1x1_S1x1) broadcasts_S1x1_S8000x1))) broadcasts_S8000x1_S8000x128 p q
  have e2 := rowBroadcastTo_apply (a := 8000) v36 shapeCasts_S1x1_S1x1 broadcasts_S1x1_S8000x1 p (0 : Fin 1)
  show (broadcastTo S8000x128 (logistic (addf v35 (broadcastTo S8000x1 (shapeCast S1x1 v36 shapeCasts_S1x1_S1x1) broadcasts_S1x1_S8000x1))) broadcasts_S8000x1_S8000x128 (ix2 p q) : EReal) * v33 (ix2 p q) = _
  rw [e1]
  show Ideal.logistic ((v35 (ix2 p (0 : Fin 1)) : EReal) + broadcastTo S8000x1 (shapeCast S1x1 v36 shapeCasts_S1x1_S1x1) broadcasts_S1x1_S8000x1 (ix2 p (0 : Fin 1))) * v33 (ix2 p q) = _
  rw [e2]

/-- ONE ROW of the region: if row `p` of each row-tiled block is row `i` of its array and the small operands hold the
    weights and biases, the body's stored value at `(p, q)` is the gated message at `(i, q)`. -/
theorem out_row (x0 x1 : FVec Ideal S8000x128 .f32) (x2 : FVec Ideal S8000x1 .f32) (x3 : FVec Ideal S256x128 .bf16) (x4 x5 : FVec Ideal S1x128 .f32)
    (x6 : FVec Ideal S128x128 .bf16) (x7 : FVec Ideal S1x128 .f32) (x8 : FVec Ideal S128x1 .f32) (x9 : FVec Ideal S1x1 .f32)
    (X0 X1 : FVec Ideal ⟨2, ![800000, 128]⟩ .f32) (X2 : FVec Ideal ⟨2, ![800000, 1]⟩ .f32)
    (we1 : FVec Ideal ⟨2, ![257, 128]⟩ .f32) (be1 : FVec Ideal ⟨1, ![128]⟩ .f32)
    (we2 : FVec Ideal ⟨2, ![128, 128]⟩ .f32) (be2 : FVec Ideal ⟨1, ![128]⟩ .f32)
    (winf : FVec Ideal ⟨2, ![128, 1]⟩ .f32) (binf : FVec Ideal ⟨1, ![1]⟩ .f32)
    (p : Fin 8000) (i : Fin 800000)
    (h0 : ∀ k : Fin 128, (x0 (ix2 p k) : EReal) = X0 (ix2 i k))
    (h1 : ∀ k : Fin 128, (x1 (ix2 p k) : EReal) = X1 (ix2 i k))
    (h2 : (x2 (ix2 p (0 : Fin 1)) : EReal) = X2 (ix2 i (0 : Fin 1)))
    (h3 : ∀ (k : Fin 256) (q : Fin 128), (x3 (ix2 k q) : EReal) = we1 (ix2 (Fin.castSucc k) q))
    (h4 : ∀ q : Fin 128, (x4 (ix2 (0 : Fin 1) q) : EReal) = we1 (ix2 (Fin.last 256) q))
    (h5 : ∀ q : Fin 128, (x5 (ix2 (0 : Fin 1) q) : EReal) = be1 (ix1 q))
    (h6 : ∀ k q : Fin 128, (x6 (ix2 k q) : EReal) = we2 (ix2 k q))
    (h7 : ∀ q : Fin 128, (x7 (ix2 (0 : Fin 1) q) : EReal) = be2 (ix1 q))
    (h8 : ∀ k : Fin 128, (x8 (ix2 k (0 : Fin 1)) : EReal) = winf (ix2 k (0 : Fin 1)))
    (h9 : (x9 (ix2 (0 : Fin 1) (0 : Fin 1)) : EReal) = binf (ix1 (0 : Fin 1)))
    (q : Fin 128) :
    (k1_pay1 (F := Ideal) (k1_pay2 x0 x1 x2 x3 x4 x5 x6 x7) (k1_pay3 x0 x1 x2 x3 x4 x5 x6 x7 x8) x9 (ix2 p q) : EReal)
      = Cert.Stages.edgeOut (F := Ideal) (Cert.Stages.edgeM (F := Ideal) X0 X1 X2 we1 be1 we2 be2) winf binf (ix2 i q) := by
  have hm := msg_row x0 x1 x2 x3 x4 x5 x6 x7 X0 X1 X2 we1 be1 we2 be2 p i h0 h1 h2 h3 h4 h5 h6 h7
  have e3 : (k1_pay3 (F := Ideal) x0 x1 x2 x3 x4 x5 x6 x7 x8 (ix2 p (0 : Fin 1)) : EReal)
      = Host.dotGeneral (F := Ideal) (φ₁ := .f32) Cert.ReferenceIdeal.dot_S800000x128_S128x1_S800000x1_1_0_0_1_n_n none
          (Cert.Stages.edgeM (F := Ideal) X0 X1 X2 we1 be1 we2 be2) winf (ix2 i (0 : Fin 1)) :=
    matmul_tile_eq_dotGeneral (ψ₁ := .f32) (wT := dot_S8000x128_S128x1_S8000x1_1_0_0_1_n_n_wf)
      (wX := Cert.ReferenceIdeal.Gen.dot_S800000x128_S128x1_S800000x1_1_0_0_1_n_n_wf) (some .fp32) none
      (k1_pay2 (F := Ideal) x0 x1 x2 x3 x4 x5 x6 x7) x8 (Cert.Stages.edgeM (F := Ideal) X0 X1 X2 we1 be1 we2 be2) winf p (0 : Fin 1) i hm h8
  rw [pay1_apply, edgeOut_apply, e3, h9, hm q]

/-- The same at any index of the tile and of the array, the coordinates related by hypotheses. -/
theorem out_at (x0 x1 : FVec Ideal S8000x128 .f32) (x2 : FVec Ideal S8000x1 .f32) (x3 : FVec Ideal S256x128 .bf16) (x4 x5 : FVec Ideal S1x128 .f32)
    (x6 : FVec Ideal S128x128 .bf16) (x7 : FVec Ideal S1x128 .f32) (x8 : FVec Ideal S128x1 .f32) (x9 : FVec Ideal S1x1 .f32)
    (X0 X1 : FVec Ideal S800000x128 .f32) (X2 : FVec Ideal S800000x1 .f32)
    (we1 : FVec Ideal S257x128 .f32) (be1 : FVec Ideal S128 .f32)
    (we2 : FVec Ideal S128x128 .f32) (be2 : FVec Ideal S128 .f32)
    (winf : FVec Ideal S128x1 .f32) (binf : FVec Ideal S1 .f32)
    (y : S8000x128.Idx) (i : S800000x128.Idx)
    (h0 : ∀ (u : S8000x128.Idx) (v : S800000x128.Idx), (u 0).val = (y 0).val → (v 0).val = (i 0).val → (u 1).val = (v 1).val → (x0 u : EReal) = X0 v)
    (h1 : ∀ (u : S8000x128.Idx) (v : S800000x128.Idx), (u 0).val = (y 0).val → (v 0).val = (i 0).val → (u 1).val = (v 1).val → (x1 u : EReal) = X1 v)
    (h2 : ∀ (u : S8000x1.Idx) (v : S800000x1.Idx), (u 0).val = (y 0).val → (v 0).val = (i 0).val → (x2 u : EReal) = X2 v)
    (h3 : ∀ (u : S256x128.Idx) (v : S257x128.Idx), (u 0).val = (v 0).val → (u 1).val = (v 1).val → (x3 u : EReal) = we1 v)
    (h4 : ∀ (u : S1x128.Idx) (v : S257x128.Idx), (v 0).val = 256 → (u 1).val = (v 1).val → (x4 u : EReal) = we1 v)
    (h5 : ∀ (u : S1x128.Idx) (w : S128.Idx), (u 1).val = (w 0).val → (x5 u : EReal) = be1 w)
    (h6 : ∀ u : S128x128.Idx, (x6 u : EReal) = we2 u)
    (h7 : ∀ (u : S1x128.Idx) (w : S128.Idx), (u 1).val = (w 0).val → (x7 u : EReal) = be2 w)
    (h8 : ∀ u : S128x1.Idx, (x8 u : EReal) = winf u)
    (h9 : ∀ (u : S1x1.Idx) (w : S1.Idx), (x9 u : EReal) = binf w)
    (hq : (i 1).val = (y 1).val) :
    (k1_pay1 (F := Ideal) (k1_pay2 x0 x1 x2 x3 x4 x5 x6 x7) (k1_pay3 x0 x1 x2 x3 x4 x5 x6 x7 x8) x9 y : EReal)
      = Cert.Stages.edgeOut (F := Ideal) (Cert.Stages.edgeM (F := Ideal) X0 X1 X2 we1 be1 we2 be2) winf binf i := by
  obtain ⟨p, q, rfl⟩ : ∃ (p : Fin 8000) (q : Fin 128), y = ix2 p q := ⟨y 0, y 1, eq_ix2 y⟩
  obtain ⟨r, q', rfl⟩ : ∃ (r : Fin 800000) (q' : Fin 128), i = ix2 r q' := ⟨i 0, i 1, eq_ix2 i⟩
  obtain rfl : q' = q := Fin.ext hq
  exact out_row x0 x1 x2 x3 x4 x5 x6 x7 x8 x9 X0 X1 X2 we1 be1 we2 be2 winf binf p r
    (fun k => h0 (ix2 p k) (ix2 r k) rfl rfl rfl) (fun k => h1 (ix2 p k) (ix2 r k) rfl rfl rfl)
    (h2 (ix2 p (0 : Fin 1)) (ix2 r (0 : Fin 1)) rfl rfl)
    (fun k q => h3 (ix2 k q) (ix2 (Fin.castSucc k) q) rfl rfl) (fun q => h4 (ix2 (0 : Fin 1) q) (ix2 (Fin.last 256) q) rfl rfl)
    (fun q => h5 (ix2 (0 : Fin 1) q) (ix1 q) rfl) (fun k q => h6 (ix2 k q)) (fun q => h7 (ix2 (0 : Fin 1) q) (ix1 q) rfl)
    (fun k => h8 (ix2 k (0 : Fin 1))) (h9 (ix2 (0 : Fin 1) (0 : Fin 1)) (ix1 (0 : Fin 1))) q'

/-! ## From blocks to the array -/

theorem hz : (![0, 0] : Fin 2 → Nat) = fun _ => 0 := funext fun a => by fin_cases a <;> rfl

/-- The printed index maps over the grid: the row-tiled windows sit at block (t, 0), the small ones at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

variable (V : (c : Dev nD) → (b : Ref sig .tc) → Buf (Elt Ideal) ((c : Thread nD τ).loc b)) (c : Dev nD)

set_option maxHeartbeats 4000000 in
/-- WHAT POINT t WRITES BACK is block t of the gated message of the arrays the region finds. -/
theorem flushed_eq
    (we1 : (⟨S257x128, .f32⟩ : BufTy).Contents (Elt Ideal)) (be1 : (⟨S128, .f32⟩ : BufTy).Contents (Elt Ideal))
    (we2 : (⟨S128x128, .f32⟩ : BufTy).Contents (Elt Ideal)) (be2 : (⟨S128, .f32⟩ : BufTy).Contents (Elt Ideal)) (binf : (⟨S1, .f32⟩ : BufTy).Contents (Elt Ideal))
    (h41 : V c main_v41 = truncf (F := Ideal) .bf16 (extractStridedSlice S256x128 ![0, 0] we1 slices_S257x128_S256x128_0_0) bitsLt_bf16_f32)
    (h42 : V c main_v42 = extractStridedSlice S1x128 ![256, 0] we1 slices_S257x128_S1x128_256_0)
    (h43 : V c main_v43 = shapeCast S1x128 be1 shapeCasts_S128_S1x128)
    (h44 : V c main_v44 = truncf (F := Ideal) .bf16 we2 bitsLt_bf16_f32)
    (h45 : V c main_v45 = shapeCast S1x128 be2 shapeCasts_S128_S1x128)
    (h46 : V c main_v46 = shapeCast S1x1 binf shapeCasts_S1_S1x1) (t : Fin cfg1.N) :
    (dat1 (F := Ideal) V c).flushed 10 t
      = ((cfg1.win 10).blk t).view.read (Elt Ideal)
          (Cert.Stages.edgeOut (F := Ideal) (Cert.Stages.edgeM (F := Ideal) (V c main_v32) (V c main_v39) (V c main_v25) we1 be1 we2 be2) (V c main_arg8) binf) := by
  show (cfg1.win 10).cut (grid1.coords t) ((dat1 V c).after 10 t) = _
  rw [after1_10]
  unfold out1_10
  rw [View.canon_unit_zero hz]
  simp only [View.ld_unit_zero (S := S8000x128) hz, View.ld_unit_zero (S := S8000x1) hz, View.ld_unit_zero (S := S256x128) hz,
    View.ld_unit_zero (S := S1x128) hz, View.ld_unit_zero (S := S128x128) hz, View.ld_unit_zero (S := S128x1) hz, View.ld_unit_zero (S := S1x1) hz]
  obtain ⟨e00, e01, e10, e11, e20, e21, e30, e31, e40, e41, e50, e51, e60, e61, e70, e71, e80, e81, e90, e91, ea0, ea1⟩ := idx_facts t
  funext j
  show k1_pay1 (F := Ideal) (k1_pay2 (iblk1 V c 0 t) (iblk1 V c 1 t) (iblk1 V c 2 t) (iblk1 V c 3 t) (iblk1 V c 4 t) (iblk1 V c 5 t) (iblk1 V c 6 t) (iblk1 V c 7 t))
      (k1_pay3 (iblk1 V c 0 t) (iblk1 V c 1 t) (iblk1 V c 2 t) (iblk1 V c 3 t) (iblk1 V c 4 t) (iblk1 V c 5 t) (iblk1 V c 6 t) (iblk1 V c 7 t) (iblk1 V c 8 t)) (iblk1 V c 9 t) j
    = Cert.Stages.edgeOut (F := Ideal) (Cert.Stages.edgeM (F := Ideal) (V c main_v32) (V c main_v39) (V c main_v25) we1 be1 we2 be2) (V c main_arg8) binf
        (((cfg1.win 10).blk t).view.emb j)
  have hw6 : iblk1 V c 6 t = V c main_v44 := by
    funext u
    show V c main_v44 (((cfg1.win 6).blk t).view.emb u) = V c main_v44 u
    refine congrArg (V c main_v44) (funext fun a => Fin.ext ?_)
    match a with
    | ⟨0, _⟩ => show win1_6.index t (0 : Fin 2) * 128 + 1 * (u 0).val = (u 0).val; omega
    | ⟨1, _⟩ => show win1_6.index t (1 : Fin 2) * 128 + 1 * (u 1).val = (u 1).val; omega
  have hw8 : iblk1 V c 8 t = V c main_arg8 := by
    funext u
    show V c main_arg8 (((cfg1.win 8).blk t).view.emb u) = V c main_arg8 u
    refine congrArg (V c main_arg8) (funext fun a => Fin.ext ?_)
    match a with
    | ⟨0, _⟩ => show win1_8.index t (0 : Fin 2) * 128 + 1 * (u 0).val = (u 0).val; omega
    | ⟨1, _⟩ => show win1_8.index t (1 : Fin 2) * 1 + 1 * (u 1).val = (u 1).val; omega
  refine out_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    (V c main_v32) (V c main_v39) (V c main_v25) we1 be1 we2 be2 (V c main_arg8) binf j _ ?_ ?_ ?_ ?_ ?_ ?_ ?_ ?_ ?_ ?_ ?_
  · intro u v hu hv huv
    show V c main_v32 (((cfg1.win 0).blk t).view.emb u) = V c main_v32 v
    refine congrArg (V c main_v32) (funext fun a => Fin.ext ?_)
    match a with
    | ⟨0, _⟩ =>
      show win1_0.index t (0 : Fin 2) * 8000 + 1 * (u 0).val = (v 0).val
      have hv' : (v 0).val = win1_10.index t (0 : Fin 2) * 8000 + 1 * (j 0).val := hv
      omega
    | ⟨1, _⟩ =>
      show win1_0.index t (1 : Fin 2) * 128 + 1 * (u 1).val = (v 1).val
      omega
  · intro u v hu hv huv
    show V c main_v39 (((cfg1.win 1).blk t).view.emb u) = V c main_v39 v
    refine congrArg (V c main_v39) (funext fun a => Fin.ext ?_)
    match a with
    | ⟨0, _⟩ =>
      show win1_1.index t (0 : Fin 2) * 8000 + 1 * (u 0).val = (v 0).val
      have hv' : (v 0).val = win1_10.index t (0 : Fin 2) * 8000 + 1 * (j 0).val := hv
      omega
    | ⟨1, _⟩ =>
      show win1_1.index t (1 : Fin 2) * 128 + 1 * (u 1).val = (v 1).val
      omega
  · intro u v hu hv
    show V c main_v25 (((cfg1.win 2).blk t).view.emb u) = V c main_v25 v
    refine congrArg (V c main_v25) (funext fun a => Fin.ext ?_)
    match a with
    | ⟨0, _⟩ =>
      show win1_2.index t (0 : Fin 2) * 8000 + 1 * (u 0).val = (v 0).val
      have hv' : (v 0).val = win1_10.index t (0 : Fin 2) * 8000 + 1 * (j 0).val := hv
      omega
    | ⟨1, _⟩ =>
      show win1_2.index t (1 : Fin 2) * 1 + 1 * (u 1).val = (v 1).val
      have hu1 : (u 1).val < 1 := (u 1).isLt
      have hv1 : (v 1).val < 1 := (v 1).isLt
      omega
  · intro u v h0' h1'
    show V c main_v41 (((cfg1.win 3).blk t).view.emb u) = we1 v
    rw [h41, truncf_apply]
    refine extractStridedSlice_apply ![0, 0] we1 slices_S257x128_S256x128_0_0 _ v (fun a => ?_)
    match a with
    | ⟨0, _⟩ => show (v 0).val = 0 + (win1_3.index t (0 : Fin 2) * 256 + 1 * (u 0).val); omega
    | ⟨1, _⟩ => show (v 1).val = 0 + (win1_3.index t (1 : Fin 2) * 128 + 1 * (u 1).val); omega
  · intro u v h0' h1'
    show V c main_v42 (((cfg1.win 4).blk t).view.emb u) = we1 v
    rw [h42]
    refine extractStridedSlice_apply ![256, 0] we1 slices_S257x128_S1x128_256_0 _ v (fun a => ?_)
    match a with
    | ⟨0, _⟩ =>
      show (v 0).val = 256 + (win1_4.index t (0 : Fin 2) * 1 + 1 * (u 0).val)
      have hu0 : (u 0).val < 1 := (u 0).isLt
      omega
    | ⟨1, _⟩ => show (v 1).val = 0 + (win1_4.index t (1 : Fin 2) * 128 + 1 * (u 1).val); omega
  · intro u w huw
    show V c main_v43 (((cfg1.win 5).blk t).view.emb u) = be1 w
    rw [h43]
    refine shapeCast_apply be1 shapeCasts_S128_S1x128 _ w ?_
    rw [Shape.rowMajor_val_two, Shape.rowMajor_val_one]
    show (w 0).val = (win1_5.index t (0 : Fin 2) * 1 + 1 * (u 0).val) * 128 + (win1_5.index t (1 : Fin 2) * 128 + 1 * (u 1).val)
    have hu0 : (u 0).val < 1 := (u 0).isLt
    omega
  · intro u
    rw [hw6, h44]
    rfl
  · intro u w huw
    show V c main_v45 (((cfg1.win 7).blk t).view.emb u) = be2 w
    rw [h45]
    refine shapeCast_apply be2 shapeCasts_S128_S1x128 _ w ?_
    rw [Shape.rowMajor_val_two, Shape.rowMajor_val_one]
    show (w 0).val = (win1_7.index t (0 : Fin 2) * 1 + 1 * (u 0).val) * 128 + (win1_7.index t (1 : Fin 2) * 128 + 1 * (u 1).val)
    have hu0 : (u 0).val < 1 := (u 0).isLt
    omega
  · intro u
    rw [hw8]
  · intro u w
    show V c main_v46 (((cfg1.win 9).blk t).view.emb u) = binf w
    rw [h46]
    refine shapeCast_apply binf shapeCasts_S1_S1x1 _ w ?_
    rw [Shape.rowMajor_val_two, Shape.rowMajor_val_one]
    show (w 0).val = (win1_9.index t (0 : Fin 2) * 1 + 1 * (u 0).val) * 1 + (win1_9.index t (1 : Fin 2) * 1 + 1 * (u 1).val)
    have hu0 : (u 0).val < 1 := (u 0).isLt
    have hu1 : (u 1).val < 1 := (u 1).isLt
    have hw0 : (w 0).val < 1 := (w 0).isLt
    omega
  · show win1_10.index t (1 : Fin 2) * 128 + 1 * (j 1).val = (j 1).val
    omega

/-- An index of the output array is in point t's block iff each coordinate is in the block's range on its axis. -/
theorem mem_blk (t : Fin cfg1.N) (i : S800000x128.Idx) :
    i ∈ ((cfg1.win 10).blk t).view.set ↔ ∀ a : Fin 2, win1_10.index t a * S8000x128.size a ≤ (i a).val ∧ (i a).val < win1_10.index t a * S8000x128.size a + S8000x128.size a := by
  show i ∈ ((View.whole main_v47).slice (win1_10.rect t)).set ↔ _
  rw [View.set_slice_whole, Rect.mem_set_unit]
  exact Iff.rfl

/-- The hundred blocks tile the output: row r is in the block of point r / 8000. -/
theorem cover (i : S800000x128.Idx) : ∃ t : Fin cfg1.N, (cfg1.win 10).flush t = true ∧ i ∈ ((cfg1.win 10).blk t).view.set := by
  have hi0 : (i 0).val < 800000 := (i 0).isLt
  have hi1 : (i 1).val < 128 := (i 1).isLt
  have hN : grid1.N = 100 := N_1
  have hlt : (i 0).val / 8000 < grid1.N := by omega
  refine ⟨⟨(i 0).val / 8000, hlt⟩, flush1_10 _, ?_⟩
  rw [mem_blk]
  obtain ⟨-, -, -, -, -, -, -, -, -, -, -, -, -, -, -, -, -, -, -, -, ea0, ea1⟩ := idx_facts ⟨(i 0).val / 8000, hlt⟩
  intro a
  match a with
  | ⟨0, _⟩ =>
    show win1_10.index ⟨(i 0).val / 8000, hlt⟩ (0 : Fin 2) * 8000 ≤ (i 0).val ∧ (i 0).val < win1_10.index ⟨(i 0).val / 8000, hlt⟩ (0 : Fin 2) * 8000 + 8000
    rw [ea0]; show (i 0).val / 8000 * 8000 ≤ (i 0).val ∧ (i 0).val < (i 0).val / 8000 * 8000 + 8000; omega
  | ⟨1, _⟩ =>
    show win1_10.index ⟨(i 0).val / 8000, hlt⟩ (1 : Fin 2) * 128 ≤ (i 1).val ∧ (i 1).val < win1_10.index ⟨(i 0).val / 8000, hlt⟩ (1 : Fin 2) * 128 + 128
    rw [ea1]; omega

/-- THE OUTPUT ARRAY after region 1: the gated message of the arrays the region finds. -/
theorem final (V : (c : Dev nD) → (b : Ref sig .tc) → Buf (Elt Ideal) ((c : Thread nD τ).loc b)) (c : Dev nD)
    (we1 : (⟨S257x128, .f32⟩ : BufTy).Contents (Elt Ideal)) (be1 : (⟨S128, .f32⟩ : BufTy).Contents (Elt Ideal))
    (we2 : (⟨S128x128, .f32⟩ : BufTy).Contents (Elt Ideal)) (be2 : (⟨S128, .f32⟩ : BufTy).Contents (Elt Ideal)) (binf : (⟨S1, .f32⟩ : BufTy).Contents (Elt Ideal))
    (h41 : V c main_v41 = truncf (F := Ideal) .bf16 (extractStridedSlice S256x128 ![0, 0] we1 slices_S257x128_S256x128_0_0) bitsLt_bf16_f32)
    (h42 : V c main_v42 = extractStridedSlice S1x128 ![256, 0] we1 slices_S257x128_S1x128_256_0)
    (h43 : V c main_v43 = shapeCast S1x128 be1 shapeCasts_S128_S1x128)
    (h44 : V c main_v44 = truncf (F := Ideal) .bf16 we2 bitsLt_bf16_f32)
    (h45 : V c main_v45 = shapeCast S1x128 be2 shapeCasts_S128_S1x128)
    (h46 : V c main_v46 = shapeCast S1x1 binf shapeCasts_S1_S1x1) :
    (dat1 (F := Ideal) V c).arrAt 10 cfg1.N
      = Cert.Stages.edgeOut (F := Ideal) (Cert.Stages.edgeM (F := Ideal) (V c main_v32) (V c main_v39) (V c main_v25) we1 be1 we2 be2) (V c main_arg8) binf :=
  (dat1 (F := Ideal) V c).arrAt_eq_of_cover 10 _ (fun t _ => flushed_eq V c we1 be1 we2 be2 binf h41 h42 h43 h44 h45 h46 t) cover

end Cert.KernelIdeal.Region1

end
-- ==== Proof.Region2.lean ====
/-
  The value of the third tiled region: the node update and the output head.

  The region walks ten row tiles of 5000 rows. On each tile it lays the embedding rows and the summed messages side
  by side, applies a linear layer, multiplies each entry x by 1 / (1 + e^(-x)), applies a second linear layer, adds the
  embedding rows back, and then the two layers of the output head with a hyperbolic tangent between them. Every one of
  these steps works row by row: row p of a tile's result depends only on row p of the tile's row-tiled inputs and on
  the (whole) weights and biases. Since no rounding is left at the extended reals, row p of tile t is therefore row
  5000·t + p of the same chain of operations carried out on the whole arrays, which is the stage `Cert.Stages.node`.

  The file proves this in three steps: the layers one by one ("if the inputs agree on a row, so do the outputs"),
  their composition for the region's body, and the passage from the ten blocks to the whole output array.
-/
import proofs.«125594_j55594056679488_2_alg».proof.Proof.KernelIdealFrameP
import proofs.«125594_j55594056679488_2_alg».proof.Proof.Stages
import proofs.«125594_j55594056679488_2_alg».proof.Proof.LibTileMatmul
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.KernelIdeal.Region2

open Cert.KernelIdeal Cert.KernelIdeal.Gen Cert.KernelIdeal.GenP
open Idealize.ShloMosaic Idealize.ShloMosaic.TcCoe Idealize.ShloMosaic.ValueIdx Idealize.ShloMosaic.TileMatmul Idealize.SL.Sem
open Idealize.ShloMosaic.Pipeline (Dat)

/-! ## The layers, row by row -/

/-- The word 0x3F800000 is the number one. -/
theorem one_word : Ideal.ofBits .f32 0x3F800000#32 = 1 := by
  simp [Ideal.ofBits, Ideal.ieee, -EReal.coe_mul]; norm_num

/-- A LINEAR LAYER. If row `p` of the tile `T` is row `i` of the array `X`, the weights agree on column `q`, and the
    tile's bias row `v` (one row, `[1, n]`) carries at `q` the bias vector's entry `b q`, then the tile's product into
    zero plus its bias laid along every row is, at (p, q), the array's product plus the bias vector laid along every
    row, at (i, q). -/
theorem lin_row {m M k n : Nat}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ .f32) (B : FVec Ideal ⟨2, ![k, n]⟩ .f32)
    (X : FVec Ideal ⟨2, ![M, k]⟩ .f32) (B' : FVec Ideal ⟨2, ![k, n]⟩ .f32)
    (v : FVec Ideal ⟨2, ![1, n]⟩ .f32) (b : FVec Ideal ⟨1, ![n]⟩ .f32)
    (hsc : (⟨2, ![1, n]⟩ : Shape).ShapeCasts ⟨2, ![1, n]⟩) (hbt : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![M, n]⟩ ![0, 1])
    (p : Fin m) (i : Fin M) (q : Fin n)
    (hT : ∀ c : Fin k, (T (ix2 p c) : EReal) = X (ix2 i c)) (hB : ∀ c : Fin k, (B (ix2 c q) : EReal) = B' (ix2 c q))
    (hv : (v (ix2 (0 : Fin 1) q) : EReal) = b (ix1 q)) :
    (addf (matmul (F := Ideal) (plainDims wT) prec T B (constant (F := Ideal) ⟨2, ![m, n]⟩ .f32 0x00000000#32))
        (broadcastTo ⟨2, ![m, n]⟩ (shapeCast ⟨2, ![1, n]⟩ v hsc) hbt) (ix2 p q) : EReal)
      = addf (Host.dotGeneral (F := Ideal) (plainDims wX) prec' X B')
        (broadcastInDim ⟨2, ![M, n]⟩ ![0, 1] hd2 (broadcastInDim ⟨2, ![1, n]⟩ ![1] hd1 b)) (ix2 i q) := by
  rw [addf_apply, addf_apply, matmul_tile_eq_dotGeneral wT wX prec prec' T B X B' p q i hT hB,
    broadcastTo_1b_ab_apply, shapeCast_self, broadcastInDim_oneRow_apply, hv]
  congr 1
  refine (broadcastInDim_apply ![1] hd1 b (ix2 (0 : Fin 1) q) (ix1 q) ?_).symm
  intro a
  match a with
  | ⟨0, _⟩ =>
    show q.val = if n = 1 then 0 else q.val
    split
    · have := q.isLt; omega
    · rfl

/-- THE GATE x · 1 / (1 + e^(-x)). The tile multiplies x by the logistic function of x; the whole-array stage spells
    the same function out with a division, an exponential and the constant one. Entry by entry they are the same
    number. -/
theorem silu_entry {s S : Shape} (x : FVec Ideal s .f32) (X : FVec Ideal S .f32)
    (hb : (⟨0, ![]⟩ : Shape).BroadcastsInDim S ![]) (j : s.Idx) (J : S.Idx) (h : (x j : EReal) = X J) :
    (mulf x (logistic x) j : EReal)
      = mulf X (Host.divf (broadcastInDim S ![] hb (constant (F := Ideal) ⟨0, ![]⟩ .f32 0x3F800000#32))
          (addf (broadcastInDim S ![] hb (constant (F := Ideal) ⟨0, ![]⟩ .f32 0x3F800000#32)) (Host.exp (Host.negf X)))) J := by
  have hc : broadcastInDim S ![] hb (constant (F := Ideal) ⟨0, ![]⟩ .f32 0x3F800000#32) J = (1 : EReal) := by
    rw [broadcastInDim_apply ![] hb _ J ix0 (fun a => a.elim0), constant_apply, one_word]
  show (x j : EReal) * Ideal.div 1 (1 + Ideal.exp (-(x j)))
    = X J * Ideal.div (broadcastInDim S ![] hb (constant (F := Ideal) ⟨0, ![]⟩ .f32 0x3F800000#32) J)
        (broadcastInDim S ![] hb (constant (F := Ideal) ⟨0, ![]⟩ .f32 0x3F800000#32) J + Ideal.exp (-(X J)))
  rw [hc, h]

/-- THE HYPERBOLIC TANGENT, entry by entry: the tile's and the whole-array stage's are one function. -/
theorem tanh_entry {s S : Shape} (x : FVec Ideal s .f32) (X : FVec Ideal S .f32) (j : s.Idx) (J : S.Idx)
    (h : (x j : EReal) = X J) : (tanh x j : EReal) = Host.tanh X J := by
  show Ideal.tanh (x j) = Ideal.tanh (X J)
  rw [h]

/-- TWO BLOCKS OF COLUMNS SIDE BY SIDE. If row `p` of each of the two tiles is row `i` of the corresponding array, row
    `p` of the tiles laid side by side is row `i` of the arrays laid side by side. -/
theorem cat_row {m M a b n : Nat} (hn : a + b = n) (x0 : FVec Ideal ⟨2, ![m, a]⟩ .f32) (x1 : FVec Ideal ⟨2, ![m, b]⟩ .f32)
    (X0 : FVec Ideal ⟨2, ![M, a]⟩ .f32) (X1 : FVec Ideal ⟨2, ![M, b]⟩ .f32)
    (hc : Shape.Concatenates [(⟨2, ![m, a]⟩ : Shape), ⟨2, ![m, b]⟩] ⟨2, ![m, n]⟩ 1)
    (hC : Shape.Concatenates [(⟨2, ![M, a]⟩ : Shape), ⟨2, ![M, b]⟩] ⟨2, ![M, n]⟩ 1)
    (p : Fin m) (i : Fin M)
    (h0 : ∀ c : Fin a, (x0 (ix2 p c) : EReal) = X0 (ix2 i c)) (h1 : ∀ c : Fin b, (x1 (ix2 p c) : EReal) = X1 (ix2 i c))
    (c : Fin n) :
    (concatenate ⟨2, ![m, n]⟩ 1 [⟨⟨2, ![m, a]⟩, x0⟩, ⟨⟨2, ![m, b]⟩, x1⟩] hc (ix2 p c) : EReal)
      = concatenate ⟨2, ![M, n]⟩ 1 [⟨⟨2, ![M, a]⟩, X0⟩, ⟨⟨2, ![M, b]⟩, X1⟩] hC (ix2 i c) := by
  subst hn
  by_cases hlt : c.val < a
  · rw [concatenate_pair_apply_left 1 x0 x1 hc (ix2 p c) rfl (ix2 p ⟨c.val, hlt⟩)
        (fun d => by match d with | ⟨0, _⟩ => rfl | ⟨1, _⟩ => rfl),
      concatenate_pair_apply_left 1 X0 X1 hC (ix2 i c) rfl (ix2 i ⟨c.val, hlt⟩)
        (fun d => by match d with | ⟨0, _⟩ => rfl | ⟨1, _⟩ => rfl)]
    exact h0 _
  · have hge : a ≤ c.val := Nat.le_of_not_lt hlt
    have hcb : c.val - a < b := by have := c.isLt; omega
    rw [concatenate_pair_apply_right 1 x0 x1 hc (ix2 p c) rfl rfl (ix2 p ⟨c.val - a, hcb⟩)
        (fun d hd => by match d with | ⟨0, _⟩ => rfl | ⟨1, _⟩ => exact absurd rfl hd)
        (by show c.val - a + a = c.val; omega),
      concatenate_pair_apply_right 1 X0 X1 hC (ix2 i c) rfl rfl (ix2 i ⟨c.val - a, hcb⟩)
        (fun d hd => by match d with | ⟨0, _⟩ => rfl | ⟨1, _⟩ => exact absurd rfl hd)
        (by show c.val - a + a = c.val; omega)]
    exact h1 _

/-- A SUM, entry by entry. -/
theorem add_entry {s S : Shape} (a b : FVec Ideal s .f32) (A B : FVec Ideal S .f32) (j : s.Idx) (J : S.Idx)
    (h1 : (a j : EReal) = A J) (h2 : (b j : EReal) = B J) : (addf a b j : EReal) = addf A B J := by
  rw [addf_apply, addf_apply, h1, h2]

/-! ## The region's body, row by row -/

/-- ONE ROW OF THE BODY. If row `p` of the tile of embedding rows and of the tile of summed messages is row `r` of the
    two arrays, and each loaded bias row holds its bias vector, the body's stored value at (p, q) is the node stage
    at (r, q): the layers above, composed from the output head inwards. -/
theorem pay_row (x0 x1 : FVec Ideal S5000x128 .f32) (x2 : FVec Ideal S256x128 .f32) (x3 : FVec Ideal S1x128 .f32)
    (x4 : FVec Ideal S128x128 .f32) (x5 : FVec Ideal S1x128 .f32) (x6 : FVec Ideal S128x128 .f32)
    (x7 : FVec Ideal S1x128 .f32) (x8 : FVec Ideal S128x3 .f32) (x9 : FVec Ideal S1x3 .f32)
    (h mi : FVec Ideal Cert.ReferenceIdeal.S50000x128 .f32)
    (bh1 bh2 bl1 : FVec Ideal Cert.ReferenceIdeal.S128 .f32) (bl2 : FVec Ideal Cert.ReferenceIdeal.S3 .f32)
    (p : Fin 5000) (r : Fin 50000)
    (e0 : ∀ k : Fin 128, x0 (ix2 p k) = h (ix2 r k)) (e1 : ∀ k : Fin 128, x1 (ix2 p k) = mi (ix2 r k))
    (e3 : ∀ q : Fin 128, x3 (ix2 (0 : Fin 1) q) = bh1 (ix1 q)) (e5 : ∀ q : Fin 128, x5 (ix2 (0 : Fin 1) q) = bh2 (ix1 q))
    (e7 : ∀ q : Fin 128, x7 (ix2 (0 : Fin 1) q) = bl1 (ix1 q)) (e9 : ∀ q : Fin 3, x9 (ix2 (0 : Fin 1) q) = bl2 (ix1 q))
    (q : Fin 3) :
    k2_pay1 (F := Ideal) x0 x1 x2 x3 x4 x5 x6 x7 x8 x9 (ix2 p q)
      = Cert.Stages.node (F := Ideal) h mi x2 bh1 x4 bh2 x6 bl1 x8 bl2 (ix2 r q) := by
  unfold k2_pay1 Cert.Stages.node
  -- the output head's second layer
  refine lin_row (wT := dot_S5000x128_S128x3_S5000x3_1_0_0_1_n_n_wf)
    (wX := Cert.ReferenceIdeal.Gen.dot_S50000x128_S128x3_S50000x3_1_0_0_1_n_n_wf) (some .fp32) none _ x8 _ x8 x9 bl2
    _ _ _ _ p r q (fun c => ?_) (fun _ => rfl) (e9 q)
  -- the hyperbolic tangent, and the output head's first layer
  refine tanh_entry _ _ _ _ ?_
  refine lin_row (wT := dot_S5000x128_S128x128_S5000x128_1_0_0_1_n_n_wf)
    (wX := Cert.ReferenceIdeal.Gen.dot_S50000x128_S128x128_S50000x128_1_0_0_1_n_n_wf) (some .fp32) none _ x6 _ x6 x7 bl1
    _ _ _ _ p r c (fun c => ?_) (fun _ => rfl) (e7 c)
  -- the embedding rows added back
  refine add_entry _ _ _ _ _ _ ((congrFun (shapeCast_self x0 _) _).trans (e0 c)) ?_
  -- the node network's second layer
  refine lin_row (wT := dot_S5000x128_S128x128_S5000x128_1_0_0_1_n_n_wf)
    (wX := Cert.ReferenceIdeal.Gen.dot_S50000x128_S128x128_S50000x128_1_0_0_1_n_n_wf) (some .fp32) none _ x4 _ x4 x5 bh2
    _ _ _ _ p r c (fun c => ?_) (fun _ => rfl) (e5 c)
  -- the gate, and the node network's first layer
  unfold Cert.Stages.siluN
  refine silu_entry _ _ _ _ _ ?_
  unfold Cert.Stages.lin3
  refine lin_row (wT := dot_S5000x256_S256x128_S5000x128_1_0_0_1_n_n_wf)
    (wX := Cert.ReferenceIdeal.Gen.dot_S50000x256_S256x128_S50000x128_1_0_0_1_n_n_wf) (some .fp32) none _ x2 _ x2 x3 bh1
    _ _ _ _ p r c (fun c => ?_) (fun _ => rfl) (e3 c)
  -- the two tiles side by side
  rw [shapeCast_self, shapeCast_self]
  exact cat_row (by norm_num) x0 x1 h mi _ _ p r e0 e1 c

/-- The same at any index of the tile and of the array, the coordinates related by hypotheses. -/
theorem pay_at (x0 x1 : FVec Ideal S5000x128 .f32) (x2 : FVec Ideal S256x128 .f32) (x3 : FVec Ideal S1x128 .f32)
    (x4 : FVec Ideal S128x128 .f32) (x5 : FVec Ideal S1x128 .f32) (x6 : FVec Ideal S128x128 .f32)
    (x7 : FVec Ideal S1x128 .f32) (x8 : FVec Ideal S128x3 .f32) (x9 : FVec Ideal S1x3 .f32)
    (h mi : FVec Ideal Cert.ReferenceIdeal.S50000x128 .f32)
    (bh1 bh2 bl1 : FVec Ideal Cert.ReferenceIdeal.S128 .f32) (bl2 : FVec Ideal Cert.ReferenceIdeal.S3 .f32)
    (y : S5000x3.Idx) (i : S50000x3.Idx)
    (hx0 : ∀ (u : S5000x128.Idx) (v : S50000x128.Idx), (u 0).val = (y 0).val → (v 0).val = (i 0).val → (u 1).val = (v 1).val → x0 u = h v)
    (hx1 : ∀ (u : S5000x128.Idx) (v : S50000x128.Idx), (u 0).val = (y 0).val → (v 0).val = (i 0).val → (u 1).val = (v 1).val → x1 u = mi v)
    (hb3 : ∀ (u : S1x128.Idx) (w : S128.Idx), (u 1).val = (w 0).val → x3 u = bh1 w)
    (hb5 : ∀ (u : S1x128.Idx) (w : S128.Idx), (u 1).val = (w 0).val → x5 u = bh2 w)
    (hb7 : ∀ (u : S1x128.Idx) (w : S128.Idx), (u 1).val = (w 0).val → x7 u = bl1 w)
    (hb9 : ∀ (u : S1x3.Idx) (w : S3.Idx), (u 1).val = (w 0).val → x9 u = bl2 w)
    (hq : (i 1).val = (y 1).val) :
    k2_pay1 (F := Ideal) x0 x1 x2 x3 x4 x5 x6 x7 x8 x9 y
      = Cert.Stages.node (F := Ideal) h mi x2 bh1 x4 bh2 x6 bl1 x8 bl2 i := by
  obtain ⟨p, q, rfl⟩ : ∃ (p : Fin 5000) (q : Fin 3), y = ix2 p q := ⟨y 0, y 1, eq_ix2 y⟩
  obtain ⟨r, q', rfl⟩ : ∃ (r : Fin 50000) (q' : Fin 3), i = ix2 r q' := ⟨i 0, i 1, eq_ix2 i⟩
  obtain rfl : q' = q := Fin.ext hq
  exact pay_row x0 x1 x2 x3 x4 x5 x6 x7 x8 x9 h mi bh1 bh2 bl1 bl2 p r
    (fun k => hx0 (ix2 p k) (ix2 r k) rfl rfl rfl) (fun k => hx1 (ix2 p k) (ix2 r k) rfl rfl rfl)
    (fun q => hb3 (ix2 (0 : Fin 1) q) (ix1 q) rfl) (fun q => hb5 (ix2 (0 : Fin 1) q) (ix1 q) rfl)
    (fun q => hb7 (ix2 (0 : Fin 1) q) (ix1 q) rfl) (fun q => hb9 (ix2 (0 : Fin 1) q) (ix1 q) rfl) q'

/-! ## From the ten blocks to the output array -/

theorem hz : (![0, 0] : Fin 2 → Nat) = fun _ => 0 := funext fun a => by fin_cases a <;> rfl

/-- The printed index maps over the grid: the row-tiled windows (the embedding rows, the summed messages, the output)
    sit at block (t, 0), the weights and bias rows at (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

variable (V : (c : Dev nD) → (b : Ref sig .tc) → Buf (Elt Ideal) ((c : Thread nD τ).loc b)) (c : Dev nD)

set_option maxHeartbeats 2000000 in
/-- WHAT POINT t WRITES BACK is block t of the node stage of the arrays the region finds. -/
theorem flushed_eq (bh1 bh2 bl1 : (⟨S128, .f32⟩ : BufTy).Contents (Elt Ideal)) (bl2 : (⟨S3, .f32⟩ : BufTy).Contents (Elt Ideal))
    (h52 : V c main_v52 = shapeCast S1x128 bh1 shapeCasts_S128_S1x128) (h53 : V c main_v53 = shapeCast S1x128 bh2 shapeCasts_S128_S1x128)
    (h54 : V c main_v54 = shapeCast S1x128 bl1 shapeCasts_S128_S1x128) (h55 : V c main_v55 = shapeCast S1x3 bl2 shapeCasts_S3_S1x3)
    (t : Fin cfg2.N) :
    (dat2 (F := Ideal) V c).flushed 10 t
      = ((cfg2.win 10).blk t).view.read (Elt Ideal) (Cert.Stages.node (F := Ideal) (V c main_v2) (V c main_v51) (V c main_arg10) bh1 (V c main_arg12) bh2 (V c main_arg14) bl1 (V c main_arg16) bl2) := by
  show (cfg2.win 10).cut (grid2.coords t) ((dat2 V c).after 10 t) = _
  rw [after2_10]
  unfold out2_10
  rw [View.canon_unit_zero hz]
  simp only [View.ld_unit_zero (S := S5000x128) hz, View.ld_unit_zero (S := S256x128) hz, View.ld_unit_zero (S := S1x128) hz,
    View.ld_unit_zero (S := S128x128) hz, View.ld_unit_zero (S := S128x3) hz, View.ld_unit_zero (S := S1x3) hz]
  obtain ⟨e00, e01, e10, e11, e20, e21, e30, e31, e40, e41, e50, e51, e60, e61, e70, e71, e80, e81, e90, e91, ea0, ea1⟩ := idx_facts t
  funext j
  show k2_pay1 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) j
    = Cert.Stages.node (F := Ideal) (V c main_v2) (V c main_v51) (V c main_arg10) bh1 (V c main_arg12) bh2 (V c main_arg14) bl1 (V c main_arg16) bl2 (((cfg2.win 10).blk t).view.emb j)
  -- a weight window's block is its whole array
  have hw2 : iblk2 V c 2 t = V c main_arg10 := by
    funext u
    show V c main_arg10 (((cfg2.win 2).blk t).view.emb u) = V c main_arg10 u
    refine congrArg (V c main_arg10) (funext fun a => Fin.ext ?_)
    match a with
    | ⟨0, _⟩ => show win2_2.index t (0 : Fin 2) * 256 + 1 * (u 0).val = (u 0).val; omega
    | ⟨1, _⟩ => show win2_2.index t (1 : Fin 2) * 128 + 1 * (u 1).val = (u 1).val; omega
  have hw4 : iblk2 V c 4 t = V c main_arg12 := by
    funext u
    show V c main_arg12 (((cfg2.win 4).blk t).view.emb u) = V c main_arg12 u
    refine congrArg (V c main_arg12) (funext fun a => Fin.ext ?_)
    match a with
    | ⟨0, _⟩ => show win2_4.index t (0 : Fin 2) * 128 + 1 * (u 0).val = (u 0).val; omega
    | ⟨1, _⟩ => show win2_4.index t (1 : Fin 2) * 128 + 1 * (u 1).val = (u 1).val; omega
  have hw6 : iblk2 V c 6 t = V c main_arg14 := by
    funext u
    show V c main_arg14 (((cfg2.win 6).blk t).view.emb u) = V c main_arg14 u
    refine congrArg (V c main_arg14) (funext fun a => Fin.ext ?_)
    match a with
    | ⟨0, _⟩ => show win2_6.index t (0 : Fin 2) * 128 + 1 * (u 0).val = (u 0).val; omega
    | ⟨1, _⟩ => show win2_6.index t (1 : Fin 2) * 128 + 1 * (u 1).val = (u 1).val; omega
  have hw8 : iblk2 V c 8 t = V c main_arg16 := by
    funext u
    show V c main_arg16 (((cfg2.win 8).blk t).view.emb u) = V c main_arg16 u
    refine congrArg (V c main_arg16) (funext fun a => Fin.ext ?_)
    match a with
    | ⟨0, _⟩ => show win2_8.index t (0 : Fin 2) * 128 + 1 * (u 0).val = (u 0).val; omega
    | ⟨1, _⟩ => show win2_8.index t (1 : Fin 2) * 3 + 1 * (u 1).val = (u 1).val; omega
  rw [hw2, hw4, hw6, hw8]
  refine pay_at (iblk2 V c 0 t) (iblk2 V c 1 t) (V c main_arg10) (iblk2 V c 3 t) (V c main_arg12) (iblk2 V c 5 t) (V c main_arg14) (iblk2 V c 7 t) (V c main_arg16) (iblk2 V c 9 t)
    (V c main_v2) (V c main_v51) bh1 bh2 bl1 bl2 j _ ?_ ?_ ?_ ?_ ?_ ?_ ?_
  -- the two row-tiled inputs: row p of block t is row 5000 t + p of the array
  · intro u v h0 h1' h2
    show V c main_v2 (((cfg2.win 0).blk t).view.emb u) = V c main_v2 v
    refine congrArg (V c main_v2) (funext fun a => Fin.ext ?_)
    match a with
    | ⟨0, _⟩ =>
      show win2_0.index t (0 : Fin 2) * 5000 + 1 * (u 0).val = (v 0).val
      have hv : (v 0).val = win2_10.index t (0 : Fin 2) * 5000 + 1 * (j 0).val := h1'
      omega
    | ⟨1, _⟩ =>
      show win2_0.index t (1 : Fin 2) * 128 + 1 * (u 1).val = (v 1).val
      omega
  · intro u v h0 h1' h2
    show V c main_v51 (((cfg2.win 1).blk t).view.emb u) = V c main_v51 v
    refine congrArg (V c main_v51) (funext fun a => Fin.ext ?_)
    match a with
    | ⟨0, _⟩ =>
      show win2_1.index t (0 : Fin 2) * 5000 + 1 * (u 0).val = (v 0).val
      have hv : (v 0).val = win2_10.index t (0 : Fin 2) * 5000 + 1 * (j 0).val := h1'
      omega
    | ⟨1, _⟩ =>
      show win2_1.index t (1 : Fin 2) * 128 + 1 * (u 1).val = (v 1).val
      omega
  -- the bias rows: a one-row table holding the bias vector
  · intro u w huw
    show V c main_v52 (((cfg2.win 3).blk t).view.emb u) = bh1 w
    rw [h52]
    refine shapeCast_apply bh1 shapeCasts_S128_S1x128 _ w ?_
    rw [Shape.rowMajor_val_two, Shape.rowMajor_val_one]
    show (w 0).val = (win2_3.index t (0 : Fin 2) * 1 + 1 * (u 0).val) * 128 + (win2_3.index t (1 : Fin 2) * 128 + 1 * (u 1).val)
    have hu0 : (u 0).val < 1 := (u 0).isLt
    omega
  · intro u w huw
    show V c main_v53 (((cfg2.win 5).blk t).view.emb u) = bh2 w
    rw [h53]
    refine shapeCast_apply bh2 shapeCasts_S128_S1x128 _ w ?_
    rw [Shape.rowMajor_val_two, Shape.rowMajor_val_one]
    show (w 0).val = (win2_5.index t (0 : Fin 2) * 1 + 1 * (u 0).val) * 128 + (win2_5.index t (1 : Fin 2) * 128 + 1 * (u 1).val)
    have hu0 : (u 0).val < 1 := (u 0).isLt
    omega
  · intro u w huw
    show V c main_v54 (((cfg2.win 7).blk t).view.emb u) = bl1 w
    rw [h54]
    refine shapeCast_apply bl1 shapeCasts_S128_S1x128 _ w ?_
    rw [Shape.rowMajor_val_two, Shape.rowMajor_val_one]
    show (w 0).val = (win2_7.index t (0 : Fin 2) * 1 + 1 * (u 0).val) * 128 + (win2_7.index t (1 : Fin 2) * 128 + 1 * (u 1).val)
    have hu0 : (u 0).val < 1 := (u 0).isLt
    omega
  · intro u w huw
    show V c main_v55 (((cfg2.win 9).blk t).view.emb u) = bl2 w
    rw [h55]
    refine shapeCast_apply bl2 shapeCasts_S3_S1x3 _ w ?_
    rw [Shape.rowMajor_val_two, Shape.rowMajor_val_one]
    show (w 0).val = (win2_9.index t (0 : Fin 2) * 1 + 1 * (u 0).val) * 3 + (win2_9.index t (1 : Fin 2) * 3 + 1 * (u 1).val)
    have hu0 : (u 0).val < 1 := (u 0).isLt
    omega
  · show win2_10.index t (1 : Fin 2) * 3 + 1 * (j 1).val = (j 1).val
    omega

/-- An index of the output array is in point t's block iff each coordinate is in the block's range on its axis. -/
theorem mem_blk (t : Fin cfg2.N) (i : S50000x3.Idx) :
    i ∈ ((cfg2.win 10).blk t).view.set ↔ ∀ a : Fin 2, win2_10.index t a * S5000x3.size a ≤ (i a).val ∧ (i a).val < win2_10.index t a * S5000x3.size a + S5000x3.size a := by
  show i ∈ ((View.whole main_v56).slice (win2_10.rect t)).set ↔ _
  rw [View.set_slice_whole, Rect.mem_set_unit]
  exact Iff.rfl

/-- The ten blocks tile the output: row r is in the block of point r / 5000. -/
theorem cover (i : S50000x3.Idx) : ∃ t : Fin cfg2.N, (cfg2.win 10).flush t = true ∧ i ∈ ((cfg2.win 10).blk t).view.set := by
  have hi0 : (i 0).val < 50000 := (i 0).isLt
  have hi1 : (i 1).val < 3 := (i 1).isLt
  have hN : grid2.N = 10 := N_2
  have hlt : (i 0).val / 5000 < grid2.N := by omega
  refine ⟨⟨(i 0).val / 5000, hlt⟩, flush2_10 _, ?_⟩
  rw [mem_blk]
  obtain ⟨-, -, -, -, -, -, -, -, -, -, -, -, -, -, -, -, -, -, -, -, ea0, ea1⟩ := idx_facts ⟨(i 0).val / 5000, hlt⟩
  intro a
  match a with
  | ⟨0, _⟩ =>
    show win2_10.index ⟨(i 0).val / 5000, hlt⟩ (0 : Fin 2) * 5000 ≤ (i 0).val ∧ (i 0).val < win2_10.index ⟨(i 0).val / 5000, hlt⟩ (0 : Fin 2) * 5000 + 5000
    rw [ea0]; show (i 0).val / 5000 * 5000 ≤ (i 0).val ∧ (i 0).val < (i 0).val / 5000 * 5000 + 5000; omega
  | ⟨1, _⟩ =>
    show win2_10.index ⟨(i 0).val / 5000, hlt⟩ (1 : Fin 2) * 3 ≤ (i 1).val ∧ (i 1).val < win2_10.index ⟨(i 0).val / 5000, hlt⟩ (1 : Fin 2) * 3 + 3
    rw [ea1]; omega

/-- THE OUTPUT ARRAY after the region: the node stage of the arrays the region finds. -/
theorem final (V : (c : Dev nD) → (b : Ref sig .tc) → Buf (Elt Ideal) ((c : Thread nD τ).loc b)) (c : Dev nD)
    (bh1 bh2 bl1 : (⟨S128, .f32⟩ : BufTy).Contents (Elt Ideal)) (bl2 : (⟨S3, .f32⟩ : BufTy).Contents (Elt Ideal))
    (h52 : V c main_v52 = shapeCast S1x128 bh1 shapeCasts_S128_S1x128) (h53 : V c main_v53 = shapeCast S1x128 bh2 shapeCasts_S128_S1x128)
    (h54 : V c main_v54 = shapeCast S1x128 bl1 shapeCasts_S128_S1x128) (h55 : V c main_v55 = shapeCast S1x3 bl2 shapeCasts_S3_S1x3) :
    (dat2 (F := Ideal) V c).arrAt 10 cfg2.N
      = Cert.Stages.node (F := Ideal) (V c main_v2) (V c main_v51) (V c main_arg10) bh1 (V c main_arg12) bh2 (V c main_arg14) bl1 (V c main_arg16) bl2 :=
  (dat2 (F := Ideal) V c).arrAt_eq_of_cover 10 _ (fun t _ => flushed_eq V c bh1 bh2 bl1 bl2 h52 h53 h54 h55 t) cover

end Cert.KernelIdeal.Region2

end
-- ==== Proof.KernelValue.lean ====
/-
  The value of the idealized kernel program's result: the contents the last segment boundary holds for the result
  buffer are the whole message-passing computation (`Cert.Stages.whole`) of the eighteen launch arrays.

  The boundary contents are a fold through @main: a stretch of host operations rewrites the buffers it writes
  (`HostWalk`), a region leaves each of its output arrays at what its write-backs assemble (`W2_arr`, `W4_arr`,
  `W6_arr`) and every other buffer as it found it. Walking the result buffer back through the fold: region 2's output
  is the node update and output head of the embedding and the summed messages it finds (`Region2.final`); the summed
  messages are the scatter-add, in the stretch before it, of region 1's output onto the edges' start nodes; region 1's
  output is the gated edge messages of the gathered embedding rows and the distances it finds (`Region1.final`), which
  the stretch before it gathered from region 0's output and from the position columns; region 0's output is the node
  embedding of the launch arrays (`Region0.final`); and every argument a stretch or a region reads is still at its
  launch contents, because nothing before wrote it.
-/
import proofs.«125594_j55594056679488_2_alg».proof.Proof.KernelIdealFrameP
import proofs.«125594_j55594056679488_2_alg».proof.Proof.Stages
import proofs.«125594_j55594056679488_2_alg».proof.Proof.HostWalk
import proofs.«125594_j55594056679488_2_alg».proof.Proof.Region0
import proofs.«125594_j55594056679488_2_alg».proof.Proof.Region1
import proofs.«125594_j55594056679488_2_alg».proof.Proof.Region2
import Idealize.ShloMosaic.Lib.StableHlo.Run

set_option maxRecDepth 16384

noncomputable section

namespace Cert.KernelIdeal.KernelValue

open Cert.KernelIdeal Cert.KernelIdeal.Gen Cert.KernelIdeal.GenP
open Idealize.ShloMosaic Idealize.ShloMosaic.TcCoe Idealize.SL.Sem Idealize.ShloMosaic.StableHlo
open Cert.KernelIdeal.HostWalk

variable (m : (ℓ : Loc nD τ sig) → Buf (Elt Ideal) ℓ) (ρ : Dev nD → PrngReg) (c : Dev nD)

/-! ## Buffers no segment has written hold their launch contents -/

theorem W0_eq (b : Ref sig .tc) : W0 (F := Ideal) m ρ c (Proc.devRef .tc b) = m ((c : Thread nD τ).loc b) := rfl

theorem W1_keep (b : Ref sig .tc) (hb : b ∉ [main_v0, main_v1]) :
    W1 (F := Ideal) m ρ c (Proc.devRef .tc b) = m ((c : Thread nD τ).loc b) :=
  (ops0_keep (W0 m ρ c) b hb).trans (W0_eq m ρ c b)

theorem W2_keep (b : Ref sig .tc) (hb : b ∉ [main_v0, main_v1]) (hw : ∀ w, Pipeline.arrRef spec0 w ≠ b) :
    W2 (F := Ideal) m ρ c (Proc.devRef .tc b) = m ((c : Thread nD τ).loc b) :=
  (W2_of_ne m ρ c b hw).trans (W1_keep m ρ c b hb)

theorem W3_keep (b : Ref sig .tc) (hb : b ∉ [main_v0, main_v1]) (hw : ∀ w, Pipeline.arrRef spec0 w ≠ b)
    (h1 : b ∉ [main_v3, main_v4, main_v5, main_v6, main_c, main_v7, main_v8, main_c_0, main_v9, main_v10, main_v11, main_v12, main_v13, main_c_1, main_v14, main_v15, main_c_2, main_v16, main_v17, main_v18, main_v19, main_v20, main_v21, main_v22, main_cst, main_v23, main_v24, main_v25, main_c_3, main_v26, main_v27, main_c_4, main_v28, main_v29, main_v30, main_v31, main_v32, main_c_5, main_v33, main_v34, main_c_6, main_v35, main_v36, main_v37, main_v38, main_v39, main_v40, main_v41, main_v42, main_v43, main_v44, main_v45, main_v46]) :
    W3 (F := Ideal) m ρ c (Proc.devRef .tc b) = m ((c : Thread nD τ).loc b) :=
  (ops1_keep (W2 m ρ c) b h1).trans (W2_keep m ρ c b hb hw)

theorem W4_keep (b : Ref sig .tc) (hb : b ∉ [main_v0, main_v1]) (hw : ∀ w, Pipeline.arrRef spec0 w ≠ b)
    (h1 : b ∉ [main_v3, main_v4, main_v5, main_v6, main_c, main_v7, main_v8, main_c_0, main_v9, main_v10, main_v11, main_v12, main_v13, main_c_1, main_v14, main_v15, main_c_2, main_v16, main_v17, main_v18, main_v19, main_v20, main_v21, main_v22, main_cst, main_v23, main_v24, main_v25, main_c_3, main_v26, main_v27, main_c_4, main_v28, main_v29, main_v30, main_v31, main_v32, main_c_5, main_v33, main_v34, main_c_6, main_v35, main_v36, main_v37, main_v38, main_v39, main_v40, main_v41, main_v42, main_v43, main_v44, main_v45, main_v46]) (hw1 : ∀ w, Pipeline.arrRef spec1 w ≠ b) :
    W4 (F := Ideal) m ρ c (Proc.devRef .tc b) = m ((c : Thread nD τ).loc b) :=
  (W4_of_ne m ρ c b hw1).trans (W3_keep m ρ c b hb hw h1)

theorem W5_keep (b : Ref sig .tc) (hb : b ∉ [main_v0, main_v1]) (hw : ∀ w, Pipeline.arrRef spec0 w ≠ b)
    (h1 : b ∉ [main_v3, main_v4, main_v5, main_v6, main_c, main_v7, main_v8, main_c_0, main_v9, main_v10, main_v11, main_v12, main_v13, main_c_1, main_v14, main_v15, main_c_2, main_v16, main_v17, main_v18, main_v19, main_v20, main_v21, main_v22, main_cst, main_v23, main_v24, main_v25, main_c_3, main_v26, main_v27, main_c_4, main_v28, main_v29, main_v30, main_v31, main_v32, main_c_5, main_v33, main_v34, main_c_6, main_v35, main_v36, main_v37, main_v38, main_v39, main_v40, main_v41, main_v42, main_v43, main_v44, main_v45, main_v46]) (hw1 : ∀ w, Pipeline.arrRef spec1 w ≠ b)
    (h2 : b ∉ [main_v48, main_cst_7, main_v49, main_v50, main_v51, main_v52, main_v53, main_v54, main_v55]) :
    W5 (F := Ideal) m ρ c (Proc.devRef .tc b) = m ((c : Thread nD τ).loc b) :=
  (ops2_keep (W4 m ρ c) b h2).trans (W4_keep m ρ c b hb hw h1 hw1)

/-! ## Region 0: the embedding -/

/-- The embedding of the launch arrays. -/
abbrev H : (⟨Cert.ReferenceIdeal.S50000x128, .f32⟩ : BufTy).Contents (Elt Ideal) :=
  Cert.Stages.embed (F := Ideal) (m ((c : Thread nD τ).loc main_arg0)) (m ((c : Thread nD τ).loc main_arg2)) (m ((c : Thread nD τ).loc main_arg3))

theorem W2_v2 : W2 (F := Ideal) m ρ c (Proc.devRef .tc main_v2) = H m c := by
  refine (W2_arr m ρ c 3).trans ?_
  refine (Cert.KernelIdeal.Region0.final (V1 m ρ) c (m ((c : Thread nD τ).loc main_arg3)) ?_).trans ?_
  · exact (ops0_v1 (W0 m ρ c)).trans (by rw [W0_eq])
  · show Cert.Stages.embed (F := Ideal) (W1 m ρ c (Proc.devRef .tc main_arg0)) (W1 m ρ c (Proc.devRef .tc main_arg2)) _ = _
    rw [W1_keep m ρ c main_arg0 (by decide), W1_keep m ρ c main_arg2 (by decide)]

theorem W2_v0 : W2 (F := Ideal) m ρ c (Proc.devRef .tc main_v0) = Cert.Stages.posOf (F := Ideal) (m ((c : Thread nD τ).loc main_arg0)) :=
  (W2_of_ne m ρ c main_v0 (by decide)).trans ((ops0_v0 (W0 m ρ c)).trans (by rw [W0_eq]))

/-! ## The stretch between regions 0 and 1, and region 1: the gated messages -/

/-- Each edge's start node, wrapped, as an index column; and its end node. -/
abbrev WST : (⟨Cert.ReferenceIdeal.S800000x1, .i32⟩ : BufTy).Contents (Elt Ideal) := Cert.Stages.wrapIdx (F := Ideal) (Cert.Stages.estOf (m ((c : Thread nD τ).loc main_arg1)))
abbrev WEND : (⟨Cert.ReferenceIdeal.S800000x1, .i32⟩ : BufTy).Contents (Elt Ideal) := Cert.Stages.wrapIdx (F := Ideal) (Cert.Stages.eendOf (m ((c : Thread nD τ).loc main_arg1)))

/-- The gated messages of the launch arrays. -/
abbrev G : (⟨Cert.ReferenceIdeal.S800000x128, .f32⟩ : BufTy).Contents (Elt Ideal) :=
  Cert.Stages.edgeOut (F := Ideal) (Cert.Stages.edgeM (F := Ideal) (Cert.Stages.gatherH (H m c) (WST m c)) (Cert.Stages.gatherH (H m c) (WEND m c))
    (Cert.Stages.dist (Cert.Stages.posOf (m ((c : Thread nD τ).loc main_arg0))) (WST m c) (WEND m c)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9))

theorem W2_arg (k : Ref sig .tc) (hb : k ∉ [main_v0, main_v1]) (hw : ∀ w, Pipeline.arrRef spec0 w ≠ k) :
    W2 (F := Ideal) m ρ c (Proc.devRef .tc k) = m ((c : Thread nD τ).loc k) := W2_keep m ρ c k hb hw

theorem W4_v47 : W4 (F := Ideal) m ρ c (Proc.devRef .tc main_v47) = G m c := by
  refine (W4_arr m ρ c 10).trans ?_
  refine (Cert.KernelIdeal.Region1.final (V3 m ρ) c (m ((c : Thread nD τ).loc main_arg4)) (m ((c : Thread nD τ).loc main_arg5)) (m ((c : Thread nD τ).loc main_arg6)) (m ((c : Thread nD τ).loc main_arg7)) (m ((c : Thread nD τ).loc main_arg9)) ?_ ?_ ?_ ?_ ?_ ?_).trans ?_
  · exact (ops1_v41 (W2 m ρ c)).trans (by rw [W2_keep m ρ c main_arg4 (by decide) (by decide)])
  · exact (ops1_v42 (W2 m ρ c)).trans (by rw [W2_keep m ρ c main_arg4 (by decide) (by decide)])
  · exact (ops1_v43 (W2 m ρ c)).trans (by rw [W2_keep m ρ c main_arg5 (by decide) (by decide)])
  · exact (ops1_v44 (W2 m ρ c)).trans (by rw [W2_keep m ρ c main_arg6 (by decide) (by decide)])
  · exact (ops1_v45 (W2 m ρ c)).trans (by rw [W2_keep m ρ c main_arg7 (by decide) (by decide)])
  · exact (ops1_v46 (W2 m ρ c)).trans (by rw [W2_keep m ρ c main_arg9 (by decide) (by decide)])
  · show Cert.Stages.edgeOut (F := Ideal) (Cert.Stages.edgeM (F := Ideal) (W3 m ρ c (Proc.devRef .tc main_v32)) (W3 m ρ c (Proc.devRef .tc main_v39)) (W3 m ρ c (Proc.devRef .tc main_v25)) _ _ _ _) (W3 m ρ c (Proc.devRef .tc main_arg8)) _ = _
    rw [show W3 (F := Ideal) m ρ c (Proc.devRef .tc main_v32) = Cert.Stages.gatherH (H m c) (WST m c) from
          (ops1_v32 (W2 m ρ c)).trans (by rw [W2_v2, W2_keep m ρ c main_arg1 (by decide) (by decide)]),
        show W3 (F := Ideal) m ρ c (Proc.devRef .tc main_v39) = Cert.Stages.gatherH (H m c) (WEND m c) from
          (ops1_v39 (W2 m ρ c)).trans (by rw [W2_v2, W2_keep m ρ c main_arg1 (by decide) (by decide)]),
        show W3 (F := Ideal) m ρ c (Proc.devRef .tc main_v25) = Cert.Stages.dist (Cert.Stages.posOf (m ((c : Thread nD τ).loc main_arg0))) (WST m c) (WEND m c) from
          (ops1_v25 (W2 m ρ c)).trans (by rw [W2_v0, W2_keep m ρ c main_arg1 (by decide) (by decide)]),
        W3_keep m ρ c main_arg8 (by decide) (by decide) (by decide)]

/-! ## The stretch between regions 1 and 2, and region 2: the output -/

theorem W4_v4 : W4 (F := Ideal) m ρ c (Proc.devRef .tc main_v4) = Cert.Stages.estOf (F := Ideal) (m ((c : Thread nD τ).loc main_arg1)) :=
  (W4_of_ne m ρ c main_v4 (by decide)).trans ((ops1_v4 (W2 m ρ c)).trans (by rw [W2_keep m ρ c main_arg1 (by decide) (by decide)]))

theorem W4_v2 : W4 (F := Ideal) m ρ c (Proc.devRef .tc main_v2) = H m c :=
  (W4_of_ne m ρ c main_v2 (by decide)).trans ((ops1_keep (W2 m ρ c) main_v2 (by decide)).trans (W2_v2 m ρ c))

/-- THE RESULT: the last boundary's contents of the result buffer are the whole computation of the launch arrays. -/
theorem result : W6 (F := Ideal) m ρ c (Proc.devRef .tc main_v56)
    = Cert.Stages.whole (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W6_arr m ρ c 10).trans ?_
  refine (Cert.KernelIdeal.Region2.final (V5 m ρ) c (m ((c : Thread nD τ).loc main_arg11)) (m ((c : Thread nD τ).loc main_arg13)) (m ((c : Thread nD τ).loc main_arg15)) (m ((c : Thread nD τ).loc main_arg17)) ?_ ?_ ?_ ?_).trans ?_
  · exact (ops2_v52 (W4 m ρ c)).trans (by rw [W4_keep m ρ c main_arg11 (by decide) (by decide) (by decide) (by decide)])
  · exact (ops2_v53 (W4 m ρ c)).trans (by rw [W4_keep m ρ c main_arg13 (by decide) (by decide) (by decide) (by decide)])
  · exact (ops2_v54 (W4 m ρ c)).trans (by rw [W4_keep m ρ c main_arg15 (by decide) (by decide) (by decide) (by decide)])
  · exact (ops2_v55 (W4 m ρ c)).trans (by rw [W4_keep m ρ c main_arg17 (by decide) (by decide) (by decide) (by decide)])
  · show Cert.Stages.node (F := Ideal) (W5 m ρ c (Proc.devRef .tc main_v2)) (W5 m ρ c (Proc.devRef .tc main_v51)) (W5 m ρ c (Proc.devRef .tc main_arg10)) _
        (W5 m ρ c (Proc.devRef .tc main_arg12)) _ (W5 m ρ c (Proc.devRef .tc main_arg14)) _ (W5 m ρ c (Proc.devRef .tc main_arg16)) _ = _
    rw [show W5 (F := Ideal) m ρ c (Proc.devRef .tc main_v2) = H m c from (ops2_keep (W4 m ρ c) main_v2 (by decide)).trans (W4_v2 m ρ c),
        show W5 (F := Ideal) m ρ c (Proc.devRef .tc main_v51) = Cert.Stages.scatterMi (F := Ideal) (Cert.Stages.estOf (m ((c : Thread nD τ).loc main_arg1))) (G m c) from
          (ops2_v51 (W4 m ρ c)).trans (by rw [W4_v4, W4_v47]),
        W5_keep m ρ c main_arg10 (by decide) (by decide) (by decide) (by decide) (by decide),
        W5_keep m ρ c main_arg12 (by decide) (by decide) (by decide) (by decide) (by decide),
        W5_keep m ρ c main_arg14 (by decide) (by decide) (by decide) (by decide) (by decide),
        W5_keep m ρ c main_arg16 (by decide) (by decide) (by decide) (by decide) (by decide)]
    rfl

end Cert.KernelIdeal.KernelValue

end
-- ==== Proof.RefRun.lean ====
/-
  The reference program's run, its result named by the shared stage functions: the program is a straight line of
  array operations; read in consecutive stretches, each stretch leaves one stage's value of what the stretches before
  it left, and the stretches composed are the whole computation of the eighteen argument arrays. No operation writes
  an argument, so every argument buffer ends as it started.
-/
import proofs.«125594_j55594056679488_2_alg».proof.Proof.Stages
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-! ## The operations, in consecutive stretches

The reference computation is a straight line of 124 array operations. It is cut here into eleven consecutive
stretches, each ending at a value the later stretches read: the node embedding with the two rows of the edge list;
the start positions; the edge lengths; the two gathered embedding rows; the two layers of the edge network; the
gate; the scatter-add; the first layer of the node network; the node update with the output head. -/

/-- Operations 1 … 9 of the line. -/
def s1 : List (HloOp τ sig (Elt F)) :=
  [ unary main_arg0 main_v0 ((extractStridedSlice S50000x2 ![0, 0] · slices_S50000x32_S50000x2_0_0) : (⟨S50000x32, .f32⟩ : BufTy).Contents (Elt F) → (⟨S50000x2, .f32⟩ : BufTy).Contents (Elt F)),
    binary main_arg0 main_arg2 main_v1 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S50000x128 ![0, 1] bcast_S1x128_S50000x128_0_1 : (⟨S1x128, .f32⟩ : BufTy).Contents (Elt F) → (⟨S50000x128, .f32⟩ : BufTy).Contents (Elt F)),
    binary main_v1 main_v3 main_v4 (addf : (⟨S50000x128, .f32⟩ : BufTy).Contents (Elt F) → (⟨S50000x128, .f32⟩ : BufTy).Contents (Elt F) → (⟨S50000x128, .f32⟩ : BufTy).Contents (Elt F)),
    unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    reshape main_v5 main_v6 rfl shapeCasts_S1x800000_S800000,
    unary main_arg1 main_v7 ((extractStridedSlice S1x800000 ![1, 0] · slices_S2x800000_S1x800000_1_0) : (⟨S2x800000, .i32⟩ : BufTy).Contents (Elt F) → (⟨S1x800000, .i32⟩ : BufTy).Contents (Elt F)),
    reshape main_v7 main_v8 rfl shapeCasts_S1x800000_S800000 ]

/-- The buffers operations 1 … 9 write, in order. -/
def wl1 : List (Ref sig .tc) :=
  [main_v0, main_v1, main_v2, main_v3, main_v4, main_v5, main_v6, main_v7, main_v8]

/-- Operations 10 … 18 of the line. -/
def s2 : List (HloOp τ sig (Elt F)) :=
  [ nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v6 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v11 (broadcastInDim S800000 ![] bcast_S_S800000 : (⟨S_, .i32⟩ : BufTy).Contents (Elt F) → (⟨S800000, .i32⟩ : BufTy).Contents (Elt F)),
    binary main_v6 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v6 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v0 main_v14 main_v15 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)) ]

/-- The buffers operations 10 … 18 write, in order. -/
def wl2 : List (Ref sig .tc) :=
  [main_c, main_v9, main_v10, main_c_0, main_v11, main_v12, main_v13, main_v14, main_v15]

/-- Operations 19 … 33 of the line. -/
def s3 : List (HloOp τ sig (Elt F)) :=
  [ nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_v8 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_v8 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v8 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v0 main_v21 main_v22 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    binary main_v15 main_v22 main_v23 (subf : (⟨S800000x2, .f32⟩ : BufTy).Contents (Elt F) → (⟨S800000x2, .f32⟩ : BufTy).Contents (Elt F) → (⟨S800000x2, .f32⟩ : BufTy).Contents (Elt F)),
    TRef.binary (TRef.of (T := ⟨S800000x2, .f32⟩) main_v23) (TRef.of (T := ⟨S800000x2, .f32⟩) main_v23) (TRef.of (T := ⟨S800000x2, .f32⟩) main_call0_v0) mulf,
    TRef.nullary (TRef.of (T := ⟨S_, .f32⟩) main_call0_cst) (constant S_ .f32 0x00000000#32),
    TRef.binary (TRef.of (T := ⟨S800000x2, .f32⟩) main_call0_v0) (TRef.of (T := ⟨S_, .f32⟩) main_call0_cst) (TRef.of (T := ⟨S800000, .f32⟩) main_call0_v1) (fun x v => Host.reduceAdd x v reducesTo_S800000x2_S800000_d1 h_S_),
    TRef.unary (TRef.of (T := ⟨S800000, .f32⟩) main_call0_v1) (TRef.of (T := ⟨S800000, .f32⟩) main_v24) Host.sqrt,
    unary main_v24 main_v25 (broadcastInDim S800000x1 ![0] bcast_S800000_S800000x1_0 : (⟨S800000, .f32⟩ : BufTy).Contents (Elt F) → (⟨S800000x1, .f32⟩ : BufTy).Contents (Elt F)) ]

/-- The buffers operations 19 … 33 write, in order. -/
def wl3 : List (Ref sig .tc) :=
  [main_c_1, main_v16, main_v17, main_c_2, main_v18, main_v19, main_v20, main_v21, main_v22, main_v23, main_call0_v0, main_call0_cst, main_call0_v1, main_v24, main_v25]

/-- Operations 34 … 42 of the line. -/
def s4 : List (HloOp τ sig (Elt F)) :=
  [ nullary main_c_3 (constantI S_ 32 0#32),
    unary main_c_3 main_v26 (broadcastInDim S800000 ![] bcast_S_S800000 : (⟨S_, .i32⟩ : BufTy).Contents (Elt F) → (⟨S800000, .i32⟩ : BufTy).Contents (Elt F)),
    binary main_v6 main_v26 main_v27 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v28 (broadcastInDim S800000 ![] bcast_S_S800000 : (⟨S_, .i32⟩ : BufTy).Contents (Elt F) → (⟨S800000, .i32⟩ : BufTy).Contents (Elt F)),
    binary main_v6 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v6 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_v4 main_v31 main_v32 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The buffers operations 34 … 42 write, in order. -/
def wl4 : List (Ref sig .tc) :=
  [main_c_3, main_v26, main_v27, main_c_4, main_v28, main_v29, main_v30, main_v31, main_v32]

/-- Operations 43 … 51 of the line. -/
def s5 : List (HloOp τ sig (Elt F)) :=
  [ nullary main_c_5 (constantI S_ 32 0#32),
    unary main_c_5 main_v33 (broadcastInDim S800000 ![] bcast_S_S800000 : (⟨S_, .i32⟩ : BufTy).Contents (Elt F) → (⟨S800000, .i32⟩ : BufTy).Contents (Elt F)),
    binary main_v8 main_v33 main_v34 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v35 (broadcastInDim S800000 ![] bcast_S_S800000 : (⟨S_, .i32⟩ : BufTy).Contents (Elt F) → (⟨S800000, .i32⟩ : BufTy).Contents (Elt F)),
    binary main_v8 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v8 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v4 main_v38 main_v39 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The buffers operations 43 … 51 write, in order. -/
def wl5 : List (Ref sig .tc) :=
  [main_c_5, main_v33, main_v34, main_c_6, main_v35, main_v36, main_v37, main_v38, main_v39]

/-- Operations 52 … 65 of the line. -/
def s6 : List (HloOp τ sig (Elt F)) :=
  [ nary ![main_v32, main_v39, main_v25] main_v40 (fun u => concatenate S800000x257 1 [⟨S800000x128, u 0⟩, ⟨S800000x128, u 1⟩, ⟨S800000x1, u 2⟩] concatenates_S800000x128_S800000x128_S800000x1_S800000x257_d1),
    binary main_v40 main_arg4 main_v41 ((fun l r => Host.dotGeneral dot_S800000x257_S257x128_S800000x128_1_0_0_1_n_n none l r) : (⟨S800000x257, .f32⟩ : BufTy).Contents (Elt F) → (⟨S257x128, .f32⟩ : BufTy).Contents (Elt F) → (⟨S800000x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)),
    unary main_v42 main_v43 (broadcastInDim S800000x128 ![0, 1] bcast_S1x128_S800000x128_0_1 : (⟨S1x128, .f32⟩ : BufTy).Contents (Elt F) → (⟨S800000x128, .f32⟩ : BufTy).Contents (Elt F)),
    binary main_v41 main_v43 main_v44 (addf : (⟨S800000x128, .f32⟩ : BufTy).Contents (Elt F) → (⟨S800000x128, .f32⟩ : BufTy).Contents (Elt F) → (⟨S800000x128, .f32⟩ : BufTy).Contents (Elt F)),
    TRef.unary (TRef.of (T := ⟨S800000x128, .f32⟩) main_v44) (TRef.of (T := ⟨S800000x128, .f32⟩) main_call1_v0) Host.negf,
    TRef.unary (TRef.of (T := ⟨S800000x128, .f32⟩) main_call1_v0) (TRef.of (T := ⟨S800000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S800000x128, .f32⟩) main_call1_v2) (broadcastInDim S800000x128 ![] bcast_S_S800000x128),
    TRef.binary (TRef.of (T := ⟨S800000x128, .f32⟩) main_call1_v2) (TRef.of (T := ⟨S800000x128, .f32⟩) main_call1_v1) (TRef.of (T := ⟨S800000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S800000x128, .f32⟩) main_call1_v4) (broadcastInDim S800000x128 ![] bcast_S_S800000x128),
    TRef.binary (TRef.of (T := ⟨S800000x128, .f32⟩) main_call1_v4) (TRef.of (T := ⟨S800000x128, .f32⟩) main_call1_v3) (TRef.of (T := ⟨S800000x128, .f32⟩) main_call1_v5) Host.divf,
    TRef.binary (TRef.of (T := ⟨S800000x128, .f32⟩) main_v44) (TRef.of (T := ⟨S800000x128, .f32⟩) main_call1_v5) (TRef.of (T := ⟨S800000x128, .f32⟩) main_v45) mulf ]

/-- The buffers operations 52 … 65 write, in order. -/
def wl6 : List (Ref sig .tc) :=
  [main_v40, main_v41, main_v42, main_v43, main_v44, main_call1_v0, main_call1_v1, main_call1_cst, main_call1_v2, main_call1_v3, main_call1_cst_0, main_call1_v4, main_call1_v5, main_v45]

/-- Operations 66 … 78 of the line. -/
def s7 : List (HloOp τ sig (Elt F)) :=
  [ binary main_v45 main_arg6 main_v46 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg7 main_v47 (broadcastInDim S1x128 ![1] bcast_S128_S1x128_1 : (⟨S128, .f32⟩ : BufTy).Contents (Elt F) → (⟨S1x128, .f32⟩ : BufTy).Contents (Elt F)),
    unary main_v47 main_v48 (broadcastInDim S800000x128 ![0, 1] bcast_S1x128_S800000x128_0_1 : (⟨S1x128, .f32⟩ : BufTy).Contents (Elt F) → (⟨S800000x128, .f32⟩ : BufTy).Contents (Elt F)),
    binary main_v46 main_v48 main_v49 (addf : (⟨S800000x128, .f32⟩ : BufTy).Contents (Elt F) → (⟨S800000x128, .f32⟩ : BufTy).Contents (Elt F) → (⟨S800000x128, .f32⟩ : BufTy).Contents (Elt F)),
    TRef.unary (TRef.of (T := ⟨S800000x128, .f32⟩) main_v49) (TRef.of (T := ⟨S800000x128, .f32⟩) main_call2_v0) Host.negf,
    TRef.unary (TRef.of (T := ⟨S800000x128, .f32⟩) main_call2_v0) (TRef.of (T := ⟨S800000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S800000x128, .f32⟩) main_call2_v2) (broadcastInDim S800000x128 ![] bcast_S_S800000x128),
    TRef.binary (TRef.of (T := ⟨S800000x128, .f32⟩) main_call2_v2) (TRef.of (T := ⟨S800000x128, .f32⟩) main_call2_v1) (TRef.of (T := ⟨S800000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S800000x128, .f32⟩) main_call2_v4) (broadcastInDim S800000x128 ![] bcast_S_S800000x128),
    TRef.binary (TRef.of (T := ⟨S800000x128, .f32⟩) main_call2_v4) (TRef.of (T := ⟨S800000x128, .f32⟩) main_call2_v3) (TRef.of (T := ⟨S800000x128, .f32⟩) main_call2_v5) Host.divf,
    TRef.binary (TRef.of (T := ⟨S800000x128, .f32⟩) main_v49) (TRef.of (T := ⟨S800000x128, .f32⟩) main_call2_v5) (TRef.of (T := ⟨S800000x128, .f32⟩) main_v50) mulf ]

/-- The buffers operations 66 … 78 write, in order. -/
def wl7 : List (Ref sig .tc) :=
  [main_v46, main_v47, main_v48, main_v49, main_call2_v0, main_call2_v1, main_call2_cst, main_call2_v2, main_call2_v3, main_call2_cst_0, main_call2_v4, main_call2_v5, main_v50]

/-- Operations 79 … 92 of the line. -/
def s8 : List (HloOp τ sig (Elt F)) :=
  [ binary main_v50 main_arg8 main_v51 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    unary main_arg9 main_v52 (broadcastInDim S1x1 ![1] bcast_S1_S1x1_1 : (⟨S1, .f32⟩ : BufTy).Contents (Elt F) → (⟨S1x1, .f32⟩ : BufTy).Contents (Elt F)),
    unary main_v52 main_v53 (broadcastInDim S800000x1 ![0, 1] bcast_S1x1_S800000x1_0_1 : (⟨S1x1, .f32⟩ : BufTy).Contents (Elt F) → (⟨S800000x1, .f32⟩ : BufTy).Contents (Elt F)),
    binary main_v51 main_v53 main_v54 (addf : (⟨S800000x1, .f32⟩ : BufTy).Contents (Elt F) → (⟨S800000x1, .f32⟩ : BufTy).Contents (Elt F) → (⟨S800000x1, .f32⟩ : BufTy).Contents (Elt F)),
    unary main_v54 main_v55 (Host.negf : (⟨S800000x1, .f32⟩ : BufTy).Contents (Elt F) → (⟨S800000x1, .f32⟩ : BufTy).Contents (Elt F)),
    unary main_v55 main_v56 (Host.exp : (⟨S800000x1, .f32⟩ : BufTy).Contents (Elt F) → (⟨S800000x1, .f32⟩ : BufTy).Contents (Elt F)),
    nullary main_cst (constant S_ .f32 0x3F800000#32),
    unary main_cst main_v57 (broadcastInDim S800000x1 ![] bcast_S_S800000x1 : (⟨S_, .f32⟩ : BufTy).Contents (Elt F) → (⟨S800000x1, .f32⟩ : BufTy).Contents (Elt F)),
    binary main_v57 main_v56 main_v58 (addf : (⟨S800000x1, .f32⟩ : BufTy).Contents (Elt F) → (⟨S800000x1, .f32⟩ : BufTy).Contents (Elt F) → (⟨S800000x1, .f32⟩ : BufTy).Contents (Elt F)),
    nullary main_cst_7 (constant S_ .f32 0x3F800000#32),
    unary main_cst_7 main_v59 (broadcastInDim S800000x1 ![] bcast_S_S800000x1 : (⟨S_, .f32⟩ : BufTy).Contents (Elt F) → (⟨S800000x1, .f32⟩ : BufTy).Contents (Elt F)),
    binary main_v59 main_v58 main_v60 (Host.divf : (⟨S800000x1, .f32⟩ : BufTy).Contents (Elt F) → (⟨S800000x1, .f32⟩ : BufTy).Contents (Elt F) → (⟨S800000x1, .f32⟩ : BufTy).Contents (Elt F)),
    unary main_v60 main_v61 (broadcastInDim S800000x128 ![0, 1] bcast_S800000x1_S800000x128_0_1 : (⟨S800000x1, .f32⟩ : BufTy).Contents (Elt F) → (⟨S800000x128, .f32⟩ : BufTy).Contents (Elt F)),
    binary main_v61 main_v50 main_v62 (mulf : (⟨S800000x128, .f32⟩ : BufTy).Contents (Elt F) → (⟨S800000x128, .f32⟩ : BufTy).Contents (Elt F) → (⟨S800000x128, .f32⟩ : BufTy).Contents (Elt F)) ]

/-- The buffers operations 79 … 92 write, in order. -/
def wl8 : List (Ref sig .tc) :=
  [main_v51, main_v52, main_v53, main_v54, main_v55, main_v56, main_cst, main_v57, main_v58, main_cst_7, main_v59, main_v60, main_v61, main_v62]

/-- Operations 93 … 96 of the line. -/
def s9 : List (HloOp τ sig (Elt F)) :=
  [ nullary main_cst_8 (constant S_ .f32 0x00000000#32),
    unary main_cst_8 main_v63 (broadcastInDim S50000x128 ![] bcast_S_S50000x128 : (⟨S_, .f32⟩ : BufTy).Contents (Elt F) → (⟨S50000x128, .f32⟩ : BufTy).Contents (Elt F)),
    unary main_v6 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The buffers operations 93 … 96 write, in order. -/
def wl9 : List (Ref sig .tc) :=
  [main_cst_8, main_v63, main_v64, main_v65]

/-- Operations 97 … 110 of the line. -/
def s10 : List (HloOp τ sig (Elt F)) :=
  [ binary main_v4 main_v65 main_v66 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v66 main_arg10 main_v67 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (addf : (⟨S50000x128, .f32⟩ : BufTy).Contents (Elt F) → (⟨S50000x128, .f32⟩ : BufTy).Contents (Elt F) → (⟨S50000x128, .f32⟩ : BufTy).Contents (Elt F)),
    TRef.unary (TRef.of (T := ⟨S50000x128, .f32⟩) main_v70) (TRef.of (T := ⟨S50000x128, .f32⟩) main_call3_v0) Host.negf,
    TRef.unary (TRef.of (T := ⟨S50000x128, .f32⟩) main_call3_v0) (TRef.of (T := ⟨S50000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S50000x128, .f32⟩) main_call3_v2) (broadcastInDim S50000x128 ![] bcast_S_S50000x128),
    TRef.binary (TRef.of (T := ⟨S50000x128, .f32⟩) main_call3_v2) (TRef.of (T := ⟨S50000x128, .f32⟩) main_call3_v1) (TRef.of (T := ⟨S50000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S50000x128, .f32⟩) main_call3_v4) (broadcastInDim S50000x128 ![] bcast_S_S50000x128),
    TRef.binary (TRef.of (T := ⟨S50000x128, .f32⟩) main_call3_v4) (TRef.of (T := ⟨S50000x128, .f32⟩) main_call3_v3) (TRef.of (T := ⟨S50000x128, .f32⟩) main_call3_v5) Host.divf,
    TRef.binary (TRef.of (T := ⟨S50000x128, .f32⟩) main_v70) (TRef.of (T := ⟨S50000x128, .f32⟩) main_call3_v5) (TRef.of (T := ⟨S50000x128, .f32⟩) main_v71) mulf ]

/-- The buffers operations 97 … 110 write, in order. -/
def wl10 : List (Ref sig .tc) :=
  [main_v66, main_v67, main_v68, main_v69, main_v70, main_call3_v0, main_call3_v1, main_call3_cst, main_call3_v2, main_call3_v3, main_call3_cst_0, main_call3_v4, main_call3_v5, main_v71]

/-- Operations 111 … 124 of the line. -/
def s11 : List (HloOp τ sig (Elt F)) :=
  [ binary main_v71 main_arg12 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg13 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v72 main_v74 main_v75 (addf : (⟨S50000x128, .f32⟩ : BufTy).Contents (Elt F) → (⟨S50000x128, .f32⟩ : BufTy).Contents (Elt F) → (⟨S50000x128, .f32⟩ : BufTy).Contents (Elt F)),
    binary main_v4 main_v75 main_v76 (addf : (⟨S50000x128, .f32⟩ : BufTy).Contents (Elt F) → (⟨S50000x128, .f32⟩ : BufTy).Contents (Elt F) → (⟨S50000x128, .f32⟩ : BufTy).Contents (Elt F)),
    binary main_v76 main_arg14 main_v77 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg15 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v77 main_v79 main_v80 (addf : (⟨S50000x128, .f32⟩ : BufTy).Contents (Elt F) → (⟨S50000x128, .f32⟩ : BufTy).Contents (Elt F) → (⟨S50000x128, .f32⟩ : BufTy).Contents (Elt F)),
    unary main_v80 main_v81 (Host.tanh : (⟨S50000x128, .f32⟩ : BufTy).Contents (Elt F) → (⟨S50000x128, .f32⟩ : BufTy).Contents (Elt F)),
    binary main_v81 main_arg16 main_v82 ((fun l r => Host.dotGeneral dot_S50000x128_S128x3_S50000x3_1_0_0_1_n_n none l r) : (⟨S50000x128, .f32⟩ : BufTy).Contents (Elt F) → (⟨S128x3, .f32⟩ : BufTy).Contents (Elt F) → (⟨S50000x3, .f32⟩ : BufTy).Contents (Elt F)),
    unary main_arg17 main_v83 (broadcastInDim S1x3 ![1] bcast_S3_S1x3_1 : (⟨S3, .f32⟩ : BufTy).Contents (Elt F) → (⟨S1x3, .f32⟩ : BufTy).Contents (Elt F)),
    unary main_v83 main_v84 (broadcastInDim S50000x3 ![0, 1] bcast_S1x3_S50000x3_0_1 : (⟨S1x3, .f32⟩ : BufTy).Contents (Elt F) → (⟨S50000x3, .f32⟩ : BufTy).Contents (Elt F)),
    binary main_v82 main_v84 main_v85 (addf : (⟨S50000x3, .f32⟩ : BufTy).Contents (Elt F) → (⟨S50000x3, .f32⟩ : BufTy).Contents (Elt F) → (⟨S50000x3, .f32⟩ : BufTy).Contents (Elt F)) ]

/-- The buffers operations 111 … 124 write, in order. -/
def wl11 : List (Ref sig .tc) :=
  [main_v72, main_v73, main_v74, main_v75, main_v76, main_v77, main_v78, main_v79, main_v80, main_v81, main_v82, main_v83, main_v84, main_v85]

/-- The whole line: the 124 operations in order. -/
abbrev ops : List (HloOp τ sig (Elt F)) :=
  [ unary main_arg0 main_v0 ((extractStridedSlice S50000x2 ![0, 0] · slices_S50000x32_S50000x2_0_0) : (⟨S50000x32, .f32⟩ : BufTy).Contents (Elt F) → (⟨S50000x2, .f32⟩ : BufTy).Contents (Elt F)),
    binary main_arg0 main_arg2 main_v1 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S50000x128 ![0, 1] bcast_S1x128_S50000x128_0_1 : (⟨S1x128, .f32⟩ : BufTy).Contents (Elt F) → (⟨S50000x128, .f32⟩ : BufTy).Contents (Elt F)),
    binary main_v1 main_v3 main_v4 (addf : (⟨S50000x128, .f32⟩ : BufTy).Contents (Elt F) → (⟨S50000x128, .f32⟩ : BufTy).Contents (Elt F) → (⟨S50000x128, .f32⟩ : BufTy).Contents (Elt F)),
    unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    reshape main_v5 main_v6 rfl shapeCasts_S1x800000_S800000,
    unary main_arg1 main_v7 ((extractStridedSlice S1x800000 ![1, 0] · slices_S2x800000_S1x800000_1_0) : (⟨S2x800000, .i32⟩ : BufTy).Contents (Elt F) → (⟨S1x800000, .i32⟩ : BufTy).Contents (Elt F)),
    reshape main_v7 main_v8 rfl shapeCasts_S1x800000_S800000,
    nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v6 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v11 (broadcastInDim S800000 ![] bcast_S_S800000 : (⟨S_, .i32⟩ : BufTy).Contents (Elt F) → (⟨S800000, .i32⟩ : BufTy).Contents (Elt F)),
    binary main_v6 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v6 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v0 main_v14 main_v15 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_v8 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_v8 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v8 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v0 main_v21 main_v22 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    binary main_v15 main_v22 main_v23 (subf : (⟨S800000x2, .f32⟩ : BufTy).Contents (Elt F) → (⟨S800000x2, .f32⟩ : BufTy).Contents (Elt F) → (⟨S800000x2, .f32⟩ : BufTy).Contents (Elt F)),
    TRef.binary (TRef.of (T := ⟨S800000x2, .f32⟩) main_v23) (TRef.of (T := ⟨S800000x2, .f32⟩) main_v23) (TRef.of (T := ⟨S800000x2, .f32⟩) main_call0_v0) mulf,
    TRef.nullary (TRef.of (T := ⟨S_, .f32⟩) main_call0_cst) (constant S_ .f32 0x00000000#32),
    TRef.binary (TRef.of (T := ⟨S800000x2, .f32⟩) main_call0_v0) (TRef.of (T := ⟨S_, .f32⟩) main_call0_cst) (TRef.of (T := ⟨S800000, .f32⟩) main_call0_v1) (fun x v => Host.reduceAdd x v reducesTo_S800000x2_S800000_d1 h_S_),
    TRef.unary (TRef.of (T := ⟨S800000, .f32⟩) main_call0_v1) (TRef.of (T := ⟨S800000, .f32⟩) main_v24) Host.sqrt,
    unary main_v24 main_v25 (broadcastInDim S800000x1 ![0] bcast_S800000_S800000x1_0 : (⟨S800000, .f32⟩ : BufTy).Contents (Elt F) → (⟨S800000x1, .f32⟩ : BufTy).Contents (Elt F)),
    nullary main_c_3 (constantI S_ 32 0#32),
    unary main_c_3 main_v26 (broadcastInDim S800000 ![] bcast_S_S800000 : (⟨S_, .i32⟩ : BufTy).Contents (Elt F) → (⟨S800000, .i32⟩ : BufTy).Contents (Elt F)),
    binary main_v6 main_v26 main_v27 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v28 (broadcastInDim S800000 ![] bcast_S_S800000 : (⟨S_, .i32⟩ : BufTy).Contents (Elt F) → (⟨S800000, .i32⟩ : BufTy).Contents (Elt F)),
    binary main_v6 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v6 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_v4 main_v31 main_v32 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_5 (constantI S_ 32 0#32),
    unary main_c_5 main_v33 (broadcastInDim S800000 ![] bcast_S_S800000 : (⟨S_, .i32⟩ : BufTy).Contents (Elt F) → (⟨S800000, .i32⟩ : BufTy).Contents (Elt F)),
    binary main_v8 main_v33 main_v34 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v35 (broadcastInDim S800000 ![] bcast_S_S800000 : (⟨S_, .i32⟩ : BufTy).Contents (Elt F) → (⟨S800000, .i32⟩ : BufTy).Contents (Elt F)),
    binary main_v8 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v8 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v4 main_v38 main_v39 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nary ![main_v32, main_v39, main_v25] main_v40 (fun u => concatenate S800000x257 1 [⟨S800000x128, u 0⟩, ⟨S800000x128, u 1⟩, ⟨S800000x1, u 2⟩] concatenates_S800000x128_S800000x128_S800000x1_S800000x257_d1),
    binary main_v40 main_arg4 main_v41 ((fun l r => Host.dotGeneral dot_S800000x257_S257x128_S800000x128_1_0_0_1_n_n none l r) : (⟨S800000x257, .f32⟩ : BufTy).Contents (Elt F) → (⟨S257x128, .f32⟩ : BufTy).Contents (Elt F) → (⟨S800000x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)),
    unary main_v42 main_v43 (broadcastInDim S800000x128 ![0, 1] bcast_S1x128_S800000x128_0_1 : (⟨S1x128, .f32⟩ : BufTy).Contents (Elt F) → (⟨S800000x128, .f32⟩ : BufTy).Contents (Elt F)),
    binary main_v41 main_v43 main_v44 (addf : (⟨S800000x128, .f32⟩ : BufTy).Contents (Elt F) → (⟨S800000x128, .f32⟩ : BufTy).Contents (Elt F) → (⟨S800000x128, .f32⟩ : BufTy).Contents (Elt F)),
    TRef.unary (TRef.of (T := ⟨S800000x128, .f32⟩) main_v44) (TRef.of (T := ⟨S800000x128, .f32⟩) main_call1_v0) Host.negf,
    TRef.unary (TRef.of (T := ⟨S800000x128, .f32⟩) main_call1_v0) (TRef.of (T := ⟨S800000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S800000x128, .f32⟩) main_call1_v2) (broadcastInDim S800000x128 ![] bcast_S_S800000x128),
    TRef.binary (TRef.of (T := ⟨S800000x128, .f32⟩) main_call1_v2) (TRef.of (T := ⟨S800000x128, .f32⟩) main_call1_v1) (TRef.of (T := ⟨S800000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S800000x128, .f32⟩) main_call1_v4) (broadcastInDim S800000x128 ![] bcast_S_S800000x128),
    TRef.binary (TRef.of (T := ⟨S800000x128, .f32⟩) main_call1_v4) (TRef.of (T := ⟨S800000x128, .f32⟩) main_call1_v3) (TRef.of (T := ⟨S800000x128, .f32⟩) main_call1_v5) Host.divf,
    TRef.binary (TRef.of (T := ⟨S800000x128, .f32⟩) main_v44) (TRef.of (T := ⟨S800000x128, .f32⟩) main_call1_v5) (TRef.of (T := ⟨S800000x128, .f32⟩) main_v45) mulf,
    binary main_v45 main_arg6 main_v46 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg7 main_v47 (broadcastInDim S1x128 ![1] bcast_S128_S1x128_1 : (⟨S128, .f32⟩ : BufTy).Contents (Elt F) → (⟨S1x128, .f32⟩ : BufTy).Contents (Elt F)),
    unary main_v47 main_v48 (broadcastInDim S800000x128 ![0, 1] bcast_S1x128_S800000x128_0_1 : (⟨S1x128, .f32⟩ : BufTy).Contents (Elt F) → (⟨S800000x128, .f32⟩ : BufTy).Contents (Elt F)),
    binary main_v46 main_v48 main_v49 (addf : (⟨S800000x128, .f32⟩ : BufTy).Contents (Elt F) → (⟨S800000x128, .f32⟩ : BufTy).Contents (Elt F) → (⟨S800000x128, .f32⟩ : BufTy).Contents (Elt F)),
    TRef.unary (TRef.of (T := ⟨S800000x128, .f32⟩) main_v49) (TRef.of (T := ⟨S800000x128, .f32⟩) main_call2_v0) Host.negf,
    TRef.unary (TRef.of (T := ⟨S800000x128, .f32⟩) main_call2_v0) (TRef.of (T := ⟨S800000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S800000x128, .f32⟩) main_call2_v2) (broadcastInDim S800000x128 ![] bcast_S_S800000x128),
    TRef.binary (TRef.of (T := ⟨S800000x128, .f32⟩) main_call2_v2) (TRef.of (T := ⟨S800000x128, .f32⟩) main_call2_v1) (TRef.of (T := ⟨S800000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S800000x128, .f32⟩) main_call2_v4) (broadcastInDim S800000x128 ![] bcast_S_S800000x128),
    TRef.binary (TRef.of (T := ⟨S800000x128, .f32⟩) main_call2_v4) (TRef.of (T := ⟨S800000x128, .f32⟩) main_call2_v3) (TRef.of (T := ⟨S800000x128, .f32⟩) main_call2_v5) Host.divf,
    TRef.binary (TRef.of (T := ⟨S800000x128, .f32⟩) main_v49) (TRef.of (T := ⟨S800000x128, .f32⟩) main_call2_v5) (TRef.of (T := ⟨S800000x128, .f32⟩) main_v50) mulf,
    binary main_v50 main_arg8 main_v51 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    unary main_arg9 main_v52 (broadcastInDim S1x1 ![1] bcast_S1_S1x1_1 : (⟨S1, .f32⟩ : BufTy).Contents (Elt F) → (⟨S1x1, .f32⟩ : BufTy).Contents (Elt F)),
    unary main_v52 main_v53 (broadcastInDim S800000x1 ![0, 1] bcast_S1x1_S800000x1_0_1 : (⟨S1x1, .f32⟩ : BufTy).Contents (Elt F) → (⟨S800000x1, .f32⟩ : BufTy).Contents (Elt F)),
    binary main_v51 main_v53 main_v54 (addf : (⟨S800000x1, .f32⟩ : BufTy).Contents (Elt F) → (⟨S800000x1, .f32⟩ : BufTy).Contents (Elt F) → (⟨S800000x1, .f32⟩ : BufTy).Contents (Elt F)),
    unary main_v54 main_v55 (Host.negf : (⟨S800000x1, .f32⟩ : BufTy).Contents (Elt F) → (⟨S800000x1, .f32⟩ : BufTy).Contents (Elt F)),
    unary main_v55 main_v56 (Host.exp : (⟨S800000x1, .f32⟩ : BufTy).Contents (Elt F) → (⟨S800000x1, .f32⟩ : BufTy).Contents (Elt F)),
    nullary main_cst (constant S_ .f32 0x3F800000#32),
    unary main_cst main_v57 (broadcastInDim S800000x1 ![] bcast_S_S800000x1 : (⟨S_, .f32⟩ : BufTy).Contents (Elt F) → (⟨S800000x1, .f32⟩ : BufTy).Contents (Elt F)),
    binary main_v57 main_v56 main_v58 (addf : (⟨S800000x1, .f32⟩ : BufTy).Contents (Elt F) → (⟨S800000x1, .f32⟩ : BufTy).Contents (Elt F) → (⟨S800000x1, .f32⟩ : BufTy).Contents (Elt F)),
    nullary main_cst_7 (constant S_ .f32 0x3F800000#32),
    unary main_cst_7 main_v59 (broadcastInDim S800000x1 ![] bcast_S_S800000x1 : (⟨S_, .f32⟩ : BufTy).Contents (Elt F) → (⟨S800000x1, .f32⟩ : BufTy).Contents (Elt F)),
    binary main_v59 main_v58 main_v60 (Host.divf : (⟨S800000x1, .f32⟩ : BufTy).Contents (Elt F) → (⟨S800000x1, .f32⟩ : BufTy).Contents (Elt F) → (⟨S800000x1, .f32⟩ : BufTy).Contents (Elt F)),
    unary main_v60 main_v61 (broadcastInDim S800000x128 ![0, 1] bcast_S800000x1_S800000x128_0_1 : (⟨S800000x1, .f32⟩ : BufTy).Contents (Elt F) → (⟨S800000x128, .f32⟩ : BufTy).Contents (Elt F)),
    binary main_v61 main_v50 main_v62 (mulf : (⟨S800000x128, .f32⟩ : BufTy).Contents (Elt F) → (⟨S800000x128, .f32⟩ : BufTy).Contents (Elt F) → (⟨S800000x128, .f32⟩ : BufTy).Contents (Elt F)),
    nullary main_cst_8 (constant S_ .f32 0x00000000#32),
    unary main_cst_8 main_v63 (broadcastInDim S50000x128 ![] bcast_S_S50000x128 : (⟨S_, .f32⟩ : BufTy).Contents (Elt F) → (⟨S50000x128, .f32⟩ : BufTy).Contents (Elt F)),
    unary main_v6 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v4 main_v65 main_v66 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v66 main_arg10 main_v67 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (addf : (⟨S50000x128, .f32⟩ : BufTy).Contents (Elt F) → (⟨S50000x128, .f32⟩ : BufTy).Contents (Elt F) → (⟨S50000x128, .f32⟩ : BufTy).Contents (Elt F)),
    TRef.unary (TRef.of (T := ⟨S50000x128, .f32⟩) main_v70) (TRef.of (T := ⟨S50000x128, .f32⟩) main_call3_v0) Host.negf,
    TRef.unary (TRef.of (T := ⟨S50000x128, .f32⟩) main_call3_v0) (TRef.of (T := ⟨S50000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S50000x128, .f32⟩) main_call3_v2) (broadcastInDim S50000x128 ![] bcast_S_S50000x128),
    TRef.binary (TRef.of (T := ⟨S50000x128, .f32⟩) main_call3_v2) (TRef.of (T := ⟨S50000x128, .f32⟩) main_call3_v1) (TRef.of (T := ⟨S50000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S50000x128, .f32⟩) main_call3_v4) (broadcastInDim S50000x128 ![] bcast_S_S50000x128),
    TRef.binary (TRef.of (T := ⟨S50000x128, .f32⟩) main_call3_v4) (TRef.of (T := ⟨S50000x128, .f32⟩) main_call3_v3) (TRef.of (T := ⟨S50000x128, .f32⟩) main_call3_v5) Host.divf,
    TRef.binary (TRef.of (T := ⟨S50000x128, .f32⟩) main_v70) (TRef.of (T := ⟨S50000x128, .f32⟩) main_call3_v5) (TRef.of (T := ⟨S50000x128, .f32⟩) main_v71) mulf,
    binary main_v71 main_arg12 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg13 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v72 main_v74 main_v75 (addf : (⟨S50000x128, .f32⟩ : BufTy).Contents (Elt F) → (⟨S50000x128, .f32⟩ : BufTy).Contents (Elt F) → (⟨S50000x128, .f32⟩ : BufTy).Contents (Elt F)),
    binary main_v4 main_v75 main_v76 (addf : (⟨S50000x128, .f32⟩ : BufTy).Contents (Elt F) → (⟨S50000x128, .f32⟩ : BufTy).Contents (Elt F) → (⟨S50000x128, .f32⟩ : BufTy).Contents (Elt F)),
    binary main_v76 main_arg14 main_v77 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg15 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v77 main_v79 main_v80 (addf : (⟨S50000x128, .f32⟩ : BufTy).Contents (Elt F) → (⟨S50000x128, .f32⟩ : BufTy).Contents (Elt F) → (⟨S50000x128, .f32⟩ : BufTy).Contents (Elt F)),
    unary main_v80 main_v81 (Host.tanh : (⟨S50000x128, .f32⟩ : BufTy).Contents (Elt F) → (⟨S50000x128, .f32⟩ : BufTy).Contents (Elt F)),
    binary main_v81 main_arg16 main_v82 ((fun l r => Host.dotGeneral dot_S50000x128_S128x3_S50000x3_1_0_0_1_n_n none l r) : (⟨S50000x128, .f32⟩ : BufTy).Contents (Elt F) → (⟨S128x3, .f32⟩ : BufTy).Contents (Elt F) → (⟨S50000x3, .f32⟩ : BufTy).Contents (Elt F)),
    unary main_arg17 main_v83 (broadcastInDim S1x3 ![1] bcast_S3_S1x3_1 : (⟨S3, .f32⟩ : BufTy).Contents (Elt F) → (⟨S1x3, .f32⟩ : BufTy).Contents (Elt F)),
    unary main_v83 main_v84 (broadcastInDim S50000x3 ![0, 1] bcast_S1x3_S50000x3_0_1 : (⟨S1x3, .f32⟩ : BufTy).Contents (Elt F) → (⟨S50000x3, .f32⟩ : BufTy).Contents (Elt F)),
    binary main_v82 main_v84 main_v85 (addf : (⟨S50000x3, .f32⟩ : BufTy).Contents (Elt F) → (⟨S50000x3, .f32⟩ : BufTy).Contents (Elt F) → (⟨S50000x3, .f32⟩ : BufTy).Contents (Elt F)) ]

/-- The line is its stretches one after the other. -/
theorem ops_split : (ops : List (HloOp τ sig (Elt F))) = s1 ++ s2 ++ s3 ++ s4 ++ s5 ++ s6 ++ s7 ++ s8 ++ s9 ++ s10 ++ s11 := rfl

set_option maxRecDepth 8192 in
set_option maxHeartbeats 4000000 in
/-- The program is that line: its statements, the called functions' bodies in their calls' places, are the operations in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches buffers of the one core only. -/
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub ..⟩

/-- A single written buffer lies in the set of a list of buffers that names it. -/
theorem single_sub {wl : List (Ref sig .tc)} {y : Ref sig .tc} (h : y ∈ wl) :
    ({Proc.devRef (τ := τ) .tc y} : Finset (DevRef τ sig)) ⊆ (wl.map (Proc.devRef (τ := τ) .tc)).toFinset :=
  Finset.singleton_subset_iff.2 (List.mem_toFinset.2 (List.mem_map_of_mem h))

/-- Each operation of stretch 1 writes one of the listed buffers. -/
theorem hW1 : (s1 : List (HloOp τ sig (Elt F))).Forall fun op => op.writes ⊆ ((wl1).map (Proc.devRef (τ := τ) .tc)).toFinset :=
  ⟨single_sub (y := main_v0) (by decide), single_sub (y := main_v1) (by decide), single_sub (y := main_v2) (by decide), single_sub (y := main_v3) (by decide), single_sub (y := main_v4) (by decide), single_sub (y := main_v5) (by decide), single_sub (y := main_v6) (by decide), single_sub (y := main_v7) (by decide), single_sub (y := main_v8) (by decide)⟩

/-- A buffer stretch 1 does not write keeps its contents. -/
theorem keep1 (W : Valuation τ sig (Elt F)) {r : Ref sig .tc} (hr : r ∉ wl1) :
    after s1 W (no_index (Proc.devRef .tc r)) = W (Proc.devRef .tc r) :=
  after_of_writes_sub s1 W hW1 hr

/-- Each operation of stretch 2 writes one of the listed buffers. -/
theorem hW2 : (s2 : List (HloOp τ sig (Elt F))).Forall fun op => op.writes ⊆ ((wl2).map (Proc.devRef (τ := τ) .tc)).toFinset :=
  ⟨single_sub (y := main_c) (by decide), single_sub (y := main_v9) (by decide), single_sub (y := main_v10) (by decide), single_sub (y := main_c_0) (by decide), single_sub (y := main_v11) (by decide), single_sub (y := main_v12) (by decide), single_sub (y := main_v13) (by decide), single_sub (y := main_v14) (by decide), single_sub (y := main_v15) (by decide)⟩

/-- A buffer stretch 2 does not write keeps its contents. -/
theorem keep2 (W : Valuation τ sig (Elt F)) {r : Ref sig .tc} (hr : r ∉ wl2) :
    after s2 W (no_index (Proc.devRef .tc r)) = W (Proc.devRef .tc r) :=
  after_of_writes_sub s2 W hW2 hr

/-- Each operation of stretch 3 writes one of the listed buffers. -/
theorem hW3 : (s3 : List (HloOp τ sig (Elt F))).Forall fun op => op.writes ⊆ ((wl3).map (Proc.devRef (τ := τ) .tc)).toFinset :=
  ⟨single_sub (y := main_c_1) (by decide), single_sub (y := main_v16) (by decide), single_sub (y := main_v17) (by decide), single_sub (y := main_c_2) (by decide), single_sub (y := main_v18) (by decide), single_sub (y := main_v19) (by decide), single_sub (y := main_v20) (by decide), single_sub (y := main_v21) (by decide), single_sub (y := main_v22) (by decide), single_sub (y := main_v23) (by decide), single_sub (y := main_call0_v0) (by decide), single_sub (y := main_call0_cst) (by decide), single_sub (y := main_call0_v1) (by decide), single_sub (y := main_v24) (by decide), single_sub (y := main_v25) (by decide)⟩

/-- A buffer stretch 3 does not write keeps its contents. -/
theorem keep3 (W : Valuation τ sig (Elt F)) {r : Ref sig .tc} (hr : r ∉ wl3) :
    after s3 W (no_index (Proc.devRef .tc r)) = W (Proc.devRef .tc r) :=
  after_of_writes_sub s3 W hW3 hr

/-- Each operation of stretch 4 writes one of the listed buffers. -/
theorem hW4 : (s4 : List (HloOp τ sig (Elt F))).Forall fun op => op.writes ⊆ ((wl4).map (Proc.devRef (τ := τ) .tc)).toFinset :=
  ⟨single_sub (y := main_c_3) (by decide), single_sub (y := main_v26) (by decide), single_sub (y := main_v27) (by decide), single_sub (y := main_c_4) (by decide), single_sub (y := main_v28) (by decide), single_sub (y := main_v29) (by decide), single_sub (y := main_v30) (by decide), single_sub (y := main_v31) (by decide), single_sub (y := main_v32) (by decide)⟩

/-- A buffer stretch 4 does not write keeps its contents. -/
theorem keep4 (W : Valuation τ sig (Elt F)) {r : Ref sig .tc} (hr : r ∉ wl4) :
    after s4 W (no_index (Proc.devRef .tc r)) = W (Proc.devRef .tc r) :=
  after_of_writes_sub s4 W hW4 hr

/-- Each operation of stretch 5 writes one of the listed buffers. -/
theorem hW5 : (s5 : List (HloOp τ sig (Elt F))).Forall fun op => op.writes ⊆ ((wl5).map (Proc.devRef (τ := τ) .tc)).toFinset :=
  ⟨single_sub (y := main_c_5) (by decide), single_sub (y := main_v33) (by decide), single_sub (y := main_v34) (by decide), single_sub (y := main_c_6) (by decide), single_sub (y := main_v35) (by decide), single_sub (y := main_v36) (by decide), single_sub (y := main_v37) (by decide), single_sub (y := main_v38) (by decide), single_sub (y := main_v39) (by decide)⟩

/-- A buffer stretch 5 does not write keeps its contents. -/
theorem keep5 (W : Valuation τ sig (Elt F)) {r : Ref sig .tc} (hr : r ∉ wl5) :
    after s5 W (no_index (Proc.devRef .tc r)) = W (Proc.devRef .tc r) :=
  after_of_writes_sub s5 W hW5 hr

/-- Each operation of stretch 6 writes one of the listed buffers. -/
theorem hW6 : (s6 : List (HloOp τ sig (Elt F))).Forall fun op => op.writes ⊆ ((wl6).map (Proc.devRef (τ := τ) .tc)).toFinset :=
  ⟨single_sub (y := main_v40) (by decide), single_sub (y := main_v41) (by decide), single_sub (y := main_v42) (by decide), single_sub (y := main_v43) (by decide), single_sub (y := main_v44) (by decide), single_sub (y := main_call1_v0) (by decide), single_sub (y := main_call1_v1) (by decide), single_sub (y := main_call1_cst) (by decide), single_sub (y := main_call1_v2) (by decide), single_sub (y := main_call1_v3) (by decide), single_sub (y := main_call1_cst_0) (by decide), single_sub (y := main_call1_v4) (by decide), single_sub (y := main_call1_v5) (by decide), single_sub (y := main_v45) (by decide)⟩

/-- A buffer stretch 6 does not write keeps its contents. -/
theorem keep6 (W : Valuation τ sig (Elt F)) {r : Ref sig .tc} (hr : r ∉ wl6) :
    after s6 W (no_index (Proc.devRef .tc r)) = W (Proc.devRef .tc r) :=
  after_of_writes_sub s6 W hW6 hr

/-- Each operation of stretch 7 writes one of the listed buffers. -/
theorem hW7 : (s7 : List (HloOp τ sig (Elt F))).Forall fun op => op.writes ⊆ ((wl7).map (Proc.devRef (τ := τ) .tc)).toFinset :=
  ⟨single_sub (y := main_v46) (by decide), single_sub (y := main_v47) (by decide), single_sub (y := main_v48) (by decide), single_sub (y := main_v49) (by decide), single_sub (y := main_call2_v0) (by decide), single_sub (y := main_call2_v1) (by decide), single_sub (y := main_call2_cst) (by decide), single_sub (y := main_call2_v2) (by decide), single_sub (y := main_call2_v3) (by decide), single_sub (y := main_call2_cst_0) (by decide), single_sub (y := main_call2_v4) (by decide), single_sub (y := main_call2_v5) (by decide), single_sub (y := main_v50) (by decide)⟩

/-- A buffer stretch 7 does not write keeps its contents. -/
theorem keep7 (W : Valuation τ sig (Elt F)) {r : Ref sig .tc} (hr : r ∉ wl7) :
    after s7 W (no_index (Proc.devRef .tc r)) = W (Proc.devRef .tc r) :=
  after_of_writes_sub s7 W hW7 hr

/-- Each operation of stretch 8 writes one of the listed buffers. -/
theorem hW8 : (s8 : List (HloOp τ sig (Elt F))).Forall fun op => op.writes ⊆ ((wl8).map (Proc.devRef (τ := τ) .tc)).toFinset :=
  ⟨single_sub (y := main_v51) (by decide), single_sub (y := main_v52) (by decide), single_sub (y := main_v53) (by decide), single_sub (y := main_v54) (by decide), single_sub (y := main_v55) (by decide), single_sub (y := main_v56) (by decide), single_sub (y := main_cst) (by decide), single_sub (y := main_v57) (by decide), single_sub (y := main_v58) (by decide), single_sub (y := main_cst_7) (by decide), single_sub (y := main_v59) (by decide), single_sub (y := main_v60) (by decide), single_sub (y := main_v61) (by decide), single_sub (y := main_v62) (by decide)⟩

/-- A buffer stretch 8 does not write keeps its contents. -/
theorem keep8 (W : Valuation τ sig (Elt F)) {r : Ref sig .tc} (hr : r ∉ wl8) :
    after s8 W (no_index (Proc.devRef .tc r)) = W (Proc.devRef .tc r) :=
  after_of_writes_sub s8 W hW8 hr

/-- Each operation of stretch 9 writes one of the listed buffers. -/
theorem hW9 : (s9 : List (HloOp τ sig (Elt F))).Forall fun op => op.writes ⊆ ((wl9).map (Proc.devRef (τ := τ) .tc)).toFinset :=
  ⟨single_sub (y := main_cst_8) (by decide), single_sub (y := main_v63) (by decide), single_sub (y := main_v64) (by decide), single_sub (y := main_v65) (by decide)⟩

/-- A buffer stretch 9 does not write keeps its contents. -/
theorem keep9 (W : Valuation τ sig (Elt F)) {r : Ref sig .tc} (hr : r ∉ wl9) :
    after s9 W (no_index (Proc.devRef .tc r)) = W (Proc.devRef .tc r) :=
  after_of_writes_sub s9 W hW9 hr

/-- Each operation of stretch 10 writes one of the listed buffers. -/
theorem hW10 : (s10 : List (HloOp τ sig (Elt F))).Forall fun op => op.writes ⊆ ((wl10).map (Proc.devRef (τ := τ) .tc)).toFinset :=
  ⟨single_sub (y := main_v66) (by decide), single_sub (y := main_v67) (by decide), single_sub (y := main_v68) (by decide), single_sub (y := main_v69) (by decide), single_sub (y := main_v70) (by decide), single_sub (y := main_call3_v0) (by decide), single_sub (y := main_call3_v1) (by decide), single_sub (y := main_call3_cst) (by decide), single_sub (y := main_call3_v2) (by decide), single_sub (y := main_call3_v3) (by decide), single_sub (y := main_call3_cst_0) (by decide), single_sub (y := main_call3_v4) (by decide), single_sub (y := main_call3_v5) (by decide), single_sub (y := main_v71) (by decide)⟩

/-- A buffer stretch 10 does not write keeps its contents. -/
theorem keep10 (W : Valuation τ sig (Elt F)) {r : Ref sig .tc} (hr : r ∉ wl10) :
    after s10 W (no_index (Proc.devRef .tc r)) = W (Proc.devRef .tc r) :=
  after_of_writes_sub s10 W hW10 hr

/-- Each operation of stretch 11 writes one of the listed buffers. -/
theorem hW11 : (s11 : List (HloOp τ sig (Elt F))).Forall fun op => op.writes ⊆ ((wl11).map (Proc.devRef (τ := τ) .tc)).toFinset :=
  ⟨single_sub (y := main_v72) (by decide), single_sub (y := main_v73) (by decide), single_sub (y := main_v74) (by decide), single_sub (y := main_v75) (by decide), single_sub (y := main_v76) (by decide), single_sub (y := main_v77) (by decide), single_sub (y := main_v78) (by decide), single_sub (y := main_v79) (by decide), single_sub (y := main_v80) (by decide), single_sub (y := main_v81) (by decide), single_sub (y := main_v82) (by decide), single_sub (y := main_v83) (by decide), single_sub (y := main_v84) (by decide), single_sub (y := main_v85) (by decide)⟩

/-- A buffer stretch 11 does not write keeps its contents. -/
theorem keep11 (W : Valuation τ sig (Elt F)) {r : Ref sig .tc} (hr : r ∉ wl11) :
    after s11 W (no_index (Proc.devRef .tc r)) = W (Proc.devRef .tc r) :=
  after_of_writes_sub s11 W hW11 hr

/-- An argument buffer is written by no operation: the whole line leaves it as it was. -/
theorem after_ops_arg (V : Valuation τ sig (Elt F)) {r : Ref sig .tc} (h1 : r ∉ wl1) (h2 : r ∉ wl2) (h3 : r ∉ wl3) (h4 : r ∉ wl4) (h5 : r ∉ wl5) (h6 : r ∉ wl6) (h7 : r ∉ wl7) (h8 : r ∉ wl8) (h9 : r ∉ wl9) (h10 : r ∉ wl10) (h11 : r ∉ wl11) :
    after ops V (Proc.devRef .tc r) = V (Proc.devRef .tc r) := by
  rw [ops_split]
  simp only [after_append]
  rw [keep11 _ h11, keep10 _ h10, keep9 _ h9, keep8 _ h8, keep7 _ h7, keep6 _ h6, keep5 _ h5, keep4 _ h4, keep3 _ h3, keep2 _ h2, keep1 _ h1]

/-- On every device, from any memory with zero counters: every weakly fair execution of the reference program
    terminates with each argument buffer unchanged. -/
theorem frame_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_arg0).trans (after_ops_arg _ (by decide) (by decide) (by decide) (by decide) (by decide) (by decide) (by decide) (by decide) (by decide) (by decide) (by decide)),
      (h c main_arg1).trans (after_ops_arg _ (by decide) (by decide) (by decide) (by decide) (by decide) (by decide) (by decide) (by decide) (by decide) (by decide) (by decide)),
      (h c main_arg2).trans (after_ops_arg _ (by decide) (by decide) (by decide) (by decide) (by decide) (by decide) (by decide) (by decide) (by decide) (by decide) (by decide)),
      (h c main_arg3).trans (after_ops_arg _ (by decide) (by decide) (by decide) (by decide) (by decide) (by decide) (by decide) (by decide) (by decide) (by decide) (by decide)),
      (h c main_arg4).trans (after_ops_arg _ (by decide) (by decide) (by decide) (by decide) (by decide) (by decide) (by decide) (by decide) (by decide) (by decide) (by decide)),
      (h c main_arg5).trans (after_ops_arg _ (by decide) (by decide) (by decide) (by decide) (by decide) (by decide) (by decide) (by decide) (by decide) (by decide) (by decide)),
      (h c main_arg6).trans (after_ops_arg _ (by decide) (by decide) (by decide) (by decide) (by decide) (by decide) (by decide) (by decide) (by decide) (by decide) (by decide)),
      (h c main_arg7).trans (after_ops_arg _ (by decide) (by decide) (by decide) (by decide) (by decide) (by decide) (by decide) (by decide) (by decide) (by decide) (by decide)),
      (h c main_arg8).trans (after_ops_arg _ (by decide) (by decide) (by decide) (by decide) (by decide) (by decide) (by decide) (by decide) (by decide) (by decide) (by decide)),
      (h c main_arg9).trans (after_ops_arg _ (by decide) (by decide) (by decide) (by decide) (by decide) (by decide) (by decide) (by decide) (by decide) (by decide) (by decide)),
      (h c main_arg10).trans (after_ops_arg _ (by decide) (by decide) (by decide) (by decide) (by decide) (by decide) (by decide) (by decide) (by decide) (by decide) (by decide)),
      (h c main_arg11).trans (after_ops_arg _ (by decide) (by decide) (by decide) (by decide) (by decide) (by decide) (by decide) (by decide) (by decide) (by decide) (by decide)),
      (h c main_arg12).trans (after_ops_arg _ (by decide) (by decide) (by decide) (by decide) (by decide) (by decide) (by decide) (by decide) (by decide) (by decide) (by decide)),
      (h c main_arg13).trans (after_ops_arg _ (by decide) (by decide) (by decide) (by decide) (by decide) (by decide) (by decide) (by decide) (by decide) (by decide) (by decide)),
      (h c main_arg14).trans (after_ops_arg _ (by decide) (by decide) (by decide) (by decide) (by decide) (by decide) (by decide) (by decide) (by decide) (by decide) (by decide)),
      (h c main_arg15).trans (after_ops_arg _ (by decide) (by decide) (by decide) (by decide) (by decide) (by decide) (by decide) (by decide) (by decide) (by decide) (by decide)),
      (h c main_arg16).trans (after_ops_arg _ (by decide) (by decide) (by decide) (by decide) (by decide) (by decide) (by decide) (by decide) (by decide) (by decide) (by decide)),
      (h c main_arg17).trans (after_ops_arg _ (by decide) (by decide) (by decide) (by decide) (by decide) (by decide) (by decide) (by decide) (by decide) (by decide) (by decide))⟩)
    (run_seq scopedRefs_eq scopedSems_eq defs main (fun _ => ops) main_eq (fun _ => ops_sub) m ρ)

/-! ## What each stretch leaves, over any contents it starts from -/

set_option maxRecDepth 8192 in
/-- Stretch 1 leaves the positions: the first two input channels. -/
theorem st1_v0 (W : Valuation τ sig (Elt F)) :
    after s1 W (main_v0 : DevRef τ sig) = Cert.Stages.posOf (W (main_arg0 : DevRef τ sig)) := by
  unfold s1
  after_results_simp <;> (try simp only [TRef.toBuf, TRef.ofBuf, cast_eq, id]) <;> rfl

set_option maxRecDepth 8192 in
/-- Stretch 1 leaves the node embedding. -/
theorem st1_v4 (W : Valuation τ sig (Elt F)) :
    after s1 W (main_v4 : DevRef τ sig) = Cert.Stages.embed (W (main_arg0 : DevRef τ sig)) (W (main_arg2 : DevRef τ sig)) (W (main_arg3 : DevRef τ sig)) := by
  unfold s1
  after_results_simp <;> (try simp only [TRef.toBuf, TRef.ofBuf, cast_eq, id]) <;> rfl

set_option maxRecDepth 8192 in
/-- Stretch 1 leaves the edges' start nodes. -/
theorem st1_v6 (W : Valuation τ sig (Elt F)) :
    after s1 W (main_v6 : DevRef τ sig) = Cert.Stages.estOf (W (main_arg1 : DevRef τ sig)) := by
  unfold s1
  after_results_simp <;> (try simp only [TRef.toBuf, TRef.ofBuf, cast_eq, id]) <;> rfl

set_option maxRecDepth 8192 in
/-- Stretch 1 leaves the edges' end nodes. -/
theorem st1_v8 (W : Valuation τ sig (Elt F)) :
    after s1 W (main_v8 : DevRef τ sig) = Cert.Stages.eendOf (W (main_arg1 : DevRef τ sig)) := by
  unfold s1
  after_results_simp <;> (try simp only [TRef.toBuf, TRef.ofBuf, cast_eq, id]) <;> rfl

set_option maxRecDepth 8192 in
/-- Stretch 2 leaves each edge's start position. -/
theorem st2_v15 (W : Valuation τ sig (Elt F)) :
    after s2 W (main_v15 : DevRef τ sig) = Host.gather gather_S50000x2_S800000x1_S800000x2_1_0_n_n_0_1_12 (W (main_v0 : DevRef τ sig)) (Cert.Stages.wrapIdx (W (main_v6 : DevRef τ sig))) := by
  unfold s2
  after_results_simp <;> (try simp only [TRef.toBuf, TRef.ofBuf, cast_eq, id]) <;> rfl

set_option maxRecDepth 8192 in
/-- Stretch 3 leaves each edge's length: the root of the sum of squares of the start position minus the end position. -/
theorem st3_v25 (W : Valuation τ sig (Elt F)) :
    after s3 W (main_v25 : DevRef τ sig) = broadcastInDim S800000x1 ![0] bcast_S800000_S800000x1_0 (Host.sqrt (Host.reduceAdd (mulf (subf (W (main_v15 : DevRef τ sig)) (Host.gather gather_S50000x2_S800000x1_S800000x2_1_0_n_n_0_1_12 (W (main_v0 : DevRef τ sig)) (Cert.Stages.wrapIdx (W (main_v8 : DevRef τ sig))))) (subf (W (main_v15 : DevRef τ sig)) (Host.gather gather_S50000x2_S800000x1_S800000x2_1_0_n_n_0_1_12 (W (main_v0 : DevRef τ sig)) (Cert.Stages.wrapIdx (W (main_v8 : DevRef τ sig)))))) (constant S_ .f32 0x00000000#32) reducesTo_S800000x2_S800000_d1 h_S_)) := by
  unfold s3
  after_results_simp <;> (try simp only [TRef.toBuf, TRef.ofBuf, cast_eq, id]) <;> rfl

set_option maxRecDepth 8192 in
/-- Stretch 4 leaves each edge's start node's embedding row. -/
theorem st4_v32 (W : Valuation τ sig (Elt F)) :
    after s4 W (main_v32 : DevRef τ sig) = Cert.Stages.gatherH (W (main_v4 : DevRef τ sig)) (Cert.Stages.wrapIdx (W (main_v6 : DevRef τ sig))) := by
  unfold s4
  after_results_simp <;> (try simp only [TRef.toBuf, TRef.ofBuf, cast_eq, id]) <;> rfl

set_option maxRecDepth 8192 in
/-- Stretch 5 leaves each edge's end node's embedding row. -/
theorem st5_v39 (W : Valuation τ sig (Elt F)) :
    after s5 W (main_v39 : DevRef τ sig) = Cert.Stages.gatherH (W (main_v4 : DevRef τ sig)) (Cert.Stages.wrapIdx (W (main_v8 : DevRef τ sig))) := by
  unfold s5
  after_results_simp <;> (try simp only [TRef.toBuf, TRef.ofBuf, cast_eq, id]) <;> rfl

set_option maxRecDepth 8192 in
/-- Stretch 6 leaves the edge network's first layer, activated. -/
theorem st6_v45 (W : Valuation τ sig (Elt F)) :
    after s6 W (main_v45 : DevRef τ sig) = Cert.Stages.siluE (Cert.Stages.lin1 (Cert.Stages.cat3 (W (main_v32 : DevRef τ sig)) (W (main_v39 : DevRef τ sig)) (W (main_v25 : DevRef τ sig))) (W (main_arg4 : DevRef τ sig)) (W (main_arg5 : DevRef τ sig))) := by
  unfold s6
  after_results_simp <;> (try simp only [TRef.toBuf, TRef.ofBuf, cast_eq, id]) <;> rfl

set_option maxRecDepth 8192 in
/-- Stretch 7 leaves the edge network's second layer, activated: the message. -/
theorem st7_v50 (W : Valuation τ sig (Elt F)) :
    after s7 W (main_v50 : DevRef τ sig) = Cert.Stages.siluE (Cert.Stages.lin2 (W (main_v45 : DevRef τ sig)) (W (main_arg6 : DevRef τ sig)) (W (main_arg7 : DevRef τ sig))) := by
  unfold s7
  after_results_simp <;> (try simp only [TRef.toBuf, TRef.ofBuf, cast_eq, id]) <;> rfl

set_option maxRecDepth 8192 in
/-- Stretch 8 leaves the gated message. -/
theorem st8_v62 (W : Valuation τ sig (Elt F)) :
    after s8 W (main_v62 : DevRef τ sig) = Cert.Stages.edgeOut (W (main_v50 : DevRef τ sig)) (W (main_arg8 : DevRef τ sig)) (W (main_arg9 : DevRef τ sig)) := by
  unfold s8
  after_results_simp <;> (try simp only [TRef.toBuf, TRef.ofBuf, cast_eq, id]) <;> rfl

set_option maxRecDepth 8192 in
/-- Stretch 9 leaves, per node, the sum of the gated messages of the edges starting there. -/
theorem st9_v65 (W : Valuation τ sig (Elt F)) :
    after s9 W (main_v65 : DevRef τ sig) = Cert.Stages.scatterMi (W (main_v6 : DevRef τ sig)) (W (main_v62 : DevRef τ sig)) := by
  unfold s9
  after_results_simp <;> (try simp only [TRef.toBuf, TRef.ofBuf, cast_eq, id]) <;> rfl

set_option maxRecDepth 8192 in
/-- Stretch 10 leaves the node network's first layer, activated. -/
theorem st10_v71 (W : Valuation τ sig (Elt F)) :
    after s10 W (main_v71 : DevRef τ sig) = Cert.Stages.siluN (Cert.Stages.lin3 (W (main_v4 : DevRef τ sig)) (W (main_v65 : DevRef τ sig)) (W (main_arg10 : DevRef τ sig)) (W (main_arg11 : DevRef τ sig))) := by
  unfold s10
  after_results_simp <;> (try simp only [TRef.toBuf, TRef.ofBuf, cast_eq, id]) <;> rfl

set_option maxRecDepth 8192 in
/-- Stretch 11 leaves the result: the residual node update and the output head. -/
theorem st11_v85 (W : Valuation τ sig (Elt F)) :
    after s11 W (main_v85 : DevRef τ sig) = addf (Host.dotGeneral dot_S50000x128_S128x3_S50000x3_1_0_0_1_n_n none (Host.tanh (addf (Host.dotGeneral dot_S50000x128_S128x128_S50000x128_1_0_0_1_n_n none (addf (W (main_v4 : DevRef τ sig)) (addf (Host.dotGeneral dot_S50000x128_S128x128_S50000x128_1_0_0_1_n_n none (W (main_v71 : DevRef τ sig)) (W (main_arg12 : DevRef τ sig))) (broadcastInDim S50000x128 ![0, 1] bcast_S1x128_S50000x128_0_1 (broadcastInDim S1x128 ![1] bcast_S128_S1x128_1 (W (main_arg13 : DevRef τ sig)))))) (W (main_arg14 : DevRef τ sig))) (broadcastInDim S50000x128 ![0, 1] bcast_S1x128_S50000x128_0_1 (broadcastInDim S1x128 ![1] bcast_S128_S1x128_1 (W (main_arg15 : DevRef τ sig)))))) (W (main_arg16 : DevRef τ sig))) (broadcastInDim S50000x3 ![0, 1] bcast_S1x3_S50000x3_0_1 (broadcastInDim S1x3 ![1] bcast_S3_S1x3_1 (W (main_arg17 : DevRef τ sig)))) := by
  unfold s11
  after_results_simp <;> (try simp only [TRef.toBuf, TRef.ofBuf, cast_eq, id]) <;> rfl

/-! ## The line's result -/

set_option maxRecDepth 8192 in
/-- The whole line leaves, at the result buffer, the composed stages of the eighteen argument arrays: each stretch's
    value read at what the stretches before it left, back to the contents the line starts from. -/
theorem after_ops_v85 (V : Valuation τ sig (Elt F)) :
    after ops V (main_v85 : DevRef τ sig) = Cert.Stages.whole (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [ops_split]
  simp only [after_append]
  rw [st11_v85]
  rw [keep10 _ (r := main_v4) (by decide), keep10 _ (r := main_arg12) (by decide), keep10 _ (r := main_arg13) (by decide), keep10 _ (r := main_arg14) (by decide), keep10 _ (r := main_arg15) (by decide), keep10 _ (r := main_arg16) (by decide), keep10 _ (r := main_arg17) (by decide)]
  rw [st10_v71]
  rw [keep9 _ (r := main_v4) (by decide), keep9 _ (r := main_arg10) (by decide), keep9 _ (r := main_arg11) (by decide), keep9 _ (r := main_arg12) (by decide), keep9 _ (r := main_arg13) (by decide), keep9 _ (r := main_arg14) (by decide), keep9 _ (r := main_arg15) (by decide), keep9 _ (r := main_arg16) (by decide), keep9 _ (r := main_arg17) (by decide)]
  rw [st9_v65]
  rw [keep8 _ (r := main_v4) (by decide), keep8 _ (r := main_v6) (by decide), keep8 _ (r := main_arg10) (by decide), keep8 _ (r := main_arg11) (by decide), keep8 _ (r := main_arg12) (by decide), keep8 _ (r := main_arg13) (by decide), keep8 _ (r := main_arg14) (by decide), keep8 _ (r := main_arg15) (by decide), keep8 _ (r := main_arg16) (by decide), keep8 _ (r := main_arg17) (by decide)]
  rw [st8_v62]
  rw [keep7 _ (r := main_v4) (by decide), keep7 _ (r := main_v6) (by decide), keep7 _ (r := main_arg8) (by decide), keep7 _ (r := main_arg9) (by decide), keep7 _ (r := main_arg10) (by decide), keep7 _ (r := main_arg11) (by decide), keep7 _ (r := main_arg12) (by decide), keep7 _ (r := main_arg13) (by decide), keep7 _ (r := main_arg14) (by decide), keep7 _ (r := main_arg15) (by decide), keep7 _ (r := main_arg16) (by decide), keep7 _ (r := main_arg17) (by decide)]
  rw [st7_v50]
  rw [keep6 _ (r := main_v4) (by decide), keep6 _ (r := main_v6) (by decide), keep6 _ (r := main_arg6) (by decide), keep6 _ (r := main_arg7) (by decide), keep6 _ (r := main_arg8) (by decide), keep6 _ (r := main_arg9) (by decide), keep6 _ (r := main_arg10) (by decide), keep6 _ (r := main_arg11) (by decide), keep6 _ (r := main_arg12) (by decide), keep6 _ (r := main_arg13) (by decide), keep6 _ (r := main_arg14) (by decide), keep6 _ (r := main_arg15) (by decide), keep6 _ (r := main_arg16) (by decide), keep6 _ (r := main_arg17) (by decide)]
  rw [st6_v45]
  rw [keep5 _ (r := main_v4) (by decide), keep5 _ (r := main_v6) (by decide), keep5 _ (r := main_v32) (by decide), keep5 _ (r := main_v25) (by decide), keep5 _ (r := main_arg4) (by decide), keep5 _ (r := main_arg5) (by decide), keep5 _ (r := main_arg6) (by decide), keep5 _ (r := main_arg7) (by decide), keep5 _ (r := main_arg8) (by decide), keep5 _ (r := main_arg9) (by decide), keep5 _ (r := main_arg10) (by decide), keep5 _ (r := main_arg11) (by decide), keep5 _ (r := main_arg12) (by decide), keep5 _ (r := main_arg13) (by decide), keep5 _ (r := main_arg14) (by decide), keep5 _ (r := main_arg15) (by decide), keep5 _ (r := main_arg16) (by decide), keep5 _ (r := main_arg17) (by decide)]
  rw [st5_v39]
  rw [keep4 _ (r := main_v4) (by decide), keep4 _ (r := main_v6) (by decide), keep4 _ (r := main_v8) (by decide), keep4 _ (r := main_v25) (by decide), keep4 _ (r := main_arg4) (by decide), keep4 _ (r := main_arg5) (by decide), keep4 _ (r := main_arg6) (by decide), keep4 _ (r := main_arg7) (by decide), keep4 _ (r := main_arg8) (by decide), keep4 _ (r := main_arg9) (by decide), keep4 _ (r := main_arg10) (by decide), keep4 _ (r := main_arg11) (by decide), keep4 _ (r := main_arg12) (by decide), keep4 _ (r := main_arg13) (by decide), keep4 _ (r := main_arg14) (by decide), keep4 _ (r := main_arg15) (by decide), keep4 _ (r := main_arg16) (by decide), keep4 _ (r := main_arg17) (by decide)]
  rw [st4_v32]
  rw [keep3 _ (r := main_v4) (by decide), keep3 _ (r := main_v6) (by decide), keep3 _ (r := main_v8) (by decide), keep3 _ (r := main_arg4) (by decide), keep3 _ (r := main_arg5) (by decide), keep3 _ (r := main_arg6) (by decide), keep3 _ (r := main_arg7) (by decide), keep3 _ (r := main_arg8) (by decide), keep3 _ (r := main_arg9) (by decide), keep3 _ (r := main_arg10) (by decide), keep3 _ (r := main_arg11) (by decide), keep3 _ (r := main_arg12) (by decide), keep3 _ (r := main_arg13) (by decide), keep3 _ (r := main_arg14) (by decide), keep3 _ (r := main_arg15) (by decide), keep3 _ (r := main_arg16) (by decide), keep3 _ (r := main_arg17) (by decide)]
  rw [st3_v25]
  rw [keep2 _ (r := main_v0) (by decide), keep2 _ (r := main_v4) (by decide), keep2 _ (r := main_v6) (by decide), keep2 _ (r := main_v8) (by decide), keep2 _ (r := main_arg4) (by decide), keep2 _ (r := main_arg5) (by decide), keep2 _ (r := main_arg6) (by decide), keep2 _ (r := main_arg7) (by decide), keep2 _ (r := main_arg8) (by decide), keep2 _ (r := main_arg9) (by decide), keep2 _ (r := main_arg10) (by decide), keep2 _ (r := main_arg11) (by decide), keep2 _ (r := main_arg12) (by decide), keep2 _ (r := main_arg13) (by decide), keep2 _ (r := main_arg14) (by decide), keep2 _ (r := main_arg15) (by decide), keep2 _ (r := main_arg16) (by decide), keep2 _ (r := main_arg17) (by decide)]
  rw [st2_v15]
  rw [keep1 _ (r := main_arg4) (by decide), keep1 _ (r := main_arg5) (by decide), keep1 _ (r := main_arg6) (by decide), keep1 _ (r := main_arg7) (by decide), keep1 _ (r := main_arg8) (by decide), keep1 _ (r := main_arg9) (by decide), keep1 _ (r := main_arg10) (by decide), keep1 _ (r := main_arg11) (by decide), keep1 _ (r := main_arg12) (by decide), keep1 _ (r := main_arg13) (by decide), keep1 _ (r := main_arg14) (by decide), keep1 _ (r := main_arg15) (by decide), keep1 _ (r := main_arg16) (by decide), keep1 _ (r := main_arg17) (by decide)]
  rw [st1_v0, st1_v4, st1_v6, st1_v8]
  rfl

/-- On every device, from any memory with zero counters: every weakly fair execution of the reference program
    terminates with the result buffer at the composed stages of the arguments' launch contents, the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v85) = Cert.Stages.whole (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v85).trans (after_ops_v85 _),
      (h c main_arg0).trans (after_ops_arg _ (by decide) (by decide) (by decide) (by decide) (by decide) (by decide) (by decide) (by decide) (by decide) (by decide) (by decide)),
      (h c main_arg1).trans (after_ops_arg _ (by decide) (by decide) (by decide) (by decide) (by decide) (by decide) (by decide) (by decide) (by decide) (by decide) (by decide)),
      (h c main_arg2).trans (after_ops_arg _ (by decide) (by decide) (by decide) (by decide) (by decide) (by decide) (by decide) (by decide) (by decide) (by decide) (by decide)),
      (h c main_arg3).trans (after_ops_arg _ (by decide) (by decide) (by decide) (by decide) (by decide) (by decide) (by decide) (by decide) (by decide) (by decide) (by decide)),
      (h c main_arg4).trans (after_ops_arg _ (by decide) (by decide) (by decide) (by decide) (by decide) (by decide) (by decide) (by decide) (by decide) (by decide) (by decide)),
      (h c main_arg5).trans (after_ops_arg _ (by decide) (by decide) (by decide) (by decide) (by decide) (by decide) (by decide) (by decide) (by decide) (by decide) (by decide)),
      (h c main_arg6).trans (after_ops_arg _ (by decide) (by decide) (by decide) (by decide) (by decide) (by decide) (by decide) (by decide) (by decide) (by decide) (by decide)),
      (h c main_arg7).trans (after_ops_arg _ (by decide) (by decide) (by decide) (by decide) (by decide) (by decide) (by decide) (by decide) (by decide) (by decide) (by decide)),
      (h c main_arg8).trans (after_ops_arg _ (by decide) (by decide) (by decide) (by decide) (by decide) (by decide) (by decide) (by decide) (by decide) (by decide) (by decide)),
      (h c main_arg9).trans (after_ops_arg _ (by decide) (by decide) (by decide) (by decide) (by decide) (by decide) (by decide) (by decide) (by decide) (by decide) (by decide)),
      (h c main_arg10).trans (after_ops_arg _ (by decide) (by decide) (by decide) (by decide) (by decide) (by decide) (by decide) (by decide) (by decide) (by decide) (by decide)),
      (h c main_arg11).trans (after_ops_arg _ (by decide) (by decide) (by decide) (by decide) (by decide) (by decide) (by decide) (by decide) (by decide) (by decide) (by decide)),
      (h c main_arg12).trans (after_ops_arg _ (by decide) (by decide) (by decide) (by decide) (by decide) (by decide) (by decide) (by decide) (by decide) (by decide) (by decide)),
      (h c main_arg13).trans (after_ops_arg _ (by decide) (by decide) (by decide) (by decide) (by decide) (by decide) (by decide) (by decide) (by decide) (by decide) (by decide)),
      (h c main_arg14).trans (after_ops_arg _ (by decide) (by decide) (by decide) (by decide) (by decide) (by decide) (by decide) (by decide) (by decide) (by decide) (by decide)),
      (h c main_arg15).trans (after_ops_arg _ (by decide) (by decide) (by decide) (by decide) (by decide) (by decide) (by decide) (by decide) (by decide) (by decide) (by decide)),
      (h c main_arg16).trans (after_ops_arg _ (by decide) (by decide) (by decide) (by decide) (by decide) (by decide) (by decide) (by decide) (by decide) (by decide) (by decide)),
      (h c main_arg17).trans (after_ops_arg _ (by decide) (by decide) (by decide) (by decide) (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.lean ====
/-
  The certificate of the message-passing kernel against its reference: N = 50000 nodes, E = 800000 edges, 32 input
  channels, 128 hidden channels, 3 output channels.

  Both programs compute, from the same eighteen arrays,
    h      = x · W_emb + b_emb                                              (per node)
    dist   = |pos[e_st] − pos[e_end]|,  pos = the first two channels of x    (per edge)
    m_ij   = silu(silu([h[e_st], h[e_end], dist] · W_e1 + b_e1) · W_e2 + b_e2)
    gated  = 1 / (1 + e^(−(m_ij · W_inf + b_inf))) · m_ij
    m_i    = the sum of gated over the edges that start at node i
    h'     = h + (silu([h, m_i] · W_h1 + b_h1) · W_h2 + b_h2)
    out    = tanh(h' · W_l1 + b_l1) · W_l2 + b_l2,
  silu(x) = x · 1 / (1 + e^(−x)). The reference does it with whole-array host operations. The kernel tiles the three
  dense stages over rows (5000 nodes, 8000 edges, 5000 nodes per grid point), computes the gathers, the distance and
  the scatter-add with host operations between the regions, rounds some operands to bf16, and splits the edge network's
  first layer as  [h[e_st], h[e_end]] · W_e1[0:256] + dist · W_e1[256].  At the extended reals a change of float format
  is the identity, a product of a row tile is the corresponding rows of the whole product, the kernel's logistic is the
  reference's 1 / (1 + e^(−x)), and a sum over 257 terms is the sum of its first 256 plus the last: so both results are
  ONE function of the arguments, `Cert.Stages.whole`.

  The frames of the two kernel programs are their frame certificates (three regions among host stretches, each region
  storing its whole output block once per grid point); the reference's frame is its run with the result dropped; the
  idealization rewrote no operation, so there is nothing to preserve.
-/
import proofs.«125594_j55594056679488_2_alg».proof.Defs
import proofs.«125594_j55594056679488_2_alg».proof.Proof.Gen.Kernel
import proofs.«125594_j55594056679488_2_alg».proof.Proof.Gen.KernelIdeal
import proofs.«125594_j55594056679488_2_alg».proof.Proof.Gen.ReferenceIdeal
import proofs.«125594_j55594056679488_2_alg».proof.Proof.Gen.Pre_finite_inputs
import proofs.«125594_j55594056679488_2_alg».proof.Proof.KernelFrameP
import proofs.«125594_j55594056679488_2_alg».proof.Proof.KernelIdealFrameP
import proofs.«125594_j55594056679488_2_alg».proof.Proof.KernelRun
import proofs.«125594_j55594056679488_2_alg».proof.Proof.KernelValue
import proofs.«125594_j55594056679488_2_alg».proof.Proof.RefRun
import Idealize.ShloMosaic.Adequacy
import Idealize.ShloMosaic.Init

noncomputable section

namespace Cert.Proof

open Idealize.ShloMosaic Idealize.SL.Sem

/-- The kernel as printed: every execution terminates without a fault and leaves the arguments as launched. -/
theorem frame_kernel : Cert.frame_Kernel := fun m ρ _ => Cert.Kernel.GenP.frame m ρ

/-- The same of the idealized kernel. -/
theorem frame_kernelIdeal : Cert.frame_KernelIdeal := fun m ρ _ => Cert.KernelIdeal.GenP.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both programs end with the result array at `Cert.Stages.whole` of the
    arguments: the kernel's result is the last segment boundary's contents of its buffer, which are that function
    of the launch arrays; the reference's run states its result as that function outright. -/
theorem algebraic : Cert.algebraic_KernelIdeal_ReferenceIdeal := by
  intro m ρ m' ρ' _ hagree
  refine ⟨fun c => Cert.Stages.whole (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.KernelValue.result m ρ c), (h c).2⟩)
      (Cert.KernelIdeal.KernelRun.run_named m ρ)
  · refine (θ_run Cert.ReferenceIdeal.defs _ _).mono (fun r h c => ⟨(h c).1.trans ?_, (h c).2⟩)
      (Cert.ReferenceIdeal.RefRun.run m' ρ')
    obtain ⟨a0, a1, a2, a3, a4, a5, a6, a7, a8, a9, a10, a11, a12, a13, a14, a15, a16, a17⟩ := hagree c
    rw [a0, a1, a2, a3, a4, a5, a6, a7, a8, a9, a10, a11, a12, a13, a14, a15, a16, a17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
